-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S4096x128 : Shape := ⟨2, ![4096, 128]⟩
abbrev S4096x32768 : Shape := ⟨2, ![4096, 32768]⟩
abbrev S_ : Shape := ⟨0, ![]⟩
abbrev S4096 : Shape := ⟨1, ![4096]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096x32768 : S_.BroadcastsInDim S4096x32768 (![] : Fin 0 → Fin S4096x32768.rank)
  reducesTo_S4096x32768_S_d0_1 : S4096x32768.ReducesTo [0, 1] S_
  reducesTo_S4096x32768_S4096_d1 : S4096x32768.ReducesTo [1] S4096
  bcast_S_S4096 : S_.BroadcastsInDim S4096 (![] : Fin 0 → Fin S4096.rank)
  reducesTo_S4096_S_d0 : S4096.ReducesTo [0] S_

variable [Facts]

def fn_part1 {F : FTy → Type} [FloatOps F] (main_arg2 : FVec F S4096x32768 .f32) (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  let main_cst_6 : FVec F S_ .f32 := constant S_ .f32 0x00000000#32
  let main_v19 : FVec F S4096 .f32 := (fun x v => Host.reduceAdd x v reducesTo_S4096x32768_S4096_d1 h_S_) main_arg2 main_cst_6
  let main_cst_7 : FVec F S_ .f32 := constant S_ .f32 0x00000000#32
  let main_v20 : FVec F S4096 .f32 := broadcastInDim S4096 ![] bcast_S_S4096 main_cst_7
  let main_v21 : IVec S4096 1 := cmpf .une main_v19 main_v20
  let main_c_8 : IVec S_ 1 := constantI S_ 1 1#1
  let main_v22 : IVec S_ 1 := (fun x v => Host.reduce IntOp.andi x v reducesTo_S4096_S_d0 h_S_) main_v21 main_c_8
  let main_v23 : IVec S_ 1 := andi main_v18 main_v22
  main_v23

def fn {F : FTy → Type} [FloatOps F] (main_arg0 : FVec F S32768x128 .f32) (main_arg1 : FVec F S4096x128 .f32) (main_arg2 : FVec F S4096x32768 .f32) (main_arg3 : FVec F S4096x128 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x32768 .f32 := Host.absf main_arg2
  let main_cst_2 : FVec F S_ .f32 := constant S_ .f32 0x7F800000#32
  let main_v10 : FVec F S4096x32768 .f32 := broadcastInDim S4096x32768 ![] bcast_S_S4096x32768 main_cst_2
  let main_v11 : IVec S4096x32768 1 := cmpf .olt main_v9 main_v10
  let main_c_3 : IVec S_ 1 := constantI S_ 1 1#1
  let main_v12 : IVec S_ 1 := (fun x v => Host.reduce IntOp.andi x v reducesTo_S4096x32768_S_d0_1 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_arg2 main_v13 main_v16
-- ==== Kernel.lean ====
abbrev S32768x128 : Shape := ⟨2, ![32768, 128]⟩
abbrev S4096x128 : Shape := ⟨2, ![4096, 128]⟩
abbrev S4096x32768 : Shape := ⟨2, ![4096, 32768]⟩
abbrev S128x32768 : Shape := ⟨2, ![128, 32768]⟩
abbrev S128x128 : Shape := ⟨2, ![128, 128]⟩
abbrev S1024x128 : Shape := ⟨2, ![1024, 128]⟩
abbrev S128 : Shape := ⟨1, ![128]⟩
abbrev S128x1 : Shape := ⟨2, ![128, 1]⟩
abbrev S4096x1 : Shape := ⟨2, ![4096, 1]⟩
abbrev S512x128 : Shape := ⟨2, ![512, 128]⟩
abbrev S16384x128 : Shape := ⟨2, ![16384, 128]⟩
abbrev S512x1 : Shape := ⟨2, ![512, 1]⟩
abbrev S2048x128 : Shape := ⟨2, ![2048, 128]⟩
abbrev S512x2048 : Shape := ⟨2, ![512, 2048]⟩
abbrev S512 : Shape := ⟨1, ![512]⟩
abbrev S128x512 : Shape := ⟨2, ![128, 512]⟩
abbrev S4096 : Shape := ⟨1, ![4096]⟩

abbrev nBuf : Space → Nat
  | .hbm => 8
  | .vmem => 18
  | .smem => 0
  | _ => 0

abbrev bufTy : (tb : Table) → Fin (tcTables nBuf tb) → BufTy
  | .hbm, ⟨0, _⟩ => ⟨S32768x128, .f32⟩
  | .hbm, ⟨1, _⟩ => ⟨S4096x128, .f32⟩
  | .hbm, ⟨2, _⟩ => ⟨S4096x32768, .f32⟩
  | .hbm, ⟨3, _⟩ => ⟨S4096x128, .f32⟩
  | .hbm, ⟨4, _⟩ => ⟨S32768x128, .f32⟩
  | .hbm, ⟨5, _⟩ => ⟨S4096x128, .f32⟩
  | .hbm, ⟨6, _⟩ => ⟨S4096x1, .f32⟩
  | .hbm, ⟨7, _⟩ => ⟨S4096, .f32⟩
  | .local _ .vmem, ⟨0, _⟩ => ⟨S128x32768, .f32⟩
  | .local _ .vmem, ⟨1, _⟩ => ⟨S128x32768, .f32⟩
  | .local _ .vmem, ⟨2, _⟩ => ⟨S128x128, .f32⟩
  | .local _ .vmem, ⟨3, _⟩ => ⟨S128x128, .f32⟩
  | .local _ .vmem, ⟨4, _⟩ => ⟨S1024x128, .f32⟩
  | .local _ .vmem, ⟨5, _⟩ => ⟨S1024x128, .f32⟩
  | .local _ .vmem, ⟨6, _⟩ => ⟨S32768x128, .f32⟩
  | .local _ .vmem, ⟨7, _⟩ => ⟨S512x128, .f32⟩
  | .local _ .vmem, ⟨8, _⟩ => ⟨S512x128, .f32⟩
  | .local _ .vmem, ⟨9, _⟩ => ⟨S16384x128, .f32⟩
  | .local _ .vmem, ⟨10, _⟩ => ⟨S16384x128, .f32⟩
  | .local _ .vmem, ⟨11, _⟩ => ⟨S512x128, .f32⟩
  | .local _ .vmem, ⟨12, _⟩ => ⟨S512x128, .f32⟩
  | .local _ .vmem, ⟨13, _⟩ => ⟨S512x1, .f32⟩
  | .local _ .vmem, ⟨14, _⟩ => ⟨S512x1, .f32⟩
  | .local _ .vmem, ⟨15, _⟩ => ⟨S512x128, .f32⟩
  | .local _ .vmem, ⟨16, _⟩ => ⟨S512x1, .f32⟩
  | .local _ .vmem, ⟨17, _⟩ => ⟨S512x1, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c1024_i32 : BitVec 32 := 1024#32
  let v15 : BitVec 32 := Scalar.muli arg0 c1024_i32
  let v16 : Index := Scalar.indexCast v15
  let c0_11 : Index := 0#32
  ![v16.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32768x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![8, 2], ![false, false]⟩

def k1_cond2 (i : grid1.Coords) : BitVec 1 :=
  let arg1 : BitVec 32 := BitVec.ofNat 32 (i 1).val
  let c1_i32 : BitVec 32 := 1#32
  let v181 : BitVec 1 := Scalar.cmpi .eq arg1 c1_i32
  let v182 : BitVec 32 := Scalar.extui v181
  let c0_i32_54 : BitVec 32 := 0#32
  let v183 : BitVec 1 := Scalar.cmpi .ne v182 c0_i32_54
  v183

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S16384x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S32768x128_S32768x128_0_0 : ∀ a, (![0, 0] : Fin 2 → Nat) a + S32768x128.size a ≤ S32768x128.size a
  h_S32768x128 : 0 < S32768x128.numel
  inb_S128x32768_S128x32768_0_0 : ∀ a, (![0, 0] : Fin 2 → Nat) a + S128x32768.size a ≤ S128x32768.size a
  h_S128x32768 : 0 < S128x32768.numel
  reduces_S128x32768_S128 : S128x32768.Reduces [1] S128
  shapeCasts_S128_S128x1 : S128.ShapeCasts S128x1
  inb_S128x128_S128x128_0_0 : ∀ a, (![0, 0] : Fin 2 → Nat) a + S128x128.size a ≤ S128x128.size a
  h_S128x128 : 0 < S128x128.numel
  broadcasts_S128x1_S128x128 : S128x1.Broadcasts S128x128
  shapeCasts_S32768x128_S32768x128 : S32768x128.ShapeCasts S32768x128
  h_S1024x128 : 0 < S1024x128.numel
  shapeCasts_S1024x128_S1024x128 : S1024x128.ShapeCasts S1024x128
  inb_S1024x128_S1024x128_0_0 : ∀ a, (![0, 0] : Fin 2 → Nat) a + S1024x128.size a ≤ S1024x128.size a
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S16384x128_S2048x128_0_0 : ∀ a, (![0, 0] : Fin 2 → Nat) a + S2048x128.size a ≤ S16384x128.size a
  h_S2048x128 : 0 < S2048x128.numel
  shapeCasts_S2048x128_S2048x128 : S2048x128.ShapeCasts S2048x128
  reduces_S512x2048_S512 : S512x2048.Reduces [1] S512
  shapeCasts_S512_S512x1 : S512.ShapeCasts S512x1
  broadcasts_S512x1_S512x2048 : S512x1.Broadcasts S512x2048
  transposes_S128x512_p1_0_S512x128 : S128x512.Transposes [1, 0] S512x128
  inb_S16384x128_S2048x128_2048_0 : ∀ a, (![2048, 0] : Fin 2 → Nat) a + S2048x128.size a ≤ S16384x128.size a
  inb_S16384x128_S2048x128_4096_0 : ∀ a, (![4096, 0] : Fin 2 → Nat) a + S2048x128.size a ≤ S16384x128.size a
  inb_S16384x128_S2048x128_6144_0 : ∀ a, (![6144, 0] : Fin 2 → Nat) a + S2048x128.size a ≤ S16384x128.size a
  inb_S16384x128_S2048x128_8192_0 : ∀ a, (![8192, 0] : Fin 2 → Nat) a + S2048x128.size a ≤ S16384x128.size a
  inb_S16384x128_S2048x128_10240_0 : ∀ a, (![10240, 0] : Fin 2 → Nat) a + S2048x128.size a ≤ S16384x128.size a
  inb_S16384x128_S2048x128_12288_0 : ∀ a, (![12288, 0] : Fin 2 → Nat) a + S2048x128.size a ≤ S16384x128.size a
  inb_S16384x128_S2048x128_14336_0 : ∀ a, (![14336, 0] : Fin 2 → Nat) a + S2048x128.size a ≤ S16384x128.size a
  broadcasts_S512x1_S512x128 : S512x1.Broadcasts S512x128
  shapeCasts_S4096x1_S4096 : S4096x1.ShapeCasts S4096
  dot_S128x32768_S128x128_S32768x128_0_0_1_1_n_n_wf : DotDims.WF S128x32768 S128x128 S32768x128 [0] [0] [1] [1] [] []
  dot_S512x128_S2048x128_S512x2048_1_1_0_0_n_n_wf : DotDims.WF S512x128 S2048x128 S512x2048 [1] [1] [0] [0] [] []
  dot_S2048x128_S512x2048_S128x512_0_1_1_0_n_n_wf : DotDims.WF S2048x128 S512x2048 S128x512 [0] [1] [1] [0] [] []
  hrank0 : 0 < grid0.rank
  k0_off1_inb : ∀ i : grid0.Coords, ∀ a, (k0_off1 i) a + S1024x128.size a ≤ S32768x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32768.size a ≤ S4096x32768.size a
  hwx0_0 : ∀ i : grid0.Coords, EltTy.bits .f32 = 32 ∨ (Rect.block (s := S4096x32768) S128x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S4096x128.size a
  hwx0_1 : ∀ i : grid0.Coords, EltTy.bits .f32 = 32 ∨ (Rect.block (s := S4096x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S32768x128.size a
  hwx0_2 : ∀ i : grid0.Coords, EltTy.bits .f32 = 32 ∨ (Rect.block (s := S32768x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32768x128.size a ≤ S32768x128.size a
  hwx0_3 : ∀ i : grid0.Coords, EltTy.bits .f32 = 32 ∨ (Rect.block (s := S32768x128) S32768x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S4096x128.size a
  hwx1_0 : ∀ i : grid1.Coords, EltTy.bits .f32 = 32 ∨ (Rect.block (s := S4096x128) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S32768x128.size a
  hwx1_1 : ∀ i : grid1.Coords, EltTy.bits .f32 = 32 ∨ (Rect.block (s := S32768x128) S16384x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S4096x128.size a
  hwx1_2 : ∀ i : grid1.Coords, EltTy.bits .f32 = 32 ∨ (Rect.block (s := S4096x128) S512x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S4096x1.size a
  hwx1_3 : ∀ i : grid1.Coords, EltTy.bits .f32 = 32 ∨ (Rect.block (s := S4096x1) S512x1.size (cc1_transform_3 i) (hinb1_3 i)).WholeWords (EltTy.packing .f32)

variable [Facts₀]

def dot_S128x32768_S128x128_S32768x128_0_0_1_1_n_n : DotDims S128x32768 S128x128 S32768x128 where
  lhsContracting := [0]
  rhsContracting := [0]
  lhsNonContracting := [1]
  rhsNonContracting := [1]
  lhsBatch := []
  rhsBatch := []
  wf := dot_S128x32768_S128x128_S32768x128_0_0_1_1_n_n_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S2048x128_S512x2048_S128x512_0_1_1_0_n_n : DotDims S2048x128 S512x2048 S128x512 where
  lhsContracting := [0]
  rhsContracting := [1]
  lhsNonContracting := [1]
  rhsNonContracting := [0]
  lhsBatch := []
  rhsBatch := []
  wf := dot_S2048x128_S512x2048_S128x512_0_1_1_0_n_n_wf

abbrev win0_0 : Pipeline.Window sig grid0 :=
  Pipeline.Window.ofSpec (Memref.whole main_arg2) S128x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32768x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg3) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16384x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S512x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S512x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

class Facts : Prop extends Facts₀ where

variable [Facts]
-- ==== ReferenceIdeal.lean ====
abbrev S32768x128 : Shape := ⟨2, ![32768, 128]⟩
abbrev S4096x128 : Shape := ⟨2, ![4096, 128]⟩
abbrev S4096x32768 : Shape := ⟨2, ![4096, 32768]⟩
abbrev S_ : Shape := ⟨0, ![]⟩
abbrev S4096 : Shape := ⟨1, ![4096]⟩
abbrev S4096x1 : Shape := ⟨2, ![4096, 1]⟩
abbrev S128x32768 : Shape := ⟨2, ![128, 32768]⟩

abbrev nBuf : Space → Nat
  | .hbm => 30
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S4096x128, .f32⟩
  | .hbm, ⟨2, _⟩ => ⟨S4096x32768, .f32⟩
  | .hbm, ⟨3, _⟩ => ⟨S4096x128, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x32768, .f32⟩
  | .hbm, ⟨8, _⟩ => ⟨S4096x32768, .f32⟩
  | .hbm, ⟨9, _⟩ => ⟨S32768x128, .f32⟩
  | .hbm, ⟨10, _⟩ => ⟨S32768x128, .f32⟩
  | .hbm, ⟨11, _⟩ => ⟨S128x32768, .f32⟩
  | .hbm, ⟨12, _⟩ => ⟨S4096x32768, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096x1, .f32⟩
  | .hbm, ⟨19, _⟩ => ⟨S4096x32768, .f32⟩
  | .hbm, ⟨20, _⟩ => ⟨S4096x32768, .f32⟩
  | .hbm, ⟨21, _⟩ => ⟨S4096x32768, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S4096x32768, .f32⟩
  | .hbm, ⟨26, _⟩ => ⟨S4096x32768, .f32⟩
  | .hbm, ⟨27, _⟩ => ⟨S4096x128, .f32⟩
  | .hbm, ⟨28, _⟩ => ⟨S_, .f32⟩
  | .hbm, ⟨29, _⟩ => ⟨S4096, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  reducesTo_S4096x32768_S4096_d1 : S4096x32768.ReducesTo [1] S4096
  h_S_ : 0 < S_.numel
  bcast_S4096_S4096x1_0 : S4096.BroadcastsInDim S4096x1 (![0] : Fin 1 → Fin S4096x1.rank)
  bcast_S4096x1_S4096x32768_0_1 : S4096x1.BroadcastsInDim S4096x32768 (![0, 1] : Fin 2 → Fin S4096x32768.rank)
  transposes_S32768x128_S128x32768_1_0 : S32768x128.Transposes [1, 0] S128x32768
  bcast_S_S4096 : S_.BroadcastsInDim S4096 (![] : Fin 0 → Fin S4096.rank)
  dot_S4096x32768_S4096x128_S32768x128_0_0_1_1_n_n_wf : DotDims.WF S4096x32768 S4096x128 S32768x128 [0] [0] [1] [1] [] []
  dot_S4096x128_S128x32768_S4096x32768_1_0_0_1_n_n_wf : DotDims.WF S4096x128 S128x32768 S4096x32768 [1] [0] [0] [1] [] []
  dot_S4096x32768_S32768x128_S4096x128_1_0_0_1_n_n_wf : DotDims.WF S4096x32768 S32768x128 S4096x128 [1] [0] [0] [1] [] []

variable [Facts₀]

def dot_S4096x32768_S4096x128_S32768x128_0_0_1_1_n_n : DotDims S4096x32768 S4096x128 S32768x128 where
  lhsContracting := [0]
  rhsContracting := [0]
  lhsNonContracting := [1]
  rhsNonContracting := [1]
  lhsBatch := []
  rhsBatch := []
  wf := dot_S4096x32768_S4096x128_S32768x128_0_0_1_1_n_n_wf
def dot_S4096x128_S128x32768_S4096x32768_1_0_0_1_n_n : DotDims S4096x128 S128x32768 S4096x32768 where
  lhsContracting := [1]
  rhsContracting := [0]
  lhsNonContracting := [0]
  rhsNonContracting := [1]
  lhsBatch := []
  rhsBatch := []
  wf := dot_S4096x128_S128x32768_S4096x32768_1_0_0_1_n_n_wf
def dot_S4096x32768_S32768x128_S4096x128_1_0_0_1_n_n : DotDims S4096x32768 S32768x128 S4096x128 where
  lhsContracting := [1]
  rhsContracting := [0]
  lhsNonContracting := [0]
  rhsNonContracting := [1]
  lhsBatch := []
  rhsBatch := []
  wf := dot_S4096x32768_S32768x128_S4096x128_1_0_0_1_n_n_wf

class Facts : Prop extends Facts₀ where

variable [Facts]
-- ==== Proof.K.Region0Run.lean ====
/- Region 0 (the memory update): one grid point on the resident output buffer as a closed form, the
   closed form of the body's conditional, and the body's triple in each of its two cases. Generic in
   the float interpretation. -/
import proofs.«155079_g79826262164167_feedfinal_366_31_alg».proof.Proof.Gen.Kernel.Launch
import proofs.«155079_g79826262164167_feedfinal_366_31_alg».proof.Proof.Gen.Kernel.Skeleton
import proofs.«155079_g79826262164167_feedfinal_366_31_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## One point on the resident buffer -/

/-- The whole buffer as a rectangle. -/
abbrev rW0 : Rect S32768x128 := Rect.unit (s := S32768x128) ![0, 0] S32768x128.size inb_S32768x128_S32768x128_0_0
/-- The point's slab of 1024 rows. -/
abbrev rS0 (i : grid0.Coords) : Rect S32768x128 := Rect.unit (s := S32768x128) (k0_off1 i) S1024x128.size (k0_off1_inb i)

/-- One point on the resident buffer holding `prev`: first the whole buffer becomes
    `P = prev + wᵀ · (x / rowsum w)`, then the point's slab of `P` gains the memory slab. -/
def step0 (i : grid0.Coords) (x0 : Vec F S128x32768 .f32) (x1 : Vec F S128x128 .f32) (x2 : Vec F S1024x128 .f32)
    (prev : Vec F S32768x128 .f32) : Vec F S32768x128 .f32 :=
  View.canon [⟨rS0 i, k0_pay3 (View.ld (k0_pay2 x0 x1 prev x0) (rS0 i)) x2⟩, ⟨rW0, k0_pay2 x0 x1 prev x0⟩]

/-! ## The body's conditional -/

/-- The condition of the body's conditional, from the grid coordinates. -/
abbrev cond0 (i : grid0.Coords) : Prop := (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val = 0 :=
  (by decide +kernel : ∀ t : Fin grid0.N, cond0 (grid0.coords t) ↔ t.val = 0)

theorem hz2 : (![0, 0] : Fin 2 → Nat) = fun _ => 0 := funext fun a => by fin_cases a <;> rfl

/-! ## The body's triple, case by case -/

set_option maxHeartbeats 1000000 in
/-- At the first point (the condition holds) the buffer, found at anything, is zeroed and then takes one step. -/
theorem runA0 (c : Dev nD) (E : Set ℕ) (i : grid0.Coords)
    (arg1 : Memref sig .tc .vmem S128x32768 .f32) (harg1 : arg1.IsWhole) (arg2 : Memref sig .tc .vmem S128x128 .f32) (harg2 : arg2.IsWhole)
    (arg3 : Memref sig .tc .vmem S1024x128 .f32) (harg3 : arg3.IsWhole) (arg4 : Memref sig .tc .vmem S32768x128 .f32) (harg4 : arg4.IsWhole)
    (hc0 : cond0 i)
    (x0 : Vec F S128x32768 .f32) (x1 : Vec F S128x128 .f32) (x2 : Vec F S1024x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (step0 i x0 x1 x2 (k0_pay1 (F := F)))) -∗ K ⟨⟩))
      ⊢ wp frame (wpE (defs₀ (F := F)) Variants.none c none) E (cc0_memory_update i arg1 harg1 arg2 harg2 arg3 harg3 arg4 harg4) K := by
  simp only [cc0_memory_update_eq_skeleton]; unfold cc0_memory_update_skel
  unfold owns
  iintro ⟨⟨%f0, %hf0, H0⟩, ⟨%f1, %hf1, H1⟩, ⟨%f2, %hf2, H2⟩, ⟨%d3, %f3, -, H3⟩, Hk⟩
  obtain rfl := harg1.eq_unread hf0; obtain rfl := harg2.eq_unread hf1; obtain rfl := harg3.eq_unread hf2
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  rw [View.read_writes_junk_eq_canon]
  sl_unfold_run_names
  unfold step0
  simp only [View.readCov_unit_zero (S := S32768x128) _ hz2, View.readAt_eq_ld, View.read_writes_junk_eq_canon, View.readCov_eq_canon', harg1.read_unread, harg2.read_unread, harg3.read_unread,
    View.ld_unit_zero (S := S128x32768) hz2, View.ld_unit_zero (S := S128x128) hz2, View.ld_unit_zero (S := S1024x128) hz2,
    View.ld_unit_zero (S := S32768x128) hz2, View.canon_cons_unit_zero (S := S32768x128) hz2]
  rw [View.canon_cons, View.canon_cons_unit_zero (S := S32768x128) hz2, View.canon_cons, View.canon_cons_unit_zero (S := S32768x128) hz2]

set_option maxHeartbeats 1000000 in
/-- At a later point (the condition fails) the buffer, found at `xo`, takes one step. -/
theorem runB0 (c : Dev nD) (E : Set ℕ) (i : grid0.Coords)
    (arg1 : Memref sig .tc .vmem S128x32768 .f32) (harg1 : arg1.IsWhole) (arg2 : Memref sig .tc .vmem S128x128 .f32) (harg2 : arg2.IsWhole)
    (arg3 : Memref sig .tc .vmem S1024x128 .f32) (harg3 : arg3.IsWhole) (arg4 : Memref sig .tc .vmem S32768x128 .f32) (harg4 : arg4.IsWhole)
    (hc0 : ¬cond0 i)
    (x0 : Vec F S128x32768 .f32) (x1 : Vec F S128x128 .f32) (x2 : Vec F S1024x128 .f32) (xo : Vec F S32768x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo
        ∗ (iprop(owns (c : Thread nD τ) arg1 fullShare x0 ∗ owns (c : Thread nD τ) arg2 fullShare x1 ∗ owns (c : Thread nD τ) arg3 fullShare x2
            ∗ owns (c : Thread nD τ) arg4 fullShare (step0 i x0 x1 x2 xo)) -∗ K ⟨⟩))
      ⊢ wp frame (wpE (defs₀ (F := F)) Variants.none c none) E (cc0_memory_update i arg1 harg1 arg2 harg2 arg3 harg3 arg4 harg4) K := by
  simp only [cc0_memory_update_eq_skeleton]; unfold cc0_memory_update_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  rw [View.read_writes_junk_eq_canon]
  sl_unfold_run_names
  unfold step0
  simp only [View.readAt_eq_ld, View.read_writes_junk_eq_canon, View.readCov_eq_canon', harg1.read_unread, harg2.read_unread, harg3.read_unread, harg4.read_unread,
    View.ld_unit_zero (S := S128x32768) hz2, View.ld_unit_zero (S := S128x128) hz2, View.ld_unit_zero (S := S1024x128) hz2,
    View.ld_unit_zero (S := S32768x128) hz2, View.canon_cons_unit_zero (S := S32768x128) hz2]

end Cert.Kernel.Hand

end
-- ==== Proof.K.Region0.lean ====
/- Region 0 (the memory update): what the resident output buffer holds point by point, the
   pipeline's proof data over it, and the body obligation. Generic in the float interpretation. -/
import proofs.«155079_g79826262164167_feedfinal_366_31_alg».proof.Proof.K.Region0Run
import Idealize.ShloMosaic.Lib.Pipeline.RegionsLoop
import Idealize.ShloMosaic.Lib.Pipeline.FrameSuffix
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the buffer holds after each point -/

/-- After position `n`: at 0 one step from zeros, later one step from what the position before left. -/
def outsAtN0 (c : Dev nD) : (n : ℕ) → n < cfg0.N → Vec F S32768x128 .f32
  | 0, hn => step0 (grid0.coords ⟨0, hn⟩) (iblk0 V c 0 ⟨0, hn⟩) (iblk0 V c 1 ⟨0, hn⟩) (iblk0 V c 2 ⟨0, hn⟩) (k0_pay1 (F := F))
  | n + 1, hn => step0 (grid0.coords ⟨n + 1, hn⟩) (iblk0 V c 0 ⟨n + 1, hn⟩) (iblk0 V c 1 ⟨n + 1, hn⟩) (iblk0 V c 2 ⟨n + 1, hn⟩)
      (outsAtN0 c n (Nat.lt_of_succ_lt hn))

/-- After point `t`. -/
def outsAt0 (c : Dev nD) (t : Fin cfg0.N) : Vec F S32768x128 .f32 := outsAtN0 V c t.val t.isLt

/-- The point before `t`. -/
abbrev pred0 (t : Fin cfg0.N) : Fin cfg0.N := ⟨t.val - 1, Nat.lt_of_le_of_lt (Nat.sub_le _ _) t.isLt⟩

/-- At the first point: one step from zeros. -/
theorem outsAt0_zero (c : Dev nD) (t : Fin cfg0.N) (h0 : t.val = 0) :
    outsAt0 V c t = step0 (grid0.coords t) (iblk0 V c 0 t) (iblk0 V c 1 t) (iblk0 V c 2 t) (k0_pay1 (F := F)) := by
  obtain ⟨n, hn⟩ := t
  cases n with
  | zero => rfl
  | succ n => exact absurd h0 (Nat.succ_ne_zero n)

/-- At a later point: one step from what the point before left. -/
theorem outsAt0_succ (c : Dev nD) (t : Fin cfg0.N) (h0 : t.val ≠ 0) :
    outsAt0 V c t = step0 (grid0.coords t) (iblk0 V c 0 t) (iblk0 V c 1 t) (iblk0 V c 2 t) (outsAt0 V c (pred0 t)) := by
  obtain ⟨n, hn⟩ := t
  cases n with
  | zero => exact absurd rfl h0
  | succ n => rfl

/-! ## The pipeline's proof data -/

/-- The arrays as the region finds them; after the body at point `t` each input's buffer at its block and the
    output's at `outsAt0`; the invariant the scoped rest and the generator register, untouched; nothing owed;
    full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outsAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outsAt0 V c t := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- At a later point the output's staging buffer holds what the body left at the point before: the buffer is not
    written back before the last point. -/
theorem before0_3 (c : Dev nD) (t : Fin cfg0.N) (h0 : t.val ≠ 0) (d) :
    (dat0 V c).before 3 t d = outsAt0 V c (pred0 t) := by
  have hN : t.val < 32 := lt_of_lt_of_eq t.isLt (show cfg0.N = 32 from N_0)
  rw [Dat.before_out_kept _ 3 rfl t h0 (Bool.eq_false_iff.mpr fun h => by have := (flush0_3 _).mp h; dsimp only at this; omega)
    (fun _ => rfl) (fun _ _ => rfl)]
  dsimp only [dat0]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 800000 in
/-- The body at any point: the inputs' memrefs hold their blocks; at the first point the output's buffer holds
    anything and the first case's triple applies, later it holds what the point before left and the second's does;
    the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val = 0
  · rw [outsAt0_zero V c t h0]
    iintro ⟨HΦ, Ho, ⟨%d0, H0⟩, ⟨%d1, H1⟩, ⟨%d2, H2⟩, ⟨%d3, H3⟩⟩
    iapply (runA0 c Set.univ (grid0.coords t) _ _ _ _ _ _ _ _ ((hcond0 t).mpr h0) (iblk0 V c 0 t) (iblk0 V c 1 t) (iblk0 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt0_succ V c t h0]
    simp only [before0_3 V c t h0]
    iintro ⟨HΦ, Ho, ⟨%d0, H0⟩, ⟨%d1, H1⟩, ⟨%d2, H2⟩, ⟨%d3, H3⟩⟩
    iapply (runB0 c Set.univ (grid0.coords t) _ _ _ _ _ _ _ _ (fun h => h0 ((hcond0 t).mp h)) (iblk0 V c 0 t) (iblk0 V c 1 t) (iblk0 V c 2 t) _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Step1.lean ====
/- What one grid point of the attention-read region computes, as explicit functions of the blocks it
   loads and of the three carried buffers (accumulator, running maximum, running mass), over the payload
   names of the skeleton. Definitions only. -/
import proofs.«155079_g79826262164167_feedfinal_366_31_alg».proof.Proof.Gen.Kernel.Skeleton
import proofs.«155079_g79826262164167_feedfinal_366_31_alg».proof.Proof.Gen.Kernel.Launch
import proofs.«155079_g79826262164167_feedfinal_366_31_alg».proof.Proof.Gen.Kernel.Points
import Idealize.ShloMosaic.Lib.Pipeline.FrameBody

noncomputable section

namespace Cert.Kernel.Hand

open Idealize.ShloMosaic Idealize.ShloMosaic.TcCoe
open Idealize.SL Idealize.SL.Sem
open Cert.Kernel.Gen

variable {F : FTy → Type} [FloatOps F]

/-- The three carried buffers, in the order (accumulator [512,128], running maximum [512,1], running mass [512,1]). -/
abbrev Scr (F : FTy → Type) : Type := Vec F S512x128 .f32 × Vec F S512x1 .f32 × Vec F S512x1 .f32

/-- What the first point of a row block stores before anything else: accumulator 0, maximum -inf, mass 0. -/
def scrInit : Scr F := (k1_pay5 (F := F), k1_pay6 (F := F), k1_pay7 (F := F))

/-! The memory block [16384,128] is read in eight row chunks [2048,128]: chunk `k` is rows
    `2048 k ≤ r < 2048 (k+1)`, all 128 columns. -/
abbrev rch0 : Rect S16384x128 := Rect.unit (s := S16384x128) ![0, 0] S2048x128.size inb_S16384x128_S2048x128_0_0
abbrev rch1 : Rect S16384x128 := Rect.unit (s := S16384x128) ![2048, 0] S2048x128.size inb_S16384x128_S2048x128_2048_0
abbrev rch2 : Rect S16384x128 := Rect.unit (s := S16384x128) ![4096, 0] S2048x128.size inb_S16384x128_S2048x128_4096_0
abbrev rch3 : Rect S16384x128 := Rect.unit (s := S16384x128) ![6144, 0] S2048x128.size inb_S16384x128_S2048x128_6144_0
abbrev rch4 : Rect S16384x128 := Rect.unit (s := S16384x128) ![8192, 0] S2048x128.size inb_S16384x128_S2048x128_8192_0
abbrev rch5 : Rect S16384x128 := Rect.unit (s := S16384x128) ![10240, 0] S2048x128.size inb_S16384x128_S2048x128_10240_0
abbrev rch6 : Rect S16384x128 := Rect.unit (s := S16384x128) ![12288, 0] S2048x128.size inb_S16384x128_S2048x128_12288_0
abbrev rch7 : Rect S16384x128 := Rect.unit (s := S16384x128) ![14336, 0] S2048x128.size inb_S16384x128_S2048x128_14336_0

/-- One chunk's three results from the query block `x0` and the chunk's rows `y`: the row maximum of the
    scores `x0 yᵀ` [512,1], the row sum of `exp (scores - maximum)` [512,1], and the product of those
    exponentials with `y` [512,128]. Every chunk's payloads are these same three functions of
    `(x0, its rows)`: the eight chunks' payload definitions have the same bodies, so they are equal by unfolding. -/
def chunkMax (x0 : Vec F S512x128 .f32) (y : Vec F S2048x128 .f32) : Vec F S512x1 .f32 := k1_pay10 x0 y
def chunkSum (x0 : Vec F S512x128 .f32) (y : Vec F S2048x128 .f32) : Vec F S512x1 .f32 := k1_pay12 x0 y
def chunkPV (x0 : Vec F S512x128 .f32) (y : Vec F S2048x128 .f32) : Vec F S512x128 .f32 := k1_pay13 x0 y

/-- The three stores of the unconditional part at one point, from the query block `x0`, the memory block `x1`
    and the carried buffers `s = (acc, m, l)` it loads: the new `(acc, m, l)`. -/
def scrStep (x0 : Vec F S512x128 .f32) (x1 : Vec F S16384x128 .f32) (s : Scr F) : Scr F :=
  let v3 := x0
  let v4 : Vec F S2048x128 .f32 := View.ld x1 rch0
  let v16 : Vec F S2048x128 .f32 := View.ld x1 rch1
  let v28 : Vec F S2048x128 .f32 := View.ld x1 rch2
  let v40 : Vec F S2048x128 .f32 := View.ld x1 rch3
  let v52 : Vec F S2048x128 .f32 := View.ld x1 rch4
  let v64 : Vec F S2048x128 .f32 := View.ld x1 rch5
  let v76 : Vec F S2048x128 .f32 := View.ld x1 rch6
  let v88 : Vec F S2048x128 .f32 := View.ld x1 rch7
  let v113 : Vec F S512x128 .f32 := s.1
  let v100 : Vec F S512x1 .f32 := s.2.1
  let v111 : Vec F S512x1 .f32 := s.2.2
  let v8 := k1_pay10 v3 v4
  let v13 := k1_pay12 v3 v4
  let v15 := k1_pay13 v3 v4
  let v20 := k1_pay16 v3 v16
  let v25 := k1_pay18 v3 v16
  let v27 := k1_pay19 v3 v16
  let v29 := k1_pay20 v28
  let v32 := k1_pay22 v3 v28
  let v35 := k1_pay23 v3 v28
  let v37 := k1_pay24 v35
  let v39 := k1_pay25 v29 v35
  let v44 := k1_pay28 v3 v40
  let v49 := k1_pay30 v3 v40
  let v51 := k1_pay31 v3 v40
  let v56 := k1_pay34 v3 v52
  let v61 := k1_pay36 v3 v52
  let v63 := k1_pay37 v3 v52
  let v68 := k1_pay40 v3 v64
  let v73 := k1_pay42 v3 v64
  let v75 := k1_pay43 v3 v64
  let v80 := k1_pay46 v3 v76
  let v85 := k1_pay48 v3 v76
  let v87 := k1_pay49 v3 v76
  let v92 := k1_pay52 v3 v88
  let v97 := k1_pay54 v3 v88
  let v99 := k1_pay55 v3 v88
  let v108 := k1_pay56 v3 v8 v20 v32 v44 v56 v68 v76 v88 v100
  let v112 := k1_pay58 v3 v8 v20 v32 v44 v56 v68 v76 v88 v100 v111
  let v115 := k1_pay59 v3 v8 v20 v32 v44 v56 v68 v76 v88 v100 v113
  let v117 := k1_pay60 v3 v8 v20 v32 v44 v56 v68 v76 v88 v100
  let v118 := k1_pay61 v3 v8 v13 v20 v32 v44 v56 v68 v76 v88 v100
  let v168 := k1_pay69 v20 v25 v32 v37 v44 v49 v56 v61 v68 v73 v80 v85 v92 v97 v108 v112 v118
  let v171 := k1_pay70 v15 v20 v27 v32 v39 v44 v51 v56 v63 v68 v75 v80 v87 v92 v99 v108 v115 v117
  (k1_pay2 v171, k1_pay71 v108, k1_pay1 v168)

/-- What the last point of a row block stores into the two output windows from the carried buffers
    `s = (acc, m, l)` it loads back: `(acc * (1/l), 1/l)`. -/
def outStep (s : Scr F) : Vec F S512x128 .f32 × Vec F S512x1 .f32 :=
  (k1_pay4 s.2.2 s.1, k1_pay3 s.2.2)

section Points
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried buffers after point `k`, by recursion on `k`: an even point starts from `scrInit`, an odd point
    from what the point before left. -/
def scrAtAux (c : Dev nD) : (k : ℕ) → (hk : k < cfg1.N) → Scr F
  | 0, hk => scrStep (iblk1 V c 0 ⟨0, hk⟩) (iblk1 V c 1 ⟨0, hk⟩) scrInit
  | k + 1, hk => scrStep (iblk1 V c 0 ⟨k + 1, hk⟩) (iblk1 V c 1 ⟨k + 1, hk⟩)
      (if (k + 1) % 2 = 0 then scrInit else scrAtAux c k (Nat.lt_of_succ_lt hk))

/-- The carried buffers after point `t`. -/
def scrAt1 (c : Dev nD) (t : Fin cfg1.N) : Scr F := scrAtAux V c t.val t.isLt

/-- The unfolding equation at an even point: it starts from `scrInit`. -/
theorem scrAt1_even (c : Dev nD) (t : Fin cfg1.N) (ht : t.val % 2 = 0) :
    scrAt1 V c t = scrStep (iblk1 V c 0 t) (iblk1 V c 1 t) scrInit := by
  obtain ⟨k, hk⟩ := t
  unfold scrAt1
  cases k with
  | zero => rfl
  | succ k => simp only [scrAtAux]; rw [if_pos ht]

/-- The unfolding equation at an odd point: it starts from what the point before left. -/
theorem scrAt1_odd (c : Dev nD) (t : Fin cfg1.N) (ht : t.val % 2 = 1) :
    scrAt1 V c t = scrStep (iblk1 V c 0 t) (iblk1 V c 1 t)
      (scrAt1 V c ⟨t.val - 1, Nat.lt_of_le_of_lt (Nat.sub_le _ _) t.isLt⟩) := by
  obtain ⟨k, hk⟩ := t
  unfold scrAt1
  cases k with
  | zero => simp at ht
  | succ k =>
    simp only [scrAtAux]
    rw [if_neg (by simp only at ht; omega)]
    rfl

/-- What the two output windows' buffers hold after an odd point `t`. -/
def outsAt1 (c : Dev nD) (t : Fin cfg1.N) : Vec F S512x128 .f32 × Vec F S512x1 .f32 := outStep (scrAt1 V c t)

end Points

end Cert.Kernel.Hand

end
-- ==== Proof.K.Region1Run.lean ====
/- The body of the attention-read region run on whole memrefs, at a point with second coordinate 0: the reset
   branch is taken, the output branch is not. The pieces each scratch buffer ends with are found by the run. -/
import proofs.«155079_g79826262164167_feedfinal_366_31_alg».proof.Proof.K.Step1
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

/-! ## The body's two branch conditions, from the grid coordinates -/

/-- The condition of the reset branch: the second coordinate is 0. -/
abbrev cond1_0 (i : grid1.Coords) : Prop := (Scalar.cmpi .ne (Scalar.extui (Scalar.cmpi .eq (BitVec.ofNat 32 (i 1).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The condition of the output branch: the second coordinate is the last. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

set_option maxHeartbeats 4000000 in
/-- The body where the reset branch is taken and the output branch is not: the two input blocks at `x0`, `x1`, the
    scratch buffers at anything; it leaves the inputs as they were and each scratch buffer with the found pieces written. -/
noncomputable def kernelRun1_A (c : Dev nD) (i : grid1.Coords) (arg2 : Memref sig .tc .vmem S512x128 .f32) (harg2 : arg2.IsWhole) (arg3 : Memref sig .tc .vmem S16384x128 .f32) (harg3 : arg3.IsWhole)
    (arg4 : Memref sig .tc .vmem S512x128 .f32) (harg4 : arg4.IsWhole) (arg5 : Memref sig .tc .vmem S512x1 .f32) (harg5 : arg5.IsWhole)
    (arg6 : Memref sig .tc .vmem S512x128 .f32) (harg6 : arg6.IsWhole) (arg7 : Memref sig .tc .vmem S512x1 .f32) (harg7 : arg7.IsWhole) (arg8 : Memref sig .tc .vmem S512x1 .f32) (harg8 : arg8.IsWhole)
    (hc0 : cond1_0 i) (hc1 : ¬cond1_1 i) (x0 : Vec F S512x128 .f32) (x1 : Vec F S16384x128 .f32) :
    Σ' (LS0 : List (View.Piece (Elt F) S512x128 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1_attention_read i arg2 harg2 arg3 harg3 arg4 harg4 arg5 harg5 arg6 harg6 arg7 harg7 arg8 harg8) K } := by
  refine ⟨?_, ?_, ?_, fun E K => ?run⟩
  case run =>
    simp only [cc1_attention_read_eq_skeleton]; unfold cc1_attention_read_skel
    simp only [k1_part1_eq_skeleton, k1_part2_eq_skeleton, k1_part3_eq_skeleton, k1_part4_eq_skeleton]
    unfold owns
    iintro ⟨⟨%f0, %hf0, H0⟩, ⟨%f1, %hf1, H1⟩, ⟨%ds0, %fs0, -, HS0⟩, ⟨%ds1, %fs1, -, HS1⟩, ⟨%ds2, %fs2, -, HS2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    isplitl [HS1]; · iexists _; iexact HS1
    iexists _; iexact HS2

end Cert.Kernel.Hand

end
-- ==== Proof.K.Region1RunB.lean ====
/- The body of the attention-read region run on whole memrefs, at a point with second coordinate 1: the reset
   branch is not taken, the output branch is. The pieces each written buffer ends with are found by the run. -/
import proofs.«155079_g79826262164167_feedfinal_366_31_alg».proof.Proof.K.Region1Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

set_option maxHeartbeats 4000000 in
/-- The body where the reset branch is not taken and the output branch is: the two input blocks at `x0`, `x1`, the
    scratch buffers at `sa`, `sm`, `sl`, the outputs' buffers at anything; it leaves the inputs as they were and each
    scratch and output buffer with the found pieces written. -/
noncomputable def kernelRun1_B (c : Dev nD) (i : grid1.Coords) (arg2 : Memref sig .tc .vmem S512x128 .f32) (harg2 : arg2.IsWhole) (arg3 : Memref sig .tc .vmem S16384x128 .f32) (harg3 : arg3.IsWhole)
    (arg4 : Memref sig .tc .vmem S512x128 .f32) (harg4 : arg4.IsWhole) (arg5 : Memref sig .tc .vmem S512x1 .f32) (harg5 : arg5.IsWhole)
    (arg6 : Memref sig .tc .vmem S512x128 .f32) (harg6 : arg6.IsWhole) (arg7 : Memref sig .tc .vmem S512x1 .f32) (harg7 : arg7.IsWhole) (arg8 : Memref sig .tc .vmem S512x1 .f32) (harg8 : arg8.IsWhole)
    (hc0 : ¬cond1_0 i) (hc1 : cond1_1 i) (x0 : Vec F S512x128 .f32) (x1 : Vec F S16384x128 .f32)
    (sa : Vec F S512x128 .f32) (sm : Vec F S512x1 .f32) (sl : Vec F S512x1 .f32) :
    Σ' (LS0 : List (View.Piece (Elt F) S512x128 .f32)) (LS1 : List (View.Piece (Elt F) S512x1 .f32)) (LS2 : List (View.Piece (Elt F) S512x1 .f32))
       (L2 : List (View.Piece (Elt F) S512x128 .f32)), { L3 : List (View.Piece (Elt F) S512x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ owns (c : Thread nD τ) arg6 fullShare sa ∗ owns (c : Thread nD τ) arg7 fullShare sm ∗ owns (c : Thread nD τ) arg8 fullShare sl
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1_attention_read i arg2 harg2 arg3 harg3 arg4 harg4 arg5 harg5 arg6 harg6 arg7 harg7 arg8 harg8) K } := by
  refine ⟨?_, ?_, ?_, ?_, ?_, fun E K => ?run⟩
  case run =>
    simp only [cc1_attention_read_eq_skeleton]; unfold cc1_attention_read_skel
    simp only [k1_part1_eq_skeleton, k1_part2_eq_skeleton, k1_part3_eq_skeleton, k1_part4_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    isplitl [HS1]; · iexists _; iexact HS1
    iexists _; iexact HS2

end Cert.Kernel.Hand

end
-- ==== Proof.K.Region1Eq.lean ====
/- What the two runs of the attention-read body leave, read back: the found pieces are the step functions'
   components (each buffer's last store covers it; each load of a buffer stored before reads that store's payload). -/
import proofs.«155079_g79826262164167_feedfinal_366_31_alg».proof.Proof.K.Region1RunB
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

theorem hzero2 : (![0, 0] : Fin 2 → Nat) = fun _ => 0 := funext fun a => by fin_cases a <;> rfl

theorem runA_0 (c : Dev nD) (i : grid1.Coords) (arg2 : Memref sig .tc .vmem S512x128 .f32) (harg2 : arg2.IsWhole) (arg3 : Memref sig .tc .vmem S16384x128 .f32) (harg3 : arg3.IsWhole)
    (arg4 : Memref sig .tc .vmem S512x128 .f32) (harg4 : arg4.IsWhole) (arg5 : Memref sig .tc .vmem S512x1 .f32) (harg5 : arg5.IsWhole)
    (arg6 : Memref sig .tc .vmem S512x128 .f32) (harg6 : arg6.IsWhole) (arg7 : Memref sig .tc .vmem S512x1 .f32) (harg7 : arg7.IsWhole) (arg8 : Memref sig .tc .vmem S512x1 .f32) (harg8 : arg8.IsWhole)
    (hc0 : cond1_0 i) (hc1 : ¬cond1_1 i) (x0 : Vec F S512x128 .f32) (x1 : Vec F S16384x128 .f32) (f) :
    arg6.view.read (Elt F) (arg6.view.writes (Elt F) f (kernelRun1_A c i arg2 harg2 arg3 harg3 arg4 harg4 arg5 harg5 arg6 harg6 arg7 harg7 arg8 harg8 hc0 hc1 x0 x1).1) = (scrStep x0 x1 scrInit).1 := by
  unfold kernelRun1_A
  dsimp only
  rw [View.read_writes_eq_canon _ _ _ (fun y => ⟨_, List.mem_cons_self .., View.mem_set_unit_zero hzero2 inb_S512x128_S512x128_0_0 y⟩)]
  rw [View.canon_cons_unit_zero (S := S512x128) hzero2]
  sl_unfold_run_names
  simp only [View.readCov_unit_zero (S := S512x1) _ hzero2, View.readCov_unit_zero (S := S512x128) _ hzero2, View.readAt_eq_ld,
    Memref.IsWhole.read_unread, View.ld_unit_zero (S := S512x128) hzero2, View.ld_unit_zero (S := S512x1) hzero2]
  rfl

theorem runA_1 (c : Dev nD) (i : grid1.Coords) (arg2 : Memref sig .tc .vmem S512x128 .f32) (harg2 : arg2.IsWhole) (arg3 : Memref sig .tc .vmem S16384x128 .f32) (harg3 : arg3.IsWhole)
    (arg4 : Memref sig .tc .vmem S512x128 .f32) (harg4 : arg4.IsWhole) (arg5 : Memref sig .tc .vmem S512x1 .f32) (harg5 : arg5.IsWhole)
    (arg6 : Memref sig .tc .vmem S512x128 .f32) (harg6 : arg6.IsWhole) (arg7 : Memref sig .tc .vmem S512x1 .f32) (harg7 : arg7.IsWhole) (arg8 : Memref sig .tc .vmem S512x1 .f32) (harg8 : arg8.IsWhole)
    (hc0 : cond1_0 i) (hc1 : ¬cond1_1 i) (x0 : Vec F S512x128 .f32) (x1 : Vec F S16384x128 .f32) (f) :
    arg7.view.read (Elt F) (arg7.view.writes (Elt F) f (kernelRun1_A c i arg2 harg2 arg3 harg3 arg4 harg4 arg5 harg5 arg6 harg6 arg7 harg7 arg8 harg8 hc0 hc1 x0 x1).2.1) = (scrStep x0 x1 scrInit).2.1 := by
  unfold kernelRun1_A
  dsimp only
  rw [View.read_writes_eq_canon _ _ _ (fun y => ⟨_, List.mem_cons_self .., View.mem_set_unit_zero hzero2 inb_S512x1_S512x1_0_0 y⟩)]
  rw [View.canon_cons_unit_zero (S := S512x1) hzero2]
  sl_unfold_run_names
  simp only [View.readCov_unit_zero (S := S512x1) _ hzero2, View.readCov_unit_zero (S := S512x128) _ hzero2, View.readAt_eq_ld,
    Memref.IsWhole.read_unread, View.ld_unit_zero (S := S512x128) hzero2, View.ld_unit_zero (S := S512x1) hzero2]
  rfl

theorem runA_2 (c : Dev nD) (i : grid1.Coords) (arg2 : Memref sig .tc .vmem S512x128 .f32) (harg2 : arg2.IsWhole) (arg3 : Memref sig .tc .vmem S16384x128 .f32) (harg3 : arg3.IsWhole)
    (arg4 : Memref sig .tc .vmem S512x128 .f32) (harg4 : arg4.IsWhole) (arg5 : Memref sig .tc .vmem S512x1 .f32) (harg5 : arg5.IsWhole)
    (arg6 : Memref sig .tc .vmem S512x128 .f32) (harg6 : arg6.IsWhole) (arg7 : Memref sig .tc .vmem S512x1 .f32) (harg7 : arg7.IsWhole) (arg8 : Memref sig .tc .vmem S512x1 .f32) (harg8 : arg8.IsWhole)
    (hc0 : cond1_0 i) (hc1 : ¬cond1_1 i) (x0 : Vec F S512x128 .f32) (x1 : Vec F S16384x128 .f32) (f) :
    arg8.view.read (Elt F) (arg8.view.writes (Elt F) f (kernelRun1_A c i arg2 harg2 arg3 harg3 arg4 harg4 arg5 harg5 arg6 harg6 arg7 harg7 arg8 harg8 hc0 hc1 x0 x1).2.2.1) = (scrStep x0 x1 scrInit).2.2 := by
  unfold kernelRun1_A
  dsimp only
  rw [View.read_writes_eq_canon _ _ _ (fun y => ⟨_, List.mem_cons_self .., View.mem_set_unit_zero hzero2 inb_S512x1_S512x1_0_0 y⟩)]
  rw [View.canon_cons_unit_zero (S := S512x1) hzero2]
  sl_unfold_run_names
  simp only [View.readCov_unit_zero (S := S512x1) _ hzero2, View.readCov_unit_zero (S := S512x128) _ hzero2, View.readAt_eq_ld,
    Memref.IsWhole.read_unread, View.ld_unit_zero (S := S512x128) hzero2, View.ld_unit_zero (S := S512x1) hzero2]
  rfl

theorem runB_2 (c : Dev nD) (i : grid1.Coords) (arg2 : Memref sig .tc .vmem S512x128 .f32) (harg2 : arg2.IsWhole) (arg3 : Memref sig .tc .vmem S16384x128 .f32) (harg3 : arg3.IsWhole)
    (arg4 : Memref sig .tc .vmem S512x128 .f32) (harg4 : arg4.IsWhole) (arg5 : Memref sig .tc .vmem S512x1 .f32) (harg5 : arg5.IsWhole)
    (arg6 : Memref sig .tc .vmem S512x128 .f32) (harg6 : arg6.IsWhole) (arg7 : Memref sig .tc .vmem S512x1 .f32) (harg7 : arg7.IsWhole) (arg8 : Memref sig .tc .vmem S512x1 .f32) (harg8 : arg8.IsWhole)
    (hc0 : ¬cond1_0 i) (hc1 : cond1_1 i) (x0 : Vec F S512x128 .f32) (x1 : Vec F S16384x128 .f32)
    (sa : Vec F S512x128 .f32) (sm : Vec F S512x1 .f32) (sl : Vec F S512x1 .f32) (f) :
    arg4.view.read (Elt F) (arg4.view.writes (Elt F) f (kernelRun1_B c i arg2 harg2 arg3 harg3 arg4 harg4 arg5 harg5 arg6 harg6 arg7 harg7 arg8 harg8 hc0 hc1 x0 x1 sa sm sl).2.2.2.1) = (outStep (scrStep x0 x1 (sa, sm, sl))).1 := by
  unfold kernelRun1_B
  dsimp only
  rw [View.read_writes_eq_canon _ _ _ (fun y => ⟨_, List.mem_cons_self .., View.mem_set_unit_zero hzero2 inb_S512x128_S512x128_0_0 y⟩)]
  rw [View.canon_cons_unit_zero (S := S512x128) hzero2]
  sl_unfold_run_names
  simp only [View.readCov_unit_zero (S := S512x1) _ hzero2, View.readCov_unit_zero (S := S512x128) _ hzero2, View.readAt_eq_ld,
    Memref.IsWhole.read_unread, View.ld_unit_zero (S := S512x128) hzero2, View.ld_unit_zero (S := S512x1) hzero2]
  rfl

theorem runB_3 (c : Dev nD) (i : grid1.Coords) (arg2 : Memref sig .tc .vmem S512x128 .f32) (harg2 : arg2.IsWhole) (arg3 : Memref sig .tc .vmem S16384x128 .f32) (harg3 : arg3.IsWhole)
    (arg4 : Memref sig .tc .vmem S512x128 .f32) (harg4 : arg4.IsWhole) (arg5 : Memref sig .tc .vmem S512x1 .f32) (harg5 : arg5.IsWhole)
    (arg6 : Memref sig .tc .vmem S512x128 .f32) (harg6 : arg6.IsWhole) (arg7 : Memref sig .tc .vmem S512x1 .f32) (harg7 : arg7.IsWhole) (arg8 : Memref sig .tc .vmem S512x1 .f32) (harg8 : arg8.IsWhole)
    (hc0 : ¬cond1_0 i) (hc1 : cond1_1 i) (x0 : Vec F S512x128 .f32) (x1 : Vec F S16384x128 .f32)
    (sa : Vec F S512x128 .f32) (sm : Vec F S512x1 .f32) (sl : Vec F S512x1 .f32) (f) :
    arg5.view.read (Elt F) (arg5.view.writes (Elt F) f (kernelRun1_B c i arg2 harg2 arg3 harg3 arg4 harg4 arg5 harg5 arg6 harg6 arg7 harg7 arg8 harg8 hc0 hc1 x0 x1 sa sm sl).2.2.2.2.1) = (outStep (scrStep x0 x1 (sa, sm, sl))).2 := by
  unfold kernelRun1_B
  dsimp only
  rw [View.read_writes_eq_canon _ _ _ (fun y => ⟨_, List.mem_cons_self .., View.mem_set_unit_zero hzero2 inb_S512x1_S512x1_0_0 y⟩)]
  rw [View.canon_cons_unit_zero (S := S512x1) hzero2]
  sl_unfold_run_names
  simp only [View.readCov_unit_zero (S := S512x1) _ hzero2, View.readCov_unit_zero (S := S512x128) _ hzero2, View.readAt_eq_ld,
    Memref.IsWhole.read_unread, View.ld_unit_zero (S := S512x128) hzero2, View.ld_unit_zero (S := S512x1) hzero2]
  rfl

end Cert.Kernel.Hand

end
-- ==== Proof.K.Region1.lean ====
/- The proof data of the attention-read region and its body obligation: the invariant carries the three
   scratch buffers at the contents the point before left (odd positions) or at any contents (even positions). -/
import proofs.«155079_g79826262164167_feedfinal_366_31_alg».proof.Proof.K.Region1Eq
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

/-- The three scratch operands: whole scoped buffers, passed beside the windows. -/
abbrev scM0 : Memref sig .tc .vmem S512x128 .f32 := Memref.whole cc1_scratch0
abbrev scM1 : Memref sig .tc .vmem S512x1 .f32 := Memref.whole cc1_scratch1
abbrev scM2 : Memref sig .tc .vmem S512x1 .f32 := Memref.whole cc1_scratch2

/-- Each window's current staging memref at point `t`, and its wholeness. -/
abbrev ms1_0 (t : Fin cfg1.N) : Memref sig .tc .vmem S512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)

/-! ## Where the windows are idle, and where the outputs are written back -/

theorem liveAt1_0 : ∀ t : Fin cfg1.N, cfg1.idle 0 (grid1.coords t) = false := fun _ => rfl
theorem liveAt1_1 : ∀ t : Fin cfg1.N, cfg1.idle 1 (grid1.coords t) = false := fun _ => rfl
theorem idleAt1_2 : ∀ t : Fin cfg1.N, ¬cond1_1 (grid1.coords t) → cfg1.idle 2 (grid1.coords t) = true :=
  (by decide +kernel : ∀ t : Fin grid1.N, ¬cond1_1 (grid1.coords t) → cfg1.idle 2 (grid1.coords t) = true)
theorem idleAt1_3 : ∀ t : Fin cfg1.N, ¬cond1_1 (grid1.coords t) → cfg1.idle 3 (grid1.coords t) = true :=
  (by decide +kernel : ∀ t : Fin grid1.N, ¬cond1_1 (grid1.coords t) → cfg1.idle 3 (grid1.coords t) = true)
theorem liveAt1_2 : ∀ t : Fin cfg1.N, cond1_1 (grid1.coords t) → cfg1.idle 2 (grid1.coords t) = false :=
  (by decide +kernel : ∀ t : Fin grid1.N, cond1_1 (grid1.coords t) → cfg1.idle 2 (grid1.coords t) = false)
theorem liveAt1_3 : ∀ t : Fin cfg1.N, cond1_1 (grid1.coords t) → cfg1.idle 3 (grid1.coords t) = false :=
  (by decide +kernel : ∀ t : Fin grid1.N, cond1_1 (grid1.coords t) → cfg1.idle 3 (grid1.coords t) = false)
theorem noFlush1_2 : ∀ t : Fin cfg1.N, ¬cond1_1 (grid1.coords t) → (cfg1.win 2).flush t = false :=
  fun t h => Bool.eq_false_iff.mpr fun hf => h ((hcond1_1 t).mpr ((flush1_2 t).mp hf))
theorem noFlush1_3 : ∀ t : Fin cfg1.N, ¬cond1_1 (grid1.coords t) → (cfg1.win 3).flush t = false :=
  fun t h => Bool.eq_false_iff.mpr fun hf => h ((hcond1_1 t).mpr ((flush1_3 t).mp hf))

/-! ## The invariant -/

/-- The scoped buffers of the core that are neither staging buffers of this region nor its scratch, each at some contents. -/
def restPts (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f))

/-- The scratch buffers at any contents. -/
def scrAny (c : Dev nD) : sProp 𝕄 :=
  iprop((∃ d, owns (c : Thread nD τ) scM0 fullShare d) ∗ (∃ d, owns (c : Thread nD τ) scM1 fullShare d) ∗ (∃ d, owns (c : Thread nD τ) scM2 fullShare d))

/-- The scratch buffers at named contents. -/
def scrPts (c : Dev nD) (s : Scr F) : sProp 𝕄 :=
  iprop(owns (c : Thread nD τ) scM0 fullShare s.1 ∗ owns (c : Thread nD τ) scM1 fullShare s.2.1 ∗ owns (c : Thread nD τ) scM2 fullShare s.2.2)

/-- The scratch at any contents, as the points-tos of the three whole buffers. -/
theorem scrAny_eq (c : Dev nD) :
    (scrAny c : sProp 𝕄) = iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) := by
  unfold scrAny; simp only [scM0, scM1, scM2, owns_whole]; try rfl

section Regions
variable (V : (c : Dev nD) → (b : Ref sig .tc) → Buf (Elt F) ((c : Thread nD τ).loc b))

/-- The invariant before position `k`: the generator register, the scoped rest, and the scratch — after an even point
    (`k` odd) at what that point left, else at any contents. -/
def Φ1 (c : Dev nD) (k : Fin (cfg1.N + 1)) : sProp 𝕄 :=
  iprop((∃ r, prngReg c r) ∗ restPts c ∗
    (if h : k.val % 2 = 1 then scrPts c (scrAt1 V c ⟨k.val - 1, by have := k.isLt; omega⟩) else scrAny c))

theorem Φ1_cast_even (c : Dev nD) (t : Fin cfg1.N) (h0 : t.val % 2 = 0) :
    Φ1 V c t.castSucc = iprop((∃ r, prngReg c r) ∗ restPts c ∗ scrAny c) := by
  unfold Φ1; rw [dif_neg (by rw [Fin.coe_castSucc]; omega)]

theorem Φ1_cast_odd (c : Dev nD) (t : Fin cfg1.N) (h1 : t.val % 2 = 1) :
    Φ1 V c t.castSucc = iprop((∃ r, prngReg c r) ∗ restPts c ∗ scrPts c (scrAt1 V c ⟨t.val - 1, Nat.lt_of_le_of_lt (Nat.sub_le _ _) t.isLt⟩)) := by
  unfold Φ1; rw [dif_pos (by rw [Fin.coe_castSucc]; exact h1)]; rfl

theorem Φ1_succ_even (c : Dev nD) (t : Fin cfg1.N) (h0 : t.val % 2 = 0) :
    Φ1 V c t.succ = iprop((∃ r, prngReg c r) ∗ restPts c ∗ scrPts c (scrAt1 V c t)) := by
  unfold Φ1; rw [dif_pos (by rw [Fin.val_succ]; omega)]; rfl

theorem Φ1_succ_odd (c : Dev nD) (t : Fin cfg1.N) (h1 : t.val % 2 = 1) :
    Φ1 V c t.succ = iprop((∃ r, prngReg c r) ∗ restPts c ∗ scrAny c) := by
  unfold Φ1; rw [dif_neg (by rw [Fin.val_succ]; omega)]

/-- The proof data of the region on core `c`. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t).1
    | ⟨3, _⟩ => (outsAt1 V c t).2
  Φ k := Φ1 V c k
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) (ht : t.val % 2 = 1) : (dat1 V c).after 2 t = (outsAt1 V c t).1 := by dsimp only [dat1]
theorem after1_3 (c : Dev nD) (t : Fin cfg1.N) (ht : t.val % 2 = 1) : (dat1 V c).after 3 t = (outsAt1 V c t).2 := by dsimp only [dat1]

/-- What the launch hands the region is the invariant before the first point. -/
theorem hin1 (c : Dev nD) : (iprop((∃ r, prngReg c r) ∗ Pipeline.scopedRest spec1 c) : sProp 𝕄) ⊢ (dat1 V c).Φ 0 := by
  rw [show (dat1 V c).Φ 0 = Φ1 V c 0 from rfl]
  unfold Φ1; rw [dif_neg (by simp)]
  rw [scopedRest1_eq, scrAny_eq]; unfold restPts
  iintro ⟨Hg, H0, H1, H2, H3, H4, H5, H6, S0, S1, S2⟩
  isplitl [Hg]; · iexact Hg
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [S0]; · iexact S0
  isplitl [S1]; · iexact S1
  iexact S2

/-- After the last point the invariant gives the scoped rest back. -/
theorem hout1 (c : Dev nD) : (dat1 V c).Φ (Fin.last cfg1.N) ⊢ (iprop((∃ r, prngReg c r) ∗ Pipeline.scopedRest spec1 c) : sProp 𝕄) := by
  rw [show (dat1 V c).Φ (Fin.last cfg1.N) = Φ1 V c (Fin.last cfg1.N) from rfl]
  unfold Φ1; rw [dif_neg (by rw [Fin.val_last, show cfg1.N = 16 from N_1]; decide)]
  rw [scopedRest1_eq, scrAny_eq]; unfold restPts
  iintro ⟨Hg, ⟨H0, H1, H2, H3, H4, H5, H6⟩, S0, S1, S2⟩
  isplitl [Hg]; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  iexact S2

/-! ## The inputs' buffers hold their blocks -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Φ1 V c t.succ from rfl, show (dat1 V c).Φ t.castSucc = Φ1 V c t.castSucc from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 2 = 0
  · have hc0 : cond1_0 (grid1.coords t) := (hcond1_0 t).mpr h0
    have hc1 : ¬cond1_1 (grid1.coords t) := fun h => by have := (hcond1_1 t).mp h; omega
    rw [Φ1_cast_even V c t h0, Φ1_succ_even V c t h0]
    rw [Dat.leavesExact_idle (dat1 V c) 2 t (idleAt1_2 t hc1) (noFlush1_2 t hc1),
      Dat.leavesExact_idle (dat1 V c) 3 t (idleAt1_3 t hc1) (noFlush1_3 t hc1)]
    rw [scrAt1_even V c t h0]
    unfold scrAny scrPts
    iintro ⟨⟨Hg, HR, HS0, HS1, HS2⟩, Ho, ⟨%d0, H0⟩, ⟨%d1, H1⟩, H2, H3⟩
    iapply ((kernelRun1_A c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) hc0 hc1 (iblk1 V c 0 t) (iblk1 V c 1 t)).2.2.2 Set.univ _)
    isplitl [H0]; · iexact H0
    isplitl [H1]; · iexact H1
    isplitl [HS0]; · iexact HS0
    isplitl [HS1]; · iexact HS1
    isplitl [HS2]; · iexact HS2
    iintro ⟨H0, H1, ⟨%e0, HS0⟩, ⟨%e1, HS1⟩, ⟨%e2, HS2⟩⟩
    isplitl [Hg HR HS0 HS1 HS2]
    · isplitl [Hg]; · iexact Hg
      isplitl [HR]; · iexact HR
      isplitl [HS0]
      · unfold owns; iexists _; isplitr
        swap; · iexact HS0
        ipureintro; exact runA_0 c _ _ _ _ _ _ _ _ _ _ _ _ _ _ _ _ _ _ _ _
      isplitl [HS1]
      · unfold owns; iexists _; isplitr
        swap; · iexact HS1
        ipureintro; exact runA_1 c _ _ _ _ _ _ _ _ _ _ _ _ _ _ _ _ _ _ _ _
      unfold owns; iexists _; isplitr
      swap; · iexact HS2
      ipureintro; exact runA_2 c _ _ _ _ _ _ _ _ _ _ _ _ _ _ _ _ _ _ _ _
    isplitl [Ho]; · iexact Ho
    isplitl [H0]; · iexact H0
    isplitl [H1]; · iexact H1
    isplitl [H2]; · iexact H2
    iexact H3
  · have h1 : t.val % 2 = 1 := by omega
    have hc0 : ¬cond1_0 (grid1.coords t) := fun h => h0 ((hcond1_0 t).mp h)
    have hc1 : cond1_1 (grid1.coords t) := (hcond1_1 t).mpr h1
    rw [Φ1_cast_odd V c t h1, Φ1_succ_odd V c t h1]
    rw [show (dat1 V c).leavesExact 2 t = owns (c : Thread nD τ) (ms1_2 t) fullShare ((dat1 V c).after 2 t) from by
      unfold Dat.leavesExact; rw [liveAt1_2 t hc1], after1_2 V c t h1]
    rw [show (dat1 V c).leavesExact 3 t = owns (c : Thread nD τ) (ms1_3 t) fullShare ((dat1 V c).after 3 t) from by
      unfold Dat.leavesExact; rw [liveAt1_3 t hc1], after1_3 V c t h1]
    unfold outsAt1
    rw [scrAt1_odd V c t h1]
    unfold scrAny scrPts
    iintro ⟨⟨Hg, HR, HS0, HS1, HS2⟩, Ho, ⟨%d0, H0⟩, ⟨%d1, H1⟩, ⟨%d2, H2⟩, ⟨%d3, H3⟩⟩
    iapply ((kernelRun1_B c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) hc0 hc1 (iblk1 V c 0 t) (iblk1 V c 1 t) _ _ _).2.2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    isplitl [HS2]; · iexact HS2
    iintro ⟨H0, H1, ⟨%e2, H2⟩, ⟨%e3, H3⟩, ⟨%e0, HS0⟩, ⟨%e1, HS1⟩, ⟨%e4, HS2⟩⟩
    isplitl [Hg HR HS0 HS1 HS2]
    · isplitl [Hg]; · iexact Hg
      isplitl [HR]; · iexact HR
      isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    isplitl [Ho]; · iexact Ho
    isplitl [H0]; · iexact H0
    isplitl [H1]; · iexact H1
    isplitl [H2]
    · unfold owns; iexists _; isplitr
      swap; · iexact H2
      ipureintro; exact runB_2 c _ _ _ _ _ _ _ _ _ _ _ _ _ _ _ _ _ _ _ _ _ _ _
    unfold owns; iexists _; isplitr
    swap; · iexact H3
    ipureintro; exact runB_3 c _ _ _ _ _ _ _ _ _ _ _ _ _ _ _ _ _ _ _ _ _ _ _

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Run.lean ====
/-
  The program's run, segment by segment: the write region, the read region, the host reshape.

  Between two segments every unscoped buffer of the core is held at named contents: at launch the memory `m`;
  after the write region the same except that the region's output array holds what its write-backs left
  (`Dat.arrAt` at the last point); after the read region likewise for its two output arrays; after the host
  reshape the fold of that operation. Each region is entered by splitting its windows' arrays out of the held
  buffers and left by putting them back; the generator register and the core's (empty) dues ride along. The
  launch theorem for a list of segments then gives: every weakly fair execution terminates, and every
  unscoped buffer ends at the last boundary's contents — from which both the frame (no argument array is
  written by any segment) and the results' contents are read.
-/
import proofs.«155079_g79826262164167_feedfinal_366_31_alg».proof.Proof.K.Region0
import proofs.«155079_g79826262164167_feedfinal_366_31_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
abbrev E0 : (c : Dev nD) → (b : Ref sig .tc) → Buf (Elt F) ((c : Thread nD τ).loc b) := fun c b => B0 m ρ c b

/-- After the write region: its arrays at what the pipeline leaves, every other buffer as entered. -/
def B1 (c : Dev nD) : Valuation τ sig (Elt F) :=
  Pipeline.withArrays spec0 c (B0 m ρ c) fun w => (dat0 (E0 m ρ) c).arrAt w cfg0.N
theorem B1_arr (c : Dev nD) (w : Fin cfg0.W) :
    B1 m ρ c (Proc.devRef .tc (Pipeline.arrRef spec0 w)) = (dat0 (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev E1 : (c : Dev nD) → (b : Ref sig .tc) → Buf (Elt F) ((c : Thread nD τ).loc b) := fun c b => B1 m ρ c b
theorem hF0 (c : Dev nD) (w : Fin cfg0.W) : (dat0 (E0 m ρ) c).arrAt w cfg0.N = E1 m ρ c (Pipeline.arrRef spec0 w) :=
  (B1_arr m ρ c w).symm
theorem hrest0 (c : Dev nD) : ∀ b, b ∉ Finset.univ.image (Pipeline.arrRef spec0) → E1 m ρ c b = E0 m ρ c b :=
  fun b hb => B1_of_ne m ρ c b fun w e => hb (Finset.mem_image.mpr ⟨w, Finset.mem_univ _, e⟩)

/-- After the read region. -/
def B2 (c : Dev nD) : Valuation τ sig (Elt F) :=
  Pipeline.withArrays spec1 c (B1 m ρ c) fun w => (dat1 (E1 m ρ) c).arrAt w cfg1.N
theorem B2_arr (c : Dev nD) (w : Fin cfg1.W) :
    B2 m ρ c (Proc.devRef .tc (Pipeline.arrRef spec1 w)) = (dat1 (E1 m ρ) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m ρ c (Proc.devRef .tc b) = B1 m ρ c (Proc.devRef .tc b) := by
  unfold B2; exact Pipeline.withArrays_of_ne spec1 c _ _ b hb
abbrev E2 : (c : Dev nD) → (b : Ref sig .tc) → Buf (Elt F) ((c : Thread nD τ).loc b) := fun c b => B2 m ρ c b
theorem hF1 (c : Dev nD) (w : Fin cfg1.W) : (dat1 (E1 m ρ) c).arrAt w cfg1.N = E2 m ρ c (Pipeline.arrRef spec1 w) :=
  (B2_arr m ρ c w).symm
theorem hrest1 (c : Dev nD) : ∀ b, b ∉ Finset.univ.image (Pipeline.arrRef spec1) → E2 m ρ c b = E1 m ρ c b :=
  fun b hb => B2_of_ne m ρ c b fun w e => hb (Finset.mem_image.mpr ⟨w, Finset.mem_univ _, e⟩)

/-- After the host reshape. -/
abbrev B3 (c : Dev nD) : Valuation τ sig (Elt F) := StableHlo.after hostOps2 (B2 m ρ c)

/-! ## What the host reshape writes -/

theorem tail_fresh : (hostOps2 : List (HloOp τ sig (Elt F))).Forall fun op => op.fresh = ∅ := by
  simp only [List.Forall]; repeat' constructor
abbrev tail_W : List (Ref sig .tc) := [main_v2]
theorem tail_writes : (hostOps2 : List (HloOp τ sig (Elt F))).Forall fun op => op.writes ⊆ (tail_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem B3_of (c : Dev nD) (r : Ref sig .tc) (h : r ∉ tail_W) : B3 m ρ c r = B2 m ρ c r :=
  StableHlo.after_of_writes_sub hostOps2 _ tail_writes h

/-! ## No segment writes an argument array -/

theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of m ρ c main_arg0 (by decide)
    _ = B1 m ρ c (Proc.devRef .tc main_arg0) := B2_of_ne m ρ c main_arg0 (by decide)
    _ = B0 m ρ c (Proc.devRef .tc main_arg0) := (B1_arr m ρ c 2).trans (((dat0 (E0 m ρ) c).arrAt_in 2 rfl _).trans (A_eq0 (E0 m ρ) c 2))
    _ = m ((c : Thread nD τ).loc main_arg0) := rfl
theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := B3_of m ρ c main_arg1 (by decide)
    _ = B1 m ρ c (Proc.devRef .tc main_arg1) := B2_of_ne m ρ c main_arg1 (by decide)
    _ = B0 m ρ c (Proc.devRef .tc main_arg1) := (B1_arr m ρ c 1).trans (((dat0 (E0 m ρ) c).arrAt_in 1 rfl _).trans (A_eq0 (E0 m ρ) c 1))
    _ = m ((c : Thread nD τ).loc main_arg1) := rfl
theorem B3_main_arg2 (c : Dev nD) : B3 m ρ c (Proc.devRef .tc main_arg2) = m ((c : Thread nD τ).loc main_arg2) :=
  calc B3 m ρ c (Proc.devRef .tc main_arg2)
    _ = B2 m ρ c (Proc.devRef .tc main_arg2) := B3_of m ρ c main_arg2 (by decide)
    _ = B1 m ρ c (Proc.devRef .tc main_arg2) := B2_of_ne m ρ c main_arg2 (by decide)
    _ = B0 m ρ c (Proc.devRef .tc main_arg2) := (B1_arr m ρ c 0).trans (((dat0 (E0 m ρ) c).arrAt_in 0 rfl _).trans (A_eq0 (E0 m ρ) c 0))
    _ = m ((c : Thread nD τ).loc main_arg2) := rfl
theorem B3_main_arg3 (c : Dev nD) : B3 m ρ c (Proc.devRef .tc main_arg3) = m ((c : Thread nD τ).loc main_arg3) :=
  calc B3 m ρ c (Proc.devRef .tc main_arg3)
    _ = B2 m ρ c (Proc.devRef .tc main_arg3) := B3_of m ρ c main_arg3 (by decide)
    _ = B1 m ρ c (Proc.devRef .tc main_arg3) := (B2_arr m ρ c 0).trans (((dat1 (E1 m ρ) c).arrAt_in 0 rfl _).trans (A_eq1 (E1 m ρ) c 0))
    _ = B0 m ρ c (Proc.devRef .tc main_arg3) := B1_of_ne m ρ c main_arg3 (by decide)
    _ = m ((c : Thread nD τ).loc main_arg3) := rfl

/-! ## The results' buffers at the end -/

/-- The write region's output array, read by the read region and never written again. -/
theorem B3_main_v0 (c : Dev nD) : B3 m ρ c (Proc.devRef .tc main_v0) = (dat0 (E0 m ρ) c).arrAt 3 cfg0.N :=
  calc B3 m ρ c (Proc.devRef .tc main_v0)
    _ = B2 m ρ c (Proc.devRef .tc main_v0) := B3_of m ρ c main_v0 (by decide)
    _ = B1 m ρ c (Proc.devRef .tc main_v0) := (B2_arr m ρ c 1).trans (((dat1 (E1 m ρ) c).arrAt_in 1 rfl _).trans (A_eq1 (E1 m ρ) c 1))
    _ = (dat0 (E0 m ρ) c).arrAt 3 cfg0.N := B1_arr m ρ c 3
theorem B3_main_v1_0 (c : Dev nD) : B3 m ρ c (Proc.devRef .tc main_v1_0) = (dat1 (E1 m ρ) c).arrAt 2 cfg1.N :=
  (B3_of m ρ c main_v1_0 (by decide)).trans (B2_arr m ρ c 2)
theorem B2_main_v1_1 (c : Dev nD) : B2 m ρ c (Proc.devRef .tc main_v1_1) = (dat1 (E1 m ρ) c).arrAt 3 cfg1.N :=
  B2_arr m ρ c 3

/-! ## The proof data family and the thread state -/

abbrev admH : (p : Fin 2) → (pcfgs (F := F) p).Adm := fun p => (cfgs p).toPCfg_adm
def pdatsH : (p : Fin 2) → (c : Dev nD) → Dat τ (Elt F) Unit ℕ (Pipeline.UD sig nD τ) ℕ (Pipeline.pin (pcfgs (F := F)) admH p) c
  | ⟨0, _⟩ => fun c => dat0 (E0 m ρ) c
  | ⟨1, _⟩ => fun c => dat1 (E1 m ρ) c
abbrev 𝒱H : Variants := Variants.none
abbrev LH : GSem nD τ sig → Finset Unit := fun _ => ∅
abbrev lvH : GSem nD τ sig → Unit → ℕ := fun _ _ => 0
/-- What rides beside the buffers through every segment: the generator register at some state, nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (B3 m ρ c) ∗ ∃ r, prngReg c r)

/-! ## The regions as segments -/

set_option backward.isDefEq.respectTransparency.types false in
/-- The write region: entered from every unscoped buffer at `B0`, left at `B1`. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ LH lvH 0 fun _ _ => rfl
  pre c := iprop(StableHlo.held (c : Thread nD τ) (Pipeline.ucRefs τ sig) (B0 m ρ c) ∗ RH c)
  post c := iprop(StableHlo.held (c : Thread nD τ) (Pipeline.ucRefs τ sig) (B1 m ρ c) ∗ RH c)
  X c := iprop(∃ r, prngReg c r)
  Y c := iprop(∃ r, prngReg c r)
  Z c := Pipeline.unscopedRest (Ix := Unit) (Name := ℕ) (U := Pipeline.UD sig nD τ) (Lvl := ℕ) spec0 c (E0 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := Pipeline.UD sig nD τ) (Lvl := ℕ)
      launch0.win launch0.arr_whole c (pdatsH m ρ) ((pdatsH m ρ 0 c).share_full fun _ => rfl)
      (E0 m ρ c) (E1 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The read region: entered from every unscoped buffer at `B1`, left at `B2`; its invariant takes the generator
    register and the scoped rest in (`hin1`) and gives them back (`hout1`). -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ LH lvH 1 fun _ _ => rfl
  pre c := iprop(StableHlo.held (c : Thread nD τ) (Pipeline.ucRefs τ sig) (B1 m ρ c) ∗ RH c)
  post c := iprop(StableHlo.held (c : Thread nD τ) (Pipeline.ucRefs τ sig) (B2 m ρ c) ∗ RH c)
  X c := iprop(∃ r, prngReg c r)
  Y c := iprop(∃ r, prngReg c r)
  Z c := Pipeline.unscopedRest (Ix := Unit) (Name := ℕ) (U := Pipeline.UD sig nD τ) (Lvl := ℕ) spec1 c (E1 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = (dat1 (E1 m ρ) c).Φ 0 from rfl]
    iintro ⟨Hp, -, Hr⟩
    iapply (hin1 (E1 m ρ) c)
    isplitl [Hp]; · iexact Hp
    iexact Hr
  hout c := by
    rw [Pipeline.ownSems0_none, show (pdatsH m ρ 1 c).Φ (Fin.last _) = (dat1 (E1 m ρ) c).Φ (Fin.last cfg1.N) from rfl]
    refine (hout1 (E1 m ρ) c).trans ?_
    iintro ⟨Hp, Hr⟩
    isplitl [Hp]; · iexact Hp
    isplitr; · iempintro
    iexact Hr
  hexit c := by
    have hjoin := Pipeline.unscopedBufs_of_arrays (p := 1) (pcfgs (F := F)) admH (Ix := Unit) (Name := ℕ) (U := Pipeline.UD sig nD τ) (Lvl := ℕ)
      launch1.win launch1.arr_whole c (pdatsH m ρ) ((pdatsH m ρ 1 c).share_full fun _ => rfl)
      (E1 m ρ c) (E2 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m ρ) () defs₀ 𝒱H LH lvH) :=
  [ .region (reg0 m ρ),
    .region (reg1 m ρ),
    .host (hsegH hostOps2 hostOps2_sub tail_fresh (B2 m ρ)) ]
theorem main_runH (c : Dev nD) : main (F := F) c = Pipeline.Seg.run (segsH m ρ) := (main_chain c).trans (by chain_rfl)

set_option backward.isDefEq.respectTransparency.types false in
/-- THE RUN: every weakly fair execution of @main from memory `m` with zero counters terminates, nothing faulting,
    with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) admH (pdatsH m ρ) () cellOf_inj embL defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ RH c)) (Tₙ := TnH m ρ)
    (hch := ⟨fun _ => .rfl, fun _ => .rfl, fun _ => .rfl, fun c => by
      show (iprop(StableHlo.held (c : Thread nD τ) (Pipeline.ucRefs τ sig) (B3 m ρ c) ∗ RH c) : sProp 𝕄)
        ⊢ iprop(TnH m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c => h c)

/-- The frame: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_ucH main_arg0 (by decide))).trans (B3_main_arg0 m ρ c),
     (h c _ (mem_ucH main_arg1 (by decide))).trans (B3_main_arg1 m ρ c),
     (h c _ (mem_ucH main_arg2 (by decide))).trans (B3_main_arg2 m ρ c),
     (h c _ (mem_ucH main_arg3 (by decide))).trans (B3_main_arg3 m ρ c)⟩) (run_all m ρ)

end Cert.Kernel.Hand

end
-- ==== Proof.KI.Region0Run.lean ====
/- Region 0 (the memory update): one grid point on the resident output buffer as a closed form, the
   closed form of the body's conditional, and the body's triple in each of its two cases. Generic in
   the float interpretation. -/
import proofs.«155079_g79826262164167_feedfinal_366_31_alg».proof.Proof.Gen.KernelIdeal.Launch
import proofs.«155079_g79826262164167_feedfinal_366_31_alg».proof.Proof.Gen.KernelIdeal.Skeleton
import proofs.«155079_g79826262164167_feedfinal_366_31_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## One point on the resident buffer -/

/-- The whole buffer as a rectangle. -/
abbrev rW0 : Rect S32768x128 := Rect.unit (s := S32768x128) ![0, 0] S32768x128.size inb_S32768x128_S32768x128_0_0
/-- The point's slab of 1024 rows. -/
abbrev rS0 (i : grid0.Coords) : Rect S32768x128 := Rect.unit (s := S32768x128) (k0_off1 i) S1024x128.size (k0_off1_inb i)

/-- One point on the resident buffer holding `prev`: first the whole buffer becomes
    `P = prev + wᵀ · (x / rowsum w)`, then the point's slab of `P` gains the memory slab. -/
def step0 (i : grid0.Coords) (x0 : Vec F S128x32768 .f32) (x1 : Vec F S128x128 .f32) (x2 : Vec F S1024x128 .f32)
    (prev : Vec F S32768x128 .f32) : Vec F S32768x128 .f32 :=
  View.canon [⟨rS0 i, k0_pay3 (View.ld (k0_pay2 x0 x1 prev x0) (rS0 i)) x2⟩, ⟨rW0, k0_pay2 x0 x1 prev x0⟩]

/-! ## The body's conditional -/

/-- The condition of the body's conditional, from the grid coordinates. -/
abbrev cond0 (i : grid0.Coords) : Prop := (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val = 0 :=
  (by decide +kernel : ∀ t : Fin grid0.N, cond0 (grid0.coords t) ↔ t.val = 0)

theorem hz2 : (![0, 0] : Fin 2 → Nat) = fun _ => 0 := funext fun a => by fin_cases a <;> rfl

/-! ## The body's triple, case by case -/

set_option maxHeartbeats 1000000 in
/-- At the first point (the condition holds) the buffer, found at anything, is zeroed and then takes one step. -/
theorem runA0 (c : Dev nD) (E : Set ℕ) (i : grid0.Coords)
    (arg1 : Memref sig .tc .vmem S128x32768 .f32) (harg1 : arg1.IsWhole) (arg2 : Memref sig .tc .vmem S128x128 .f32) (harg2 : arg2.IsWhole)
    (arg3 : Memref sig .tc .vmem S1024x128 .f32) (harg3 : arg3.IsWhole) (arg4 : Memref sig .tc .vmem S32768x128 .f32) (harg4 : arg4.IsWhole)
    (hc0 : cond0 i)
    (x0 : Vec F S128x32768 .f32) (x1 : Vec F S128x128 .f32) (x2 : Vec F S1024x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (step0 i x0 x1 x2 (k0_pay1 (F := F)))) -∗ K ⟨⟩))
      ⊢ wp frame (wpE (defs₀ (F := F)) Variants.none c none) E (cc0_memory_update i arg1 harg1 arg2 harg2 arg3 harg3 arg4 harg4) K := by
  simp only [cc0_memory_update_eq_skeleton]; unfold cc0_memory_update_skel
  unfold owns
  iintro ⟨⟨%f0, %hf0, H0⟩, ⟨%f1, %hf1, H1⟩, ⟨%f2, %hf2, H2⟩, ⟨%d3, %f3, -, H3⟩, Hk⟩
  obtain rfl := harg1.eq_unread hf0; obtain rfl := harg2.eq_unread hf1; obtain rfl := harg3.eq_unread hf2
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  rw [View.read_writes_junk_eq_canon]
  sl_unfold_run_names
  unfold step0
  simp only [View.readCov_unit_zero (S := S32768x128) _ hz2, View.readAt_eq_ld, View.read_writes_junk_eq_canon, View.readCov_eq_canon', harg1.read_unread, harg2.read_unread, harg3.read_unread,
    View.ld_unit_zero (S := S128x32768) hz2, View.ld_unit_zero (S := S128x128) hz2, View.ld_unit_zero (S := S1024x128) hz2,
    View.ld_unit_zero (S := S32768x128) hz2, View.canon_cons_unit_zero (S := S32768x128) hz2]
  rw [View.canon_cons, View.canon_cons_unit_zero (S := S32768x128) hz2, View.canon_cons, View.canon_cons_unit_zero (S := S32768x128) hz2]

set_option maxHeartbeats 1000000 in
/-- At a later point (the condition fails) the buffer, found at `xo`, takes one step. -/
theorem runB0 (c : Dev nD) (E : Set ℕ) (i : grid0.Coords)
    (arg1 : Memref sig .tc .vmem S128x32768 .f32) (harg1 : arg1.IsWhole) (arg2 : Memref sig .tc .vmem S128x128 .f32) (harg2 : arg2.IsWhole)
    (arg3 : Memref sig .tc .vmem S1024x128 .f32) (harg3 : arg3.IsWhole) (arg4 : Memref sig .tc .vmem S32768x128 .f32) (harg4 : arg4.IsWhole)
    (hc0 : ¬cond0 i)
    (x0 : Vec F S128x32768 .f32) (x1 : Vec F S128x128 .f32) (x2 : Vec F S1024x128 .f32) (xo : Vec F S32768x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo
        ∗ (iprop(owns (c : Thread nD τ) arg1 fullShare x0 ∗ owns (c : Thread nD τ) arg2 fullShare x1 ∗ owns (c : Thread nD τ) arg3 fullShare x2
            ∗ owns (c : Thread nD τ) arg4 fullShare (step0 i x0 x1 x2 xo)) -∗ K ⟨⟩))
      ⊢ wp frame (wpE (defs₀ (F := F)) Variants.none c none) E (cc0_memory_update i arg1 harg1 arg2 harg2 arg3 harg3 arg4 harg4) K := by
  simp only [cc0_memory_update_eq_skeleton]; unfold cc0_memory_update_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  rw [View.read_writes_junk_eq_canon]
  sl_unfold_run_names
  unfold step0
  simp only [View.readAt_eq_ld, View.read_writes_junk_eq_canon, View.readCov_eq_canon', harg1.read_unread, harg2.read_unread, harg3.read_unread, harg4.read_unread,
    View.ld_unit_zero (S := S128x32768) hz2, View.ld_unit_zero (S := S128x128) hz2, View.ld_unit_zero (S := S1024x128) hz2,
    View.ld_unit_zero (S := S32768x128) hz2, View.canon_cons_unit_zero (S := S32768x128) hz2]

end Cert.KernelIdeal.Hand

end
-- ==== Proof.KI.Region0.lean ====
/- Region 0 (the memory update): what the resident output buffer holds point by point, the
   pipeline's proof data over it, and the body obligation. Generic in the float interpretation. -/
import proofs.«155079_g79826262164167_feedfinal_366_31_alg».proof.Proof.KI.Region0Run
import Idealize.ShloMosaic.Lib.Pipeline.RegionsLoop
import Idealize.ShloMosaic.Lib.Pipeline.FrameSuffix
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the buffer holds after each point -/

/-- After position `n`: at 0 one step from zeros, later one step from what the position before left. -/
def outsAtN0 (c : Dev nD) : (n : ℕ) → n < cfg0.N → Vec F S32768x128 .f32
  | 0, hn => step0 (grid0.coords ⟨0, hn⟩) (iblk0 V c 0 ⟨0, hn⟩) (iblk0 V c 1 ⟨0, hn⟩) (iblk0 V c 2 ⟨0, hn⟩) (k0_pay1 (F := F))
  | n + 1, hn => step0 (grid0.coords ⟨n + 1, hn⟩) (iblk0 V c 0 ⟨n + 1, hn⟩) (iblk0 V c 1 ⟨n + 1, hn⟩) (iblk0 V c 2 ⟨n + 1, hn⟩)
      (outsAtN0 c n (Nat.lt_of_succ_lt hn))

/-- After point `t`. -/
def outsAt0 (c : Dev nD) (t : Fin cfg0.N) : Vec F S32768x128 .f32 := outsAtN0 V c t.val t.isLt

/-- The point before `t`. -/
abbrev pred0 (t : Fin cfg0.N) : Fin cfg0.N := ⟨t.val - 1, Nat.lt_of_le_of_lt (Nat.sub_le _ _) t.isLt⟩

/-- At the first point: one step from zeros. -/
theorem outsAt0_zero (c : Dev nD) (t : Fin cfg0.N) (h0 : t.val = 0) :
    outsAt0 V c t = step0 (grid0.coords t) (iblk0 V c 0 t) (iblk0 V c 1 t) (iblk0 V c 2 t) (k0_pay1 (F := F)) := by
  obtain ⟨n, hn⟩ := t
  cases n with
  | zero => rfl
  | succ n => exact absurd h0 (Nat.succ_ne_zero n)

/-- At a later point: one step from what the point before left. -/
theorem outsAt0_succ (c : Dev nD) (t : Fin cfg0.N) (h0 : t.val ≠ 0) :
    outsAt0 V c t = step0 (grid0.coords t) (iblk0 V c 0 t) (iblk0 V c 1 t) (iblk0 V c 2 t) (outsAt0 V c (pred0 t)) := by
  obtain ⟨n, hn⟩ := t
  cases n with
  | zero => exact absurd rfl h0
  | succ n => rfl

/-! ## The pipeline's proof data -/

/-- The arrays as the region finds them; after the body at point `t` each input's buffer at its block and the
    output's at `outsAt0`; the invariant the scoped rest and the generator register, untouched; nothing owed;
    full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outsAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outsAt0 V c t := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- At a later point the output's staging buffer holds what the body left at the point before: the buffer is not
    written back before the last point. -/
theorem before0_3 (c : Dev nD) (t : Fin cfg0.N) (h0 : t.val ≠ 0) (d) :
    (dat0 V c).before 3 t d = outsAt0 V c (pred0 t) := by
  have hN : t.val < 32 := lt_of_lt_of_eq t.isLt (show cfg0.N = 32 from N_0)
  rw [Dat.before_out_kept _ 3 rfl t h0 (Bool.eq_false_iff.mpr fun h => by have := (flush0_3 _).mp h; dsimp only at this; omega)
    (fun _ => rfl) (fun _ _ => rfl)]
  dsimp only [dat0]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 800000 in
/-- The body at any point: the inputs' memrefs hold their blocks; at the first point the output's buffer holds
    anything and the first case's triple applies, later it holds what the point before left and the second's does;
    the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val = 0
  · rw [outsAt0_zero V c t h0]
    iintro ⟨HΦ, Ho, ⟨%d0, H0⟩, ⟨%d1, H1⟩, ⟨%d2, H2⟩, ⟨%d3, H3⟩⟩
    iapply (runA0 c Set.univ (grid0.coords t) _ _ _ _ _ _ _ _ ((hcond0 t).mpr h0) (iblk0 V c 0 t) (iblk0 V c 1 t) (iblk0 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt0_succ V c t h0]
    simp only [before0_3 V c t h0]
    iintro ⟨HΦ, Ho, ⟨%d0, H0⟩, ⟨%d1, H1⟩, ⟨%d2, H2⟩, ⟨%d3, H3⟩⟩
    iapply (runB0 c Set.univ (grid0.coords t) _ _ _ _ _ _ _ _ (fun h => h0 ((hcond0 t).mp h)) (iblk0 V c 0 t) (iblk0 V c 1 t) (iblk0 V c 2 t) _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Step1.lean ====
/- What one grid point of the attention-read region computes, as explicit functions of the blocks it
   loads and of the three carried buffers (accumulator, running maximum, running mass), over the payload
   names of the skeleton. Definitions only. -/
import proofs.«155079_g79826262164167_feedfinal_366_31_alg».proof.Proof.Gen.KernelIdeal.Skeleton
import proofs.«155079_g79826262164167_feedfinal_366_31_alg».proof.Proof.Gen.KernelIdeal.Launch
import proofs.«155079_g79826262164167_feedfinal_366_31_alg».proof.Proof.Gen.KernelIdeal.Points
import Idealize.ShloMosaic.Lib.Pipeline.FrameBody

noncomputable section

namespace Cert.KernelIdeal.Hand

open Idealize.ShloMosaic Idealize.ShloMosaic.TcCoe
open Idealize.SL Idealize.SL.Sem
open Cert.KernelIdeal.Gen

variable {F : FTy → Type} [FloatOps F]

/-- The three carried buffers, in the order (accumulator [512,128], running maximum [512,1], running mass [512,1]). -/
abbrev Scr (F : FTy → Type) : Type := Vec F S512x128 .f32 × Vec F S512x1 .f32 × Vec F S512x1 .f32

/-- What the first point of a row block stores before anything else: accumulator 0, maximum -inf, mass 0. -/
def scrInit : Scr F := (k1_pay5 (F := F), k1_pay6 (F := F), k1_pay7 (F := F))

/-! The memory block [16384,128] is read in eight row chunks [2048,128]: chunk `k` is rows
    `2048 k ≤ r < 2048 (k+1)`, all 128 columns. -/
abbrev rch0 : Rect S16384x128 := Rect.unit (s := S16384x128) ![0, 0] S2048x128.size inb_S16384x128_S2048x128_0_0
abbrev rch1 : Rect S16384x128 := Rect.unit (s := S16384x128) ![2048, 0] S2048x128.size inb_S16384x128_S2048x128_2048_0
abbrev rch2 : Rect S16384x128 := Rect.unit (s := S16384x128) ![4096, 0] S2048x128.size inb_S16384x128_S2048x128_4096_0
abbrev rch3 : Rect S16384x128 := Rect.unit (s := S16384x128) ![6144, 0] S2048x128.size inb_S16384x128_S2048x128_6144_0
abbrev rch4 : Rect S16384x128 := Rect.unit (s := S16384x128) ![8192, 0] S2048x128.size inb_S16384x128_S2048x128_8192_0
abbrev rch5 : Rect S16384x128 := Rect.unit (s := S16384x128) ![10240, 0] S2048x128.size inb_S16384x128_S2048x128_10240_0
abbrev rch6 : Rect S16384x128 := Rect.unit (s := S16384x128) ![12288, 0] S2048x128.size inb_S16384x128_S2048x128_12288_0
abbrev rch7 : Rect S16384x128 := Rect.unit (s := S16384x128) ![14336, 0] S2048x128.size inb_S16384x128_S2048x128_14336_0

/-- One chunk's three results from the query block `x0` and the chunk's rows `y`: the row maximum of the
    scores `x0 yᵀ` [512,1], the row sum of `exp (scores - maximum)` [512,1], and the product of those
    exponentials with `y` [512,128]. Every chunk's payloads are these same three functions of
    `(x0, its rows)`: the eight chunks' payload definitions have the same bodies, so they are equal by unfolding. -/
def chunkMax (x0 : Vec F S512x128 .f32) (y : Vec F S2048x128 .f32) : Vec F S512x1 .f32 := k1_pay10 x0 y
def chunkSum (x0 : Vec F S512x128 .f32) (y : Vec F S2048x128 .f32) : Vec F S512x1 .f32 := k1_pay12 x0 y
def chunkPV (x0 : Vec F S512x128 .f32) (y : Vec F S2048x128 .f32) : Vec F S512x128 .f32 := k1_pay13 x0 y

/-- The three stores of the unconditional part at one point, from the query block `x0`, the memory block `x1`
    and the carried buffers `s = (acc, m, l)` it loads: the new `(acc, m, l)`. -/
def scrStep (x0 : Vec F S512x128 .f32) (x1 : Vec F S16384x128 .f32) (s : Scr F) : Scr F :=
  let v3 := x0
  let v4 : Vec F S2048x128 .f32 := View.ld x1 rch0
  let v16 : Vec F S2048x128 .f32 := View.ld x1 rch1
  let v28 : Vec F S2048x128 .f32 := View.ld x1 rch2
  let v40 : Vec F S2048x128 .f32 := View.ld x1 rch3
  let v52 : Vec F S2048x128 .f32 := View.ld x1 rch4
  let v64 : Vec F S2048x128 .f32 := View.ld x1 rch5
  let v76 : Vec F S2048x128 .f32 := View.ld x1 rch6
  let v88 : Vec F S2048x128 .f32 := View.ld x1 rch7
  let v113 : Vec F S512x128 .f32 := s.1
  let v100 : Vec F S512x1 .f32 := s.2.1
  let v111 : Vec F S512x1 .f32 := s.2.2
  let v8 := k1_pay10 v3 v4
  let v13 := k1_pay12 v3 v4
  let v15 := k1_pay13 v3 v4
  let v20 := k1_pay16 v3 v16
  let v25 := k1_pay18 v3 v16
  let v27 := k1_pay19 v3 v16
  let v29 := k1_pay20 v28
  let v32 := k1_pay22 v3 v28
  let v35 := k1_pay23 v3 v28
  let v37 := k1_pay24 v35
  let v39 := k1_pay25 v29 v35
  let v44 := k1_pay28 v3 v40
  let v49 := k1_pay30 v3 v40
  let v51 := k1_pay31 v3 v40
  let v56 := k1_pay34 v3 v52
  let v61 := k1_pay36 v3 v52
  let v63 := k1_pay37 v3 v52
  let v68 := k1_pay40 v3 v64
  let v73 := k1_pay42 v3 v64
  let v75 := k1_pay43 v3 v64
  let v80 := k1_pay46 v3 v76
  let v85 := k1_pay48 v3 v76
  let v87 := k1_pay49 v3 v76
  let v92 := k1_pay52 v3 v88
  let v97 := k1_pay54 v3 v88
  let v99 := k1_pay55 v3 v88
  let v108 := k1_pay56 v3 v8 v20 v32 v44 v56 v68 v76 v88 v100
  let v112 := k1_pay58 v3 v8 v20 v32 v44 v56 v68 v76 v88 v100 v111
  let v115 := k1_pay59 v3 v8 v20 v32 v44 v56 v68 v76 v88 v100 v113
  let v117 := k1_pay60 v3 v8 v20 v32 v44 v56 v68 v76 v88 v100
  let v118 := k1_pay61 v3 v8 v13 v20 v32 v44 v56 v68 v76 v88 v100
  let v168 := k1_pay69 v20 v25 v32 v37 v44 v49 v56 v61 v68 v73 v80 v85 v92 v97 v108 v112 v118
  let v171 := k1_pay70 v15 v20 v27 v32 v39 v44 v51 v56 v63 v68 v75 v80 v87 v92 v99 v108 v115 v117
  (k1_pay2 v171, k1_pay71 v108, k1_pay1 v168)

/-- What the last point of a row block stores into the two output windows from the carried buffers
    `s = (acc, m, l)` it loads back: `(acc * (1/l), 1/l)`. -/
def outStep (s : Scr F) : Vec F S512x128 .f32 × Vec F S512x1 .f32 :=
  (k1_pay4 s.2.2 s.1, k1_pay3 s.2.2)

section Points
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried buffers after point `k`, by recursion on `k`: an even point starts from `scrInit`, an odd point
    from what the point before left. -/
def scrAtAux (c : Dev nD) : (k : ℕ) → (hk : k < cfg1.N) → Scr F
  | 0, hk => scrStep (iblk1 V c 0 ⟨0, hk⟩) (iblk1 V c 1 ⟨0, hk⟩) scrInit
  | k + 1, hk => scrStep (iblk1 V c 0 ⟨k + 1, hk⟩) (iblk1 V c 1 ⟨k + 1, hk⟩)
      (if (k + 1) % 2 = 0 then scrInit else scrAtAux c k (Nat.lt_of_succ_lt hk))

/-- The carried buffers after point `t`. -/
def scrAt1 (c : Dev nD) (t : Fin cfg1.N) : Scr F := scrAtAux V c t.val t.isLt

/-- The unfolding equation at an even point: it starts from `scrInit`. -/
theorem scrAt1_even (c : Dev nD) (t : Fin cfg1.N) (ht : t.val % 2 = 0) :
    scrAt1 V c t = scrStep (iblk1 V c 0 t) (iblk1 V c 1 t) scrInit := by
  obtain ⟨k, hk⟩ := t
  unfold scrAt1
  cases k with
  | zero => rfl
  | succ k => simp only [scrAtAux]; rw [if_pos ht]

/-- The unfolding equation at an odd point: it starts from what the point before left. -/
theorem scrAt1_odd (c : Dev nD) (t : Fin cfg1.N) (ht : t.val % 2 = 1) :
    scrAt1 V c t = scrStep (iblk1 V c 0 t) (iblk1 V c 1 t)
      (scrAt1 V c ⟨t.val - 1, Nat.lt_of_le_of_lt (Nat.sub_le _ _) t.isLt⟩) := by
  obtain ⟨k, hk⟩ := t
  unfold scrAt1
  cases k with
  | zero => simp at ht
  | succ k =>
    simp only [scrAtAux]
    rw [if_neg (by simp only at ht; omega)]
    rfl

/-- What the two output windows' buffers hold after an odd point `t`. -/
def outsAt1 (c : Dev nD) (t : Fin cfg1.N) : Vec F S512x128 .f32 × Vec F S512x1 .f32 := outStep (scrAt1 V c t)

end Points

end Cert.KernelIdeal.Hand

end
-- ==== Proof.KI.Region1Run.lean ====
/- The body of the attention-read region run on whole memrefs, at a point with second coordinate 0: the reset
   branch is taken, the output branch is not. The pieces each scratch buffer ends with are found by the run. -/
import proofs.«155079_g79826262164167_feedfinal_366_31_alg».proof.Proof.KI.Step1
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-! ## The body's two branch conditions, from the grid coordinates -/

/-- The condition of the reset branch: the second coordinate is 0. -/
abbrev cond1_0 (i : grid1.Coords) : Prop := (Scalar.cmpi .ne (Scalar.extui (Scalar.cmpi .eq (BitVec.ofNat 32 (i 1).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The condition of the output branch: the second coordinate is the last. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

set_option maxHeartbeats 4000000 in
/-- The body where the reset branch is taken and the output branch is not: the two input blocks at `x0`, `x1`, the
    scratch buffers at anything; it leaves the inputs as they were and each scratch buffer with the found pieces written. -/
noncomputable def kernelRun1_A (c : Dev nD) (i : grid1.Coords) (arg2 : Memref sig .tc .vmem S512x128 .f32) (harg2 : arg2.IsWhole) (arg3 : Memref sig .tc .vmem S16384x128 .f32) (harg3 : arg3.IsWhole)
    (arg4 : Memref sig .tc .vmem S512x128 .f32) (harg4 : arg4.IsWhole) (arg5 : Memref sig .tc .vmem S512x1 .f32) (harg5 : arg5.IsWhole)
    (arg6 : Memref sig .tc .vmem S512x128 .f32) (harg6 : arg6.IsWhole) (arg7 : Memref sig .tc .vmem S512x1 .f32) (harg7 : arg7.IsWhole) (arg8 : Memref sig .tc .vmem S512x1 .f32) (harg8 : arg8.IsWhole)
    (hc0 : cond1_0 i) (hc1 : ¬cond1_1 i) (x0 : Vec F S512x128 .f32) (x1 : Vec F S16384x128 .f32) :
    Σ' (LS0 : List (View.Piece (Elt F) S512x128 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1_attention_read i arg2 harg2 arg3 harg3 arg4 harg4 arg5 harg5 arg6 harg6 arg7 harg7 arg8 harg8) K } := by
  refine ⟨?_, ?_, ?_, fun E K => ?run⟩
  case run =>
    simp only [cc1_attention_read_eq_skeleton]; unfold cc1_attention_read_skel
    simp only [k1_part1_eq_skeleton, k1_part2_eq_skeleton, k1_part3_eq_skeleton, k1_part4_eq_skeleton]
    unfold owns
    iintro ⟨⟨%f0, %hf0, H0⟩, ⟨%f1, %hf1, H1⟩, ⟨%ds0, %fs0, -, HS0⟩, ⟨%ds1, %fs1, -, HS1⟩, ⟨%ds2, %fs2, -, HS2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    isplitl [HS1]; · iexists _; iexact HS1
    iexists _; iexact HS2

end Cert.KernelIdeal.Hand

end
-- ==== Proof.KI.Region1RunB.lean ====
/- The body of the attention-read region run on whole memrefs, at a point with second coordinate 1: the reset
   branch is not taken, the output branch is. The pieces each written buffer ends with are found by the run. -/
import proofs.«155079_g79826262164167_feedfinal_366_31_alg».proof.Proof.KI.Region1Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 4000000 in
/-- The body where the reset branch is not taken and the output branch is: the two input blocks at `x0`, `x1`, the
    scratch buffers at `sa`, `sm`, `sl`, the outputs' buffers at anything; it leaves the inputs as they were and each
    scratch and output buffer with the found pieces written. -/
noncomputable def kernelRun1_B (c : Dev nD) (i : grid1.Coords) (arg2 : Memref sig .tc .vmem S512x128 .f32) (harg2 : arg2.IsWhole) (arg3 : Memref sig .tc .vmem S16384x128 .f32) (harg3 : arg3.IsWhole)
    (arg4 : Memref sig .tc .vmem S512x128 .f32) (harg4 : arg4.IsWhole) (arg5 : Memref sig .tc .vmem S512x1 .f32) (harg5 : arg5.IsWhole)
    (arg6 : Memref sig .tc .vmem S512x128 .f32) (harg6 : arg6.IsWhole) (arg7 : Memref sig .tc .vmem S512x1 .f32) (harg7 : arg7.IsWhole) (arg8 : Memref sig .tc .vmem S512x1 .f32) (harg8 : arg8.IsWhole)
    (hc0 : ¬cond1_0 i) (hc1 : cond1_1 i) (x0 : Vec F S512x128 .f32) (x1 : Vec F S16384x128 .f32)
    (sa : Vec F S512x128 .f32) (sm : Vec F S512x1 .f32) (sl : Vec F S512x1 .f32) :
    Σ' (LS0 : List (View.Piece (Elt F) S512x128 .f32)) (LS1 : List (View.Piece (Elt F) S512x1 .f32)) (LS2 : List (View.Piece (Elt F) S512x1 .f32))
       (L2 : List (View.Piece (Elt F) S512x128 .f32)), { L3 : List (View.Piece (Elt F) S512x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ owns (c : Thread nD τ) arg6 fullShare sa ∗ owns (c : Thread nD τ) arg7 fullShare sm ∗ owns (c : Thread nD τ) arg8 fullShare sl
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1_attention_read i arg2 harg2 arg3 harg3 arg4 harg4 arg5 harg5 arg6 harg6 arg7 harg7 arg8 harg8) K } := by
  refine ⟨?_, ?_, ?_, ?_, ?_, fun E K => ?run⟩
  case run =>
    simp only [cc1_attention_read_eq_skeleton]; unfold cc1_attention_read_skel
    simp only [k1_part1_eq_skeleton, k1_part2_eq_skeleton, k1_part3_eq_skeleton, k1_part4_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    isplitl [HS1]; · iexists _; iexact HS1
    iexists _; iexact HS2

end Cert.KernelIdeal.Hand

end
-- ==== Proof.KI.Region1Eq.lean ====
/- What the two runs of the attention-read body leave, read back: the found pieces are the step functions'
   components (each buffer's last store covers it; each load of a buffer stored before reads that store's payload). -/
import proofs.«155079_g79826262164167_feedfinal_366_31_alg».proof.Proof.KI.Region1RunB
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

theorem hzero2 : (![0, 0] : Fin 2 → Nat) = fun _ => 0 := funext fun a => by fin_cases a <;> rfl

theorem runA_0 (c : Dev nD) (i : grid1.Coords) (arg2 : Memref sig .tc .vmem S512x128 .f32) (harg2 : arg2.IsWhole) (arg3 : Memref sig .tc .vmem S16384x128 .f32) (harg3 : arg3.IsWhole)
    (arg4 : Memref sig .tc .vmem S512x128 .f32) (harg4 : arg4.IsWhole) (arg5 : Memref sig .tc .vmem S512x1 .f32) (harg5 : arg5.IsWhole)
    (arg6 : Memref sig .tc .vmem S512x128 .f32) (harg6 : arg6.IsWhole) (arg7 : Memref sig .tc .vmem S512x1 .f32) (harg7 : arg7.IsWhole) (arg8 : Memref sig .tc .vmem S512x1 .f32) (harg8 : arg8.IsWhole)
    (hc0 : cond1_0 i) (hc1 : ¬cond1_1 i) (x0 : Vec F S512x128 .f32) (x1 : Vec F S16384x128 .f32) (f) :
    arg6.view.read (Elt F) (arg6.view.writes (Elt F) f (kernelRun1_A c i arg2 harg2 arg3 harg3 arg4 harg4 arg5 harg5 arg6 harg6 arg7 harg7 arg8 harg8 hc0 hc1 x0 x1).1) = (scrStep x0 x1 scrInit).1 := by
  unfold kernelRun1_A
  dsimp only
  rw [View.read_writes_eq_canon _ _ _ (fun y => ⟨_, List.mem_cons_self .., View.mem_set_unit_zero hzero2 inb_S512x128_S512x128_0_0 y⟩)]
  rw [View.canon_cons_unit_zero (S := S512x128) hzero2]
  sl_unfold_run_names
  simp only [View.readCov_unit_zero (S := S512x1) _ hzero2, View.readCov_unit_zero (S := S512x128) _ hzero2, View.readAt_eq_ld,
    Memref.IsWhole.read_unread, View.ld_unit_zero (S := S512x128) hzero2, View.ld_unit_zero (S := S512x1) hzero2]
  rfl

theorem runA_1 (c : Dev nD) (i : grid1.Coords) (arg2 : Memref sig .tc .vmem S512x128 .f32) (harg2 : arg2.IsWhole) (arg3 : Memref sig .tc .vmem S16384x128 .f32) (harg3 : arg3.IsWhole)
    (arg4 : Memref sig .tc .vmem S512x128 .f32) (harg4 : arg4.IsWhole) (arg5 : Memref sig .tc .vmem S512x1 .f32) (harg5 : arg5.IsWhole)
    (arg6 : Memref sig .tc .vmem S512x128 .f32) (harg6 : arg6.IsWhole) (arg7 : Memref sig .tc .vmem S512x1 .f32) (harg7 : arg7.IsWhole) (arg8 : Memref sig .tc .vmem S512x1 .f32) (harg8 : arg8.IsWhole)
    (hc0 : cond1_0 i) (hc1 : ¬cond1_1 i) (x0 : Vec F S512x128 .f32) (x1 : Vec F S16384x128 .f32) (f) :
    arg7.view.read (Elt F) (arg7.view.writes (Elt F) f (kernelRun1_A c i arg2 harg2 arg3 harg3 arg4 harg4 arg5 harg5 arg6 harg6 arg7 harg7 arg8 harg8 hc0 hc1 x0 x1).2.1) = (scrStep x0 x1 scrInit).2.1 := by
  unfold kernelRun1_A
  dsimp only
  rw [View.read_writes_eq_canon _ _ _ (fun y => ⟨_, List.mem_cons_self .., View.mem_set_unit_zero hzero2 inb_S512x1_S512x1_0_0 y⟩)]
  rw [View.canon_cons_unit_zero (S := S512x1) hzero2]
  sl_unfold_run_names
  simp only [View.readCov_unit_zero (S := S512x1) _ hzero2, View.readCov_unit_zero (S := S512x128) _ hzero2, View.readAt_eq_ld,
    Memref.IsWhole.read_unread, View.ld_unit_zero (S := S512x128) hzero2, View.ld_unit_zero (S := S512x1) hzero2]
  rfl

theorem runA_2 (c : Dev nD) (i : grid1.Coords) (arg2 : Memref sig .tc .vmem S512x128 .f32) (harg2 : arg2.IsWhole) (arg3 : Memref sig .tc .vmem S16384x128 .f32) (harg3 : arg3.IsWhole)
    (arg4 : Memref sig .tc .vmem S512x128 .f32) (harg4 : arg4.IsWhole) (arg5 : Memref sig .tc .vmem S512x1 .f32) (harg5 : arg5.IsWhole)
    (arg6 : Memref sig .tc .vmem S512x128 .f32) (harg6 : arg6.IsWhole) (arg7 : Memref sig .tc .vmem S512x1 .f32) (harg7 : arg7.IsWhole) (arg8 : Memref sig .tc .vmem S512x1 .f32) (harg8 : arg8.IsWhole)
    (hc0 : cond1_0 i) (hc1 : ¬cond1_1 i) (x0 : Vec F S512x128 .f32) (x1 : Vec F S16384x128 .f32) (f) :
    arg8.view.read (Elt F) (arg8.view.writes (Elt F) f (kernelRun1_A c i arg2 harg2 arg3 harg3 arg4 harg4 arg5 harg5 arg6 harg6 arg7 harg7 arg8 harg8 hc0 hc1 x0 x1).2.2.1) = (scrStep x0 x1 scrInit).2.2 := by
  unfold kernelRun1_A
  dsimp only
  rw [View.read_writes_eq_canon _ _ _ (fun y => ⟨_, List.mem_cons_self .., View.mem_set_unit_zero hzero2 inb_S512x1_S512x1_0_0 y⟩)]
  rw [View.canon_cons_unit_zero (S := S512x1) hzero2]
  sl_unfold_run_names
  simp only [View.readCov_unit_zero (S := S512x1) _ hzero2, View.readCov_unit_zero (S := S512x128) _ hzero2, View.readAt_eq_ld,
    Memref.IsWhole.read_unread, View.ld_unit_zero (S := S512x128) hzero2, View.ld_unit_zero (S := S512x1) hzero2]
  rfl

theorem runB_2 (c : Dev nD) (i : grid1.Coords) (arg2 : Memref sig .tc .vmem S512x128 .f32) (harg2 : arg2.IsWhole) (arg3 : Memref sig .tc .vmem S16384x128 .f32) (harg3 : arg3.IsWhole)
    (arg4 : Memref sig .tc .vmem S512x128 .f32) (harg4 : arg4.IsWhole) (arg5 : Memref sig .tc .vmem S512x1 .f32) (harg5 : arg5.IsWhole)
    (arg6 : Memref sig .tc .vmem S512x128 .f32) (harg6 : arg6.IsWhole) (arg7 : Memref sig .tc .vmem S512x1 .f32) (harg7 : arg7.IsWhole) (arg8 : Memref sig .tc .vmem S512x1 .f32) (harg8 : arg8.IsWhole)
    (hc0 : ¬cond1_0 i) (hc1 : cond1_1 i) (x0 : Vec F S512x128 .f32) (x1 : Vec F S16384x128 .f32)
    (sa : Vec F S512x128 .f32) (sm : Vec F S512x1 .f32) (sl : Vec F S512x1 .f32) (f) :
    arg4.view.read (Elt F) (arg4.view.writes (Elt F) f (kernelRun1_B c i arg2 harg2 arg3 harg3 arg4 harg4 arg5 harg5 arg6 harg6 arg7 harg7 arg8 harg8 hc0 hc1 x0 x1 sa sm sl).2.2.2.1) = (outStep (scrStep x0 x1 (sa, sm, sl))).1 := by
  unfold kernelRun1_B
  dsimp only
  rw [View.read_writes_eq_canon _ _ _ (fun y => ⟨_, List.mem_cons_self .., View.mem_set_unit_zero hzero2 inb_S512x128_S512x128_0_0 y⟩)]
  rw [View.canon_cons_unit_zero (S := S512x128) hzero2]
  sl_unfold_run_names
  simp only [View.readCov_unit_zero (S := S512x1) _ hzero2, View.readCov_unit_zero (S := S512x128) _ hzero2, View.readAt_eq_ld,
    Memref.IsWhole.read_unread, View.ld_unit_zero (S := S512x128) hzero2, View.ld_unit_zero (S := S512x1) hzero2]
  rfl

theorem runB_3 (c : Dev nD) (i : grid1.Coords) (arg2 : Memref sig .tc .vmem S512x128 .f32) (harg2 : arg2.IsWhole) (arg3 : Memref sig .tc .vmem S16384x128 .f32) (harg3 : arg3.IsWhole)
    (arg4 : Memref sig .tc .vmem S512x128 .f32) (harg4 : arg4.IsWhole) (arg5 : Memref sig .tc .vmem S512x1 .f32) (harg5 : arg5.IsWhole)
    (arg6 : Memref sig .tc .vmem S512x128 .f32) (harg6 : arg6.IsWhole) (arg7 : Memref sig .tc .vmem S512x1 .f32) (harg7 : arg7.IsWhole) (arg8 : Memref sig .tc .vmem S512x1 .f32) (harg8 : arg8.IsWhole)
    (hc0 : ¬cond1_0 i) (hc1 : cond1_1 i) (x0 : Vec F S512x128 .f32) (x1 : Vec F S16384x128 .f32)
    (sa : Vec F S512x128 .f32) (sm : Vec F S512x1 .f32) (sl : Vec F S512x1 .f32) (f) :
    arg5.view.read (Elt F) (arg5.view.writes (Elt F) f (kernelRun1_B c i arg2 harg2 arg3 harg3 arg4 harg4 arg5 harg5 arg6 harg6 arg7 harg7 arg8 harg8 hc0 hc1 x0 x1 sa sm sl).2.2.2.2.1) = (outStep (scrStep x0 x1 (sa, sm, sl))).2 := by
  unfold kernelRun1_B
  dsimp only
  rw [View.read_writes_eq_canon _ _ _ (fun y => ⟨_, List.mem_cons_self .., View.mem_set_unit_zero hzero2 inb_S512x1_S512x1_0_0 y⟩)]
  rw [View.canon_cons_unit_zero (S := S512x1) hzero2]
  sl_unfold_run_names
  simp only [View.readCov_unit_zero (S := S512x1) _ hzero2, View.readCov_unit_zero (S := S512x128) _ hzero2, View.readAt_eq_ld,
    Memref.IsWhole.read_unread, View.ld_unit_zero (S := S512x128) hzero2, View.ld_unit_zero (S := S512x1) hzero2]
  rfl

end Cert.KernelIdeal.Hand

end
-- ==== Proof.KI.Region1.lean ====
/- The proof data of the attention-read region and its body obligation: the invariant carries the three
   scratch buffers at the contents the point before left (odd positions) or at any contents (even positions). -/
import proofs.«155079_g79826262164167_feedfinal_366_31_alg».proof.Proof.KI.Region1Eq
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- The three scratch operands: whole scoped buffers, passed beside the windows. -/
abbrev scM0 : Memref sig .tc .vmem S512x128 .f32 := Memref.whole cc1_scratch0
abbrev scM1 : Memref sig .tc .vmem S512x1 .f32 := Memref.whole cc1_scratch1
abbrev scM2 : Memref sig .tc .vmem S512x1 .f32 := Memref.whole cc1_scratch2

/-- Each window's current staging memref at point `t`, and its wholeness. -/
abbrev ms1_0 (t : Fin cfg1.N) : Memref sig .tc .vmem S512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)

/-! ## Where the windows are idle, and where the outputs are written back -/

theorem liveAt1_0 : ∀ t : Fin cfg1.N, cfg1.idle 0 (grid1.coords t) = false := fun _ => rfl
theorem liveAt1_1 : ∀ t : Fin cfg1.N, cfg1.idle 1 (grid1.coords t) = false := fun _ => rfl
theorem idleAt1_2 : ∀ t : Fin cfg1.N, ¬cond1_1 (grid1.coords t) → cfg1.idle 2 (grid1.coords t) = true :=
  (by decide +kernel : ∀ t : Fin grid1.N, ¬cond1_1 (grid1.coords t) → cfg1.idle 2 (grid1.coords t) = true)
theorem idleAt1_3 : ∀ t : Fin cfg1.N, ¬cond1_1 (grid1.coords t) → cfg1.idle 3 (grid1.coords t) = true :=
  (by decide +kernel : ∀ t : Fin grid1.N, ¬cond1_1 (grid1.coords t) → cfg1.idle 3 (grid1.coords t) = true)
theorem liveAt1_2 : ∀ t : Fin cfg1.N, cond1_1 (grid1.coords t) → cfg1.idle 2 (grid1.coords t) = false :=
  (by decide +kernel : ∀ t : Fin grid1.N, cond1_1 (grid1.coords t) → cfg1.idle 2 (grid1.coords t) = false)
theorem liveAt1_3 : ∀ t : Fin cfg1.N, cond1_1 (grid1.coords t) → cfg1.idle 3 (grid1.coords t) = false :=
  (by decide +kernel : ∀ t : Fin grid1.N, cond1_1 (grid1.coords t) → cfg1.idle 3 (grid1.coords t) = false)
theorem noFlush1_2 : ∀ t : Fin cfg1.N, ¬cond1_1 (grid1.coords t) → (cfg1.win 2).flush t = false :=
  fun t h => Bool.eq_false_iff.mpr fun hf => h ((hcond1_1 t).mpr ((flush1_2 t).mp hf))
theorem noFlush1_3 : ∀ t : Fin cfg1.N, ¬cond1_1 (grid1.coords t) → (cfg1.win 3).flush t = false :=
  fun t h => Bool.eq_false_iff.mpr fun hf => h ((hcond1_1 t).mpr ((flush1_3 t).mp hf))

/-! ## The invariant -/

/-- The scoped buffers of the core that are neither staging buffers of this region nor its scratch, each at some contents. -/
def restPts (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f))

/-- The scratch buffers at any contents. -/
def scrAny (c : Dev nD) : sProp 𝕄 :=
  iprop((∃ d, owns (c : Thread nD τ) scM0 fullShare d) ∗ (∃ d, owns (c : Thread nD τ) scM1 fullShare d) ∗ (∃ d, owns (c : Thread nD τ) scM2 fullShare d))

/-- The scratch buffers at named contents. -/
def scrPts (c : Dev nD) (s : Scr F) : sProp 𝕄 :=
  iprop(owns (c : Thread nD τ) scM0 fullShare s.1 ∗ owns (c : Thread nD τ) scM1 fullShare s.2.1 ∗ owns (c : Thread nD τ) scM2 fullShare s.2.2)

/-- The scratch at any contents, as the points-tos of the three whole buffers. -/
theorem scrAny_eq (c : Dev nD) :
    (scrAny c : sProp 𝕄) = iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) := by
  unfold scrAny; simp only [scM0, scM1, scM2, owns_whole]; try rfl

section Regions
variable (V : (c : Dev nD) → (b : Ref sig .tc) → Buf (Elt F) ((c : Thread nD τ).loc b))

/-- The invariant before position `k`: the generator register, the scoped rest, and the scratch — after an even point
    (`k` odd) at what that point left, else at any contents. -/
def Φ1 (c : Dev nD) (k : Fin (cfg1.N + 1)) : sProp 𝕄 :=
  iprop((∃ r, prngReg c r) ∗ restPts c ∗
    (if h : k.val % 2 = 1 then scrPts c (scrAt1 V c ⟨k.val - 1, by have := k.isLt; omega⟩) else scrAny c))

theorem Φ1_cast_even (c : Dev nD) (t : Fin cfg1.N) (h0 : t.val % 2 = 0) :
    Φ1 V c t.castSucc = iprop((∃ r, prngReg c r) ∗ restPts c ∗ scrAny c) := by
  unfold Φ1; rw [dif_neg (by rw [Fin.coe_castSucc]; omega)]

theorem Φ1_cast_odd (c : Dev nD) (t : Fin cfg1.N) (h1 : t.val % 2 = 1) :
    Φ1 V c t.castSucc = iprop((∃ r, prngReg c r) ∗ restPts c ∗ scrPts c (scrAt1 V c ⟨t.val - 1, Nat.lt_of_le_of_lt (Nat.sub_le _ _) t.isLt⟩)) := by
  unfold Φ1; rw [dif_pos (by rw [Fin.coe_castSucc]; exact h1)]; rfl

theorem Φ1_succ_even (c : Dev nD) (t : Fin cfg1.N) (h0 : t.val % 2 = 0) :
    Φ1 V c t.succ = iprop((∃ r, prngReg c r) ∗ restPts c ∗ scrPts c (scrAt1 V c t)) := by
  unfold Φ1; rw [dif_pos (by rw [Fin.val_succ]; omega)]; rfl

theorem Φ1_succ_odd (c : Dev nD) (t : Fin cfg1.N) (h1 : t.val % 2 = 1) :
    Φ1 V c t.succ = iprop((∃ r, prngReg c r) ∗ restPts c ∗ scrAny c) := by
  unfold Φ1; rw [dif_neg (by rw [Fin.val_succ]; omega)]

/-- The proof data of the region on core `c`. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t).1
    | ⟨3, _⟩ => (outsAt1 V c t).2
  Φ k := Φ1 V c k
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) (ht : t.val % 2 = 1) : (dat1 V c).after 2 t = (outsAt1 V c t).1 := by dsimp only [dat1]
theorem after1_3 (c : Dev nD) (t : Fin cfg1.N) (ht : t.val % 2 = 1) : (dat1 V c).after 3 t = (outsAt1 V c t).2 := by dsimp only [dat1]

/-- What the launch hands the region is the invariant before the first point. -/
theorem hin1 (c : Dev nD) : (iprop((∃ r, prngReg c r) ∗ Pipeline.scopedRest spec1 c) : sProp 𝕄) ⊢ (dat1 V c).Φ 0 := by
  rw [show (dat1 V c).Φ 0 = Φ1 V c 0 from rfl]
  unfold Φ1; rw [dif_neg (by simp)]
  rw [scopedRest1_eq, scrAny_eq]; unfold restPts
  iintro ⟨Hg, H0, H1, H2, H3, H4, H5, H6, S0, S1, S2⟩
  isplitl [Hg]; · iexact Hg
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [S0]; · iexact S0
  isplitl [S1]; · iexact S1
  iexact S2

/-- After the last point the invariant gives the scoped rest back. -/
theorem hout1 (c : Dev nD) : (dat1 V c).Φ (Fin.last cfg1.N) ⊢ (iprop((∃ r, prngReg c r) ∗ Pipeline.scopedRest spec1 c) : sProp 𝕄) := by
  rw [show (dat1 V c).Φ (Fin.last cfg1.N) = Φ1 V c (Fin.last cfg1.N) from rfl]
  unfold Φ1; rw [dif_neg (by rw [Fin.val_last, show cfg1.N = 16 from N_1]; decide)]
  rw [scopedRest1_eq, scrAny_eq]; unfold restPts
  iintro ⟨Hg, ⟨H0, H1, H2, H3, H4, H5, H6⟩, S0, S1, S2⟩
  isplitl [Hg]; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  iexact S2

/-! ## The inputs' buffers hold their blocks -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Φ1 V c t.succ from rfl, show (dat1 V c).Φ t.castSucc = Φ1 V c t.castSucc from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 2 = 0
  · have hc0 : cond1_0 (grid1.coords t) := (hcond1_0 t).mpr h0
    have hc1 : ¬cond1_1 (grid1.coords t) := fun h => by have := (hcond1_1 t).mp h; omega
    rw [Φ1_cast_even V c t h0, Φ1_succ_even V c t h0]
    rw [Dat.leavesExact_idle (dat1 V c) 2 t (idleAt1_2 t hc1) (noFlush1_2 t hc1),
      Dat.leavesExact_idle (dat1 V c) 3 t (idleAt1_3 t hc1) (noFlush1_3 t hc1)]
    rw [scrAt1_even V c t h0]
    unfold scrAny scrPts
    iintro ⟨⟨Hg, HR, HS0, HS1, HS2⟩, Ho, ⟨%d0, H0⟩, ⟨%d1, H1⟩, H2, H3⟩
    iapply ((kernelRun1_A c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) hc0 hc1 (iblk1 V c 0 t) (iblk1 V c 1 t)).2.2.2 Set.univ _)
    isplitl [H0]; · iexact H0
    isplitl [H1]; · iexact H1
    isplitl [HS0]; · iexact HS0
    isplitl [HS1]; · iexact HS1
    isplitl [HS2]; · iexact HS2
    iintro ⟨H0, H1, ⟨%e0, HS0⟩, ⟨%e1, HS1⟩, ⟨%e2, HS2⟩⟩
    isplitl [Hg HR HS0 HS1 HS2]
    · isplitl [Hg]; · iexact Hg
      isplitl [HR]; · iexact HR
      isplitl [HS0]
      · unfold owns; iexists _; isplitr
        swap; · iexact HS0
        ipureintro; exact runA_0 c _ _ _ _ _ _ _ _ _ _ _ _ _ _ _ _ _ _ _ _
      isplitl [HS1]
      · unfold owns; iexists _; isplitr
        swap; · iexact HS1
        ipureintro; exact runA_1 c _ _ _ _ _ _ _ _ _ _ _ _ _ _ _ _ _ _ _ _
      unfold owns; iexists _; isplitr
      swap; · iexact HS2
      ipureintro; exact runA_2 c _ _ _ _ _ _ _ _ _ _ _ _ _ _ _ _ _ _ _ _
    isplitl [Ho]; · iexact Ho
    isplitl [H0]; · iexact H0
    isplitl [H1]; · iexact H1
    isplitl [H2]; · iexact H2
    iexact H3
  · have h1 : t.val % 2 = 1 := by omega
    have hc0 : ¬cond1_0 (grid1.coords t) := fun h => h0 ((hcond1_0 t).mp h)
    have hc1 : cond1_1 (grid1.coords t) := (hcond1_1 t).mpr h1
    rw [Φ1_cast_odd V c t h1, Φ1_succ_odd V c t h1]
    rw [show (dat1 V c).leavesExact 2 t = owns (c : Thread nD τ) (ms1_2 t) fullShare ((dat1 V c).after 2 t) from by
      unfold Dat.leavesExact; rw [liveAt1_2 t hc1], after1_2 V c t h1]
    rw [show (dat1 V c).leavesExact 3 t = owns (c : Thread nD τ) (ms1_3 t) fullShare ((dat1 V c).after 3 t) from by
      unfold Dat.leavesExact; rw [liveAt1_3 t hc1], after1_3 V c t h1]
    unfold outsAt1
    rw [scrAt1_odd V c t h1]
    unfold scrAny scrPts
    iintro ⟨⟨Hg, HR, HS0, HS1, HS2⟩, Ho, ⟨%d0, H0⟩, ⟨%d1, H1⟩, ⟨%d2, H2⟩, ⟨%d3, H3⟩⟩
    iapply ((kernelRun1_B c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) hc0 hc1 (iblk1 V c 0 t) (iblk1 V c 1 t) _ _ _).2.2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    isplitl [HS2]; · iexact HS2
    iintro ⟨H0, H1, ⟨%e2, H2⟩, ⟨%e3, H3⟩, ⟨%e0, HS0⟩, ⟨%e1, HS1⟩, ⟨%e4, HS2⟩⟩
    isplitl [Hg HR HS0 HS1 HS2]
    · isplitl [Hg]; · iexact Hg
      isplitl [HR]; · iexact HR
      isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    isplitl [Ho]; · iexact Ho
    isplitl [H0]; · iexact H0
    isplitl [H1]; · iexact H1
    isplitl [H2]
    · unfold owns; iexists _; isplitr
      swap; · iexact H2
      ipureintro; exact runB_2 c _ _ _ _ _ _ _ _ _ _ _ _ _ _ _ _ _ _ _ _ _ _ _
    unfold owns; iexists _; isplitr
    swap; · iexact H3
    ipureintro; exact runB_3 c _ _ _ _ _ _ _ _ _ _ _ _ _ _ _ _ _ _ _ _ _ _ _

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Run.lean ====
/-
  The program's run, segment by segment: the write region, the read region, the host reshape.

  Between two segments every unscoped buffer of the core is held at named contents: at launch the memory `m`;
  after the write region the same except that the region's output array holds what its write-backs left
  (`Dat.arrAt` at the last point); after the read region likewise for its two output arrays; after the host
  reshape the fold of that operation. Each region is entered by splitting its windows' arrays out of the held
  buffers and left by putting them back; the generator register and the core's (empty) dues ride along. The
  launch theorem for a list of segments then gives: every weakly fair execution terminates, and every
  unscoped buffer ends at the last boundary's contents — from which both the frame (no argument array is
  written by any segment) and the results' contents are read.
-/
import proofs.«155079_g79826262164167_feedfinal_366_31_alg».proof.Proof.KI.Region0
import proofs.«155079_g79826262164167_feedfinal_366_31_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
abbrev E0 : (c : Dev nD) → (b : Ref sig .tc) → Buf (Elt F) ((c : Thread nD τ).loc b) := fun c b => B0 m ρ c b

/-- After the write region: its arrays at what the pipeline leaves, every other buffer as entered. -/
def B1 (c : Dev nD) : Valuation τ sig (Elt F) :=
  Pipeline.withArrays spec0 c (B0 m ρ c) fun w => (dat0 (E0 m ρ) c).arrAt w cfg0.N
theorem B1_arr (c : Dev nD) (w : Fin cfg0.W) :
    B1 m ρ c (Proc.devRef .tc (Pipeline.arrRef spec0 w)) = (dat0 (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev E1 : (c : Dev nD) → (b : Ref sig .tc) → Buf (Elt F) ((c : Thread nD τ).loc b) := fun c b => B1 m ρ c b
theorem hF0 (c : Dev nD) (w : Fin cfg0.W) : (dat0 (E0 m ρ) c).arrAt w cfg0.N = E1 m ρ c (Pipeline.arrRef spec0 w) :=
  (B1_arr m ρ c w).symm
theorem hrest0 (c : Dev nD) : ∀ b, b ∉ Finset.univ.image (Pipeline.arrRef spec0) → E1 m ρ c b = E0 m ρ c b :=
  fun b hb => B1_of_ne m ρ c b fun w e => hb (Finset.mem_image.mpr ⟨w, Finset.mem_univ _, e⟩)

/-- After the read region. -/
def B2 (c : Dev nD) : Valuation τ sig (Elt F) :=
  Pipeline.withArrays spec1 c (B1 m ρ c) fun w => (dat1 (E1 m ρ) c).arrAt w cfg1.N
theorem B2_arr (c : Dev nD) (w : Fin cfg1.W) :
    B2 m ρ c (Proc.devRef .tc (Pipeline.arrRef spec1 w)) = (dat1 (E1 m ρ) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m ρ c (Proc.devRef .tc b) = B1 m ρ c (Proc.devRef .tc b) := by
  unfold B2; exact Pipeline.withArrays_of_ne spec1 c _ _ b hb
abbrev E2 : (c : Dev nD) → (b : Ref sig .tc) → Buf (Elt F) ((c : Thread nD τ).loc b) := fun c b => B2 m ρ c b
theorem hF1 (c : Dev nD) (w : Fin cfg1.W) : (dat1 (E1 m ρ) c).arrAt w cfg1.N = E2 m ρ c (Pipeline.arrRef spec1 w) :=
  (B2_arr m ρ c w).symm
theorem hrest1 (c : Dev nD) : ∀ b, b ∉ Finset.univ.image (Pipeline.arrRef spec1) → E2 m ρ c b = E1 m ρ c b :=
  fun b hb => B2_of_ne m ρ c b fun w e => hb (Finset.mem_image.mpr ⟨w, Finset.mem_univ _, e⟩)

/-- After the host reshape. -/
abbrev B3 (c : Dev nD) : Valuation τ sig (Elt F) := StableHlo.after hostOps2 (B2 m ρ c)

/-! ## What the host reshape writes -/

theorem tail_fresh : (hostOps2 : List (HloOp τ sig (Elt F))).Forall fun op => op.fresh = ∅ := by
  simp only [List.Forall]; repeat' constructor
abbrev tail_W : List (Ref sig .tc) := [main_v2]
theorem tail_writes : (hostOps2 : List (HloOp τ sig (Elt F))).Forall fun op => op.writes ⊆ (tail_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem B3_of (c : Dev nD) (r : Ref sig .tc) (h : r ∉ tail_W) : B3 m ρ c r = B2 m ρ c r :=
  StableHlo.after_of_writes_sub hostOps2 _ tail_writes h

/-! ## No segment writes an argument array -/

theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of m ρ c main_arg0 (by decide)
    _ = B1 m ρ c (Proc.devRef .tc main_arg0) := B2_of_ne m ρ c main_arg0 (by decide)
    _ = B0 m ρ c (Proc.devRef .tc main_arg0) := (B1_arr m ρ c 2).trans (((dat0 (E0 m ρ) c).arrAt_in 2 rfl _).trans (A_eq0 (E0 m ρ) c 2))
    _ = m ((c : Thread nD τ).loc main_arg0) := rfl
theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := B3_of m ρ c main_arg1 (by decide)
    _ = B1 m ρ c (Proc.devRef .tc main_arg1) := B2_of_ne m ρ c main_arg1 (by decide)
    _ = B0 m ρ c (Proc.devRef .tc main_arg1) := (B1_arr m ρ c 1).trans (((dat0 (E0 m ρ) c).arrAt_in 1 rfl _).trans (A_eq0 (E0 m ρ) c 1))
    _ = m ((c : Thread nD τ).loc main_arg1) := rfl
theorem B3_main_arg2 (c : Dev nD) : B3 m ρ c (Proc.devRef .tc main_arg2) = m ((c : Thread nD τ).loc main_arg2) :=
  calc B3 m ρ c (Proc.devRef .tc main_arg2)
    _ = B2 m ρ c (Proc.devRef .tc main_arg2) := B3_of m ρ c main_arg2 (by decide)
    _ = B1 m ρ c (Proc.devRef .tc main_arg2) := B2_of_ne m ρ c main_arg2 (by decide)
    _ = B0 m ρ c (Proc.devRef .tc main_arg2) := (B1_arr m ρ c 0).trans (((dat0 (E0 m ρ) c).arrAt_in 0 rfl _).trans (A_eq0 (E0 m ρ) c 0))
    _ = m ((c : Thread nD τ).loc main_arg2) := rfl
theorem B3_main_arg3 (c : Dev nD) : B3 m ρ c (Proc.devRef .tc main_arg3) = m ((c : Thread nD τ).loc main_arg3) :=
  calc B3 m ρ c (Proc.devRef .tc main_arg3)
    _ = B2 m ρ c (Proc.devRef .tc main_arg3) := B3_of m ρ c main_arg3 (by decide)
    _ = B1 m ρ c (Proc.devRef .tc main_arg3) := (B2_arr m ρ c 0).trans (((dat1 (E1 m ρ) c).arrAt_in 0 rfl _).trans (A_eq1 (E1 m ρ) c 0))
    _ = B0 m ρ c (Proc.devRef .tc main_arg3) := B1_of_ne m ρ c main_arg3 (by decide)
    _ = m ((c : Thread nD τ).loc main_arg3) := rfl

/-! ## The results' buffers at the end -/

/-- The write region's output array, read by the read region and never written again. -/
theorem B3_main_v0 (c : Dev nD) : B3 m ρ c (Proc.devRef .tc main_v0) = (dat0 (E0 m ρ) c).arrAt 3 cfg0.N :=
  calc B3 m ρ c (Proc.devRef .tc main_v0)
    _ = B2 m ρ c (Proc.devRef .tc main_v0) := B3_of m ρ c main_v0 (by decide)
    _ = B1 m ρ c (Proc.devRef .tc main_v0) := (B2_arr m ρ c 1).trans (((dat1 (E1 m ρ) c).arrAt_in 1 rfl _).trans (A_eq1 (E1 m ρ) c 1))
    _ = (dat0 (E0 m ρ) c).arrAt 3 cfg0.N := B1_arr m ρ c 3
theorem B3_main_v1_0 (c : Dev nD) : B3 m ρ c (Proc.devRef .tc main_v1_0) = (dat1 (E1 m ρ) c).arrAt 2 cfg1.N :=
  (B3_of m ρ c main_v1_0 (by decide)).trans (B2_arr m ρ c 2)
theorem B2_main_v1_1 (c : Dev nD) : B2 m ρ c (Proc.devRef .tc main_v1_1) = (dat1 (E1 m ρ) c).arrAt 3 cfg1.N :=
  B2_arr m ρ c 3

/-! ## The proof data family and the thread state -/

abbrev admH : (p : Fin 2) → (pcfgs (F := F) p).Adm := fun p => (cfgs p).toPCfg_adm
def pdatsH : (p : Fin 2) → (c : Dev nD) → Dat τ (Elt F) Unit ℕ (Pipeline.UD sig nD τ) ℕ (Pipeline.pin (pcfgs (F := F)) admH p) c
  | ⟨0, _⟩ => fun c => dat0 (E0 m ρ) c
  | ⟨1, _⟩ => fun c => dat1 (E1 m ρ) c
abbrev 𝒱H : Variants := Variants.none
abbrev LH : GSem nD τ sig → Finset Unit := fun _ => ∅
abbrev lvH : GSem nD τ sig → Unit → ℕ := fun _ _ => 0
/-- What rides beside the buffers through every segment: the generator register at some state, nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (B3 m ρ c) ∗ ∃ r, prngReg c r)

/-! ## The regions as segments -/

set_option backward.isDefEq.respectTransparency.types false in
/-- The write region: entered from every unscoped buffer at `B0`, left at `B1`. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ LH lvH 0 fun _ _ => rfl
  pre c := iprop(StableHlo.held (c : Thread nD τ) (Pipeline.ucRefs τ sig) (B0 m ρ c) ∗ RH c)
  post c := iprop(StableHlo.held (c : Thread nD τ) (Pipeline.ucRefs τ sig) (B1 m ρ c) ∗ RH c)
  X c := iprop(∃ r, prngReg c r)
  Y c := iprop(∃ r, prngReg c r)
  Z c := Pipeline.unscopedRest (Ix := Unit) (Name := ℕ) (U := Pipeline.UD sig nD τ) (Lvl := ℕ) spec0 c (E0 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := Pipeline.UD sig nD τ) (Lvl := ℕ)
      launch0.win launch0.arr_whole c (pdatsH m ρ) ((pdatsH m ρ 0 c).share_full fun _ => rfl)
      (E0 m ρ c) (E1 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The read region: entered from every unscoped buffer at `B1`, left at `B2`; its invariant takes the generator
    register and the scoped rest in (`hin1`) and gives them back (`hout1`). -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ LH lvH 1 fun _ _ => rfl
  pre c := iprop(StableHlo.held (c : Thread nD τ) (Pipeline.ucRefs τ sig) (B1 m ρ c) ∗ RH c)
  post c := iprop(StableHlo.held (c : Thread nD τ) (Pipeline.ucRefs τ sig) (B2 m ρ c) ∗ RH c)
  X c := iprop(∃ r, prngReg c r)
  Y c := iprop(∃ r, prngReg c r)
  Z c := Pipeline.unscopedRest (Ix := Unit) (Name := ℕ) (U := Pipeline.UD sig nD τ) (Lvl := ℕ) spec1 c (E1 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = (dat1 (E1 m ρ) c).Φ 0 from rfl]
    iintro ⟨Hp, -, Hr⟩
    iapply (hin1 (E1 m ρ) c)
    isplitl [Hp]; · iexact Hp
    iexact Hr
  hout c := by
    rw [Pipeline.ownSems0_none, show (pdatsH m ρ 1 c).Φ (Fin.last _) = (dat1 (E1 m ρ) c).Φ (Fin.last cfg1.N) from rfl]
    refine (hout1 (E1 m ρ) c).trans ?_
    iintro ⟨Hp, Hr⟩
    isplitl [Hp]; · iexact Hp
    isplitr; · iempintro
    iexact Hr
  hexit c := by
    have hjoin := Pipeline.unscopedBufs_of_arrays (p := 1) (pcfgs (F := F)) admH (Ix := Unit) (Name := ℕ) (U := Pipeline.UD sig nD τ) (Lvl := ℕ)
      launch1.win launch1.arr_whole c (pdatsH m ρ) ((pdatsH m ρ 1 c).share_full fun _ => rfl)
      (E1 m ρ c) (E2 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m ρ) () defs₀ 𝒱H LH lvH) :=
  [ .region (reg0 m ρ),
    .region (reg1 m ρ),
    .host (hsegH hostOps2 hostOps2_sub tail_fresh (B2 m ρ)) ]
theorem main_runH (c : Dev nD) : main (F := F) c = Pipeline.Seg.run (segsH m ρ) := (main_chain c).trans (by chain_rfl)

set_option backward.isDefEq.respectTransparency.types false in
/-- THE RUN: every weakly fair execution of @main from memory `m` with zero counters terminates, nothing faulting,
    with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) admH (pdatsH m ρ) () cellOf_inj embL defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ RH c)) (Tₙ := TnH m ρ)
    (hch := ⟨fun _ => .rfl, fun _ => .rfl, fun _ => .rfl, fun c => by
      show (iprop(StableHlo.held (c : Thread nD τ) (Pipeline.ucRefs τ sig) (B3 m ρ c) ∗ RH c) : sProp 𝕄)
        ⊢ iprop(TnH m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c => h c)

/-- The frame: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_ucH main_arg0 (by decide))).trans (B3_main_arg0 m ρ c),
     (h c _ (mem_ucH main_arg1 (by decide))).trans (B3_main_arg1 m ρ c),
     (h c _ (mem_ucH main_arg2 (by decide))).trans (B3_main_arg2 m ρ c),
     (h c _ (mem_ucH main_arg3 (by decide))).trans (B3_main_arg3 m ρ c)⟩) (run_all m ρ)

end Cert.KernelIdeal.Hand

end
-- ==== Proof.RefSide.lean ====
/-
  The reference's frame: its run, read back operation by operation, ends with every argument array as launched.
-/
import proofs.«155079_g79826262164167_feedfinal_366_31_alg».proof.Defs
import proofs.«155079_g79826262164167_feedfinal_366_31_alg».proof.Proof.Gen.ReferenceIdeal
import proofs.«155079_g79826262164167_feedfinal_366_31_alg».proof.Proof.Gen.Pre_finite_inputs
import proofs.«155079_g79826262164167_feedfinal_366_31_alg».proof.Proof.Gen.ReferenceIdeal.Run
import proofs.«155079_g79826262164167_feedfinal_366_31_alg».proof.Proof.Gen.ReferenceIdeal.Read

noncomputable section

open Idealize.ShloMosaic Idealize.ShloMosaic.TcCoe Idealize.SL.Sem

namespace Cert.Proof.RefSide

attribute [local instance] Cert.ReferenceIdeal.Gen.facts Cert.Pre_finite_inputs.Gen.facts

/-- Every weakly fair execution of the reference ends, and its argument arrays end as launched. -/
theorem frame_ri : Cert.frame_ReferenceIdeal := fun m ρ _ =>
  (θ_run Cert.ReferenceIdeal.defs _ _).mono (fun _ h c => (h c).2.2.2) (Cert.ReferenceIdeal.Value.run (F := Ideal) m ρ)

end Cert.Proof.RefSide

end
-- ==== Proof.LibOnlineSoftmax.lean ====
/-
  Online softmax over the reals, as finite sums.

  For scores `s : ι → ℝ` and values `v : ι → ℝ` the softmax-weighted sum over a finite set of columns is
  `(∑ j, exp (s j - M) * v j) / (∑ j, exp (s j - M))` for ANY reference point `M`: the quotient does not depend on it.
  A streaming evaluation keeps, for the columns seen so far, the pair
  `mass s S M = ∑ j ∈ S, exp (s j - M)` and `wsum s v S M = ∑ j ∈ S, exp (s j - M) * v j` relative to a running
  reference point, and merges a new group of columns by rescaling both sides to a common point:
  multiplying by `exp (M - M')` moves the reference point from `M` to `M'` (`mass_rescale`, `wsum_rescale`),
  and sums over disjoint sets add (`mass_union`, `mass_biUnion`). The merge of a running pair with a family of
  chunks, each summarised at its own reference point, is `mass_merge` / `wsum_merge`.
  At the end: the weighted sum of the normalised weights is the quotient (`sum_softmax_mul`), and when the
  reference point is the greatest score the greatest normalised weight is `1 / mass` (`softmax_le`,
  `softmax_at_max`), the mass being at least one (`one_le_mass`).
-/
import Mathlib.Analysis.SpecialFunctions.Exp
import Mathlib.Algebra.BigOperators.Group.Finset.Basic
import Mathlib.Algebra.Order.BigOperators.Group.Finset

namespace LibOnlineSoftmax

open Finset

variable {ι : Type*}

/-- The sum of the weights `exp (s j - M)` over the columns in `S`. -/
noncomputable def mass (s : ι → ℝ) (S : Finset ι) (M : ℝ) : ℝ := ∑ j ∈ S, Real.exp (s j - M)

/-- The sum of the values weighted by `exp (s j - M)` over the columns in `S`. -/
noncomputable def wsum (s v : ι → ℝ) (S : Finset ι) (M : ℝ) : ℝ := ∑ j ∈ S, Real.exp (s j - M) * v j

theorem mass_empty (s : ι → ℝ) (M : ℝ) : mass s ∅ M = 0 := Finset.sum_empty
theorem wsum_empty (s v : ι → ℝ) (M : ℝ) : wsum s v ∅ M = 0 := Finset.sum_empty

/-- Moving the reference point from `M` to `M'` multiplies every weight by `exp (M - M')`. -/
theorem mass_rescale (s : ι → ℝ) (S : Finset ι) (M M' : ℝ) :
    mass s S M * Real.exp (M - M') = mass s S M' := by
  unfold mass
  rw [Finset.sum_mul]
  refine Finset.sum_congr rfl fun j _ => ?_
  rw [← Real.exp_add]
  congr 1; ring

theorem wsum_rescale (s v : ι → ℝ) (S : Finset ι) (M M' : ℝ) :
    wsum s v S M * Real.exp (M - M') = wsum s v S M' := by
  unfold wsum
  rw [Finset.sum_mul]
  refine Finset.sum_congr rfl fun j _ => ?_
  rw [mul_right_comm, ← Real.exp_add]
  congr 2; ring

theorem mass_union [DecidableEq ι] (s : ι → ℝ) {S T : Finset ι} (h : Disjoint S T) (M : ℝ) :
    mass s (S ∪ T) M = mass s S M + mass s T M := Finset.sum_union h

theorem wsum_union [DecidableEq ι] (s v : ι → ℝ) {S T : Finset ι} (h : Disjoint S T) (M : ℝ) :
    wsum s v (S ∪ T) M = wsum s v S M + wsum s v T M := Finset.sum_union h

theorem mass_biUnion [DecidableEq ι] {κ : Type*} (s : ι → ℝ) (K : Finset κ) (C : κ → Finset ι)
    (h : (K : Set κ).PairwiseDisjoint C) (M : ℝ) :
    mass s (K.biUnion C) M = ∑ c ∈ K, mass s (C c) M := Finset.sum_biUnion h

theorem wsum_biUnion [DecidableEq ι] {κ : Type*} (s v : ι → ℝ) (K : Finset κ) (C : κ → Finset ι)
    (h : (K : Set κ).PairwiseDisjoint C) (M : ℝ) :
    wsum s v (K.biUnion C) M = ∑ c ∈ K, wsum s v (C c) M := Finset.sum_biUnion h

/-- One streaming step: the pair kept for `S` at reference point `M`, rescaled to `M'`, plus the chunks' pairs,
    each kept at its own reference point `mc c` and rescaled to `M'`, is the pair of the union at `M'`. -/
theorem mass_merge [DecidableEq ι] {κ : Type*} (s : ι → ℝ) (S : Finset ι) (K : Finset κ) (C : κ → Finset ι)
    (hC : (K : Set κ).PairwiseDisjoint C) (hS : Disjoint S (K.biUnion C)) (M M' : ℝ) (mc : κ → ℝ) :
    mass s S M * Real.exp (M - M') + ∑ c ∈ K, mass s (C c) (mc c) * Real.exp (mc c - M')
      = mass s (S ∪ K.biUnion C) M' := by
  rw [mass_union s hS, mass_biUnion s K C hC, mass_rescale]
  congr 1
  exact Finset.sum_congr rfl fun c _ => mass_rescale s (C c) (mc c) M'

theorem wsum_merge [DecidableEq ι] {κ : Type*} (s v : ι → ℝ) (S : Finset ι) (K : Finset κ) (C : κ → Finset ι)
    (hC : (K : Set κ).PairwiseDisjoint C) (hS : Disjoint S (K.biUnion C)) (M M' : ℝ) (mc : κ → ℝ) :
    wsum s v S M * Real.exp (M - M') + ∑ c ∈ K, wsum s v (C c) (mc c) * Real.exp (mc c - M')
      = wsum s v (S ∪ K.biUnion C) M' := by
  rw [wsum_union s v hS, wsum_biUnion s v K C hC, wsum_rescale]
  congr 1
  exact Finset.sum_congr rfl fun c _ => wsum_rescale s v (C c) (mc c) M'

/-- The first step, from nothing: the chunks' pairs rescaled to `M'` are the pair of their union. -/
theorem mass_first [DecidableEq ι] {κ : Type*} (s : ι → ℝ) (K : Finset κ) (C : κ → Finset ι)
    (hC : (K : Set κ).PairwiseDisjoint C) (M' : ℝ) (mc : κ → ℝ) :
    ∑ c ∈ K, mass s (C c) (mc c) * Real.exp (mc c - M') = mass s (K.biUnion C) M' := by
  rw [mass_biUnion s K C hC]
  exact Finset.sum_congr rfl fun c _ => mass_rescale s (C c) (mc c) M'

theorem wsum_first [DecidableEq ι] {κ : Type*} (s v : ι → ℝ) (K : Finset κ) (C : κ → Finset ι)
    (hC : (K : Set κ).PairwiseDisjoint C) (M' : ℝ) (mc : κ → ℝ) :
    ∑ c ∈ K, wsum s v (C c) (mc c) * Real.exp (mc c - M') = wsum s v (K.biUnion C) M' := by
  rw [wsum_biUnion s v K C hC]
  exact Finset.sum_congr rfl fun c _ => wsum_rescale s v (C c) (mc c) M'

theorem mass_pos (s : ι → ℝ) {S : Finset ι} (hS : S.Nonempty) (M : ℝ) : 0 < mass s S M :=
  Finset.sum_pos (fun _ _ => Real.exp_pos _) hS

/-- With the reference point among the scores of `S`, the mass is at least one. -/
theorem one_le_mass (s : ι → ℝ) {S : Finset ι} {j₀ : ι} (hj : j₀ ∈ S) :
    1 ≤ mass s S (s j₀) := by
  unfold mass
  calc (1 : ℝ) = Real.exp (s j₀ - s j₀) := by rw [sub_self, Real.exp_zero]
    _ ≤ ∑ j ∈ S, Real.exp (s j - s j₀) :=
        Finset.single_le_sum (f := fun j => Real.exp (s j - s j₀)) (fun _ _ => (Real.exp_pos _).le) hj

/-- The values weighted by the normalised weights sum to the quotient of the two running sums. -/
theorem sum_softmax_mul (s v : ι → ℝ) (S : Finset ι) (M : ℝ) :
    ∑ j ∈ S, Real.exp (s j - M) / mass s S M * v j = wsum s v S M * (1 / mass s S M) := by
  unfold wsum
  rw [Finset.sum_mul]
  refine Finset.sum_congr rfl fun j _ => ?_
  ring

/-- Below the greatest score every normalised weight is at most `1 / mass`. -/
theorem softmax_le (s : ι → ℝ) {S : Finset ι} (hS : S.Nonempty) {M : ℝ} {j : ι} (hj : s j ≤ M) :
    Real.exp (s j - M) / mass s S M ≤ 1 / mass s S M := by
  refine div_le_div_of_nonneg_right ?_ (mass_pos s hS M).le
  rw [← Real.exp_zero]
  exact Real.exp_le_exp.mpr (sub_nonpos.mpr hj)

/-- At the greatest score the normalised weight is `1 / mass`. -/
theorem softmax_at_max (s : ι → ℝ) (S : Finset ι) (j₀ : ι) :
    Real.exp (s j₀ - s j₀) / mass s S (s j₀) = 1 / mass s S (s j₀) := by
  rw [sub_self, Real.exp_zero]

end LibOnlineSoftmax
-- ==== Proof.Spec.lean ====
/-
  The three results as real-valued functions of real-valued arguments.

  `memNew w x mem`: slot `m`, feature `f` of the memory after the write: `mem m f + ∑ b, w b m * (x b f / ∑ k, w b k)`
  (each row of weights normalised by its row sum).
  `score q M b m = ∑ f, q b f * M m f`; `smax` its greatest value over the slots; with the weights
  `exp (score - smax)` summed to `mass` and weighted to `wsum` (LibOnlineSoftmax),
  `ret q M b f = wsum * (1 / mass)` is the attention read and `conf q M b = 1 / mass` its greatest weight.
  Plus the small facts that carry real arithmetic into the extended reals (`coe_sum`).
-/
import Mathlib.Data.EReal.Basic
import proofs.«155079_g79826262164167_feedfinal_366_31_alg».proof.Proof.LibOnlineSoftmax

noncomputable section

namespace Cert.Spec

open LibOnlineSoftmax

def memNew (w : Fin 4096 → Fin 32768 → ℝ) (x : Fin 4096 → Fin 128 → ℝ) (mem : Fin 32768 → Fin 128 → ℝ)
    (m : Fin 32768) (f : Fin 128) : ℝ :=
  mem m f + ∑ b : Fin 4096, w b m * (x b f / ∑ k : Fin 32768, w b k)

def score (q : Fin 4096 → Fin 128 → ℝ) (M : Fin 32768 → Fin 128 → ℝ) (b : Fin 4096) (m : Fin 32768) : ℝ :=
  ∑ f : Fin 128, q b f * M m f

def smax (q : Fin 4096 → Fin 128 → ℝ) (M : Fin 32768 → Fin 128 → ℝ) (b : Fin 4096) : ℝ :=
  Finset.univ.sup' ⟨(0 : Fin 32768), Finset.mem_univ _⟩ (score q M b)

def ret (q : Fin 4096 → Fin 128 → ℝ) (M : Fin 32768 → Fin 128 → ℝ) (b : Fin 4096) (f : Fin 128) : ℝ :=
  wsum (score q M b) (fun m => M m f) Finset.univ (smax q M b) * (1 / mass (score q M b) Finset.univ (smax q M b))

def conf (q : Fin 4096 → Fin 128 → ℝ) (M : Fin 32768 → Fin 128 → ℝ) (b : Fin 4096) : ℝ :=
  1 / mass (score q M b) Finset.univ (smax q M b)

/-- The coercion of the reals into the extended reals goes through finite sums. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem score_le_smax (q : Fin 4096 → Fin 128 → ℝ) (M : Fin 32768 → Fin 128 → ℝ) (b : Fin 4096) (m : Fin 32768) :
    score q M b m ≤ smax q M b := Finset.le_sup' (score q M b) (Finset.mem_univ m)

theorem exists_score_eq_smax (q : Fin 4096 → Fin 128 → ℝ) (M : Fin 32768 → Fin 128 → ℝ) (b : Fin 4096) :
    ∃ m : Fin 32768, score q M b m = smax q M b := by
  obtain ⟨m, -, hm⟩ := Finset.exists_mem_eq_sup' ⟨(0 : Fin 32768), Finset.mem_univ _⟩ (score q M b)
  exact ⟨m, hm.symm⟩

theorem mass_pos (q : Fin 4096 → Fin 128 → ℝ) (M : Fin 32768 → Fin 128 → ℝ) (b : Fin 4096) :
    0 < mass (score q M b) Finset.univ (smax q M b) :=
  LibOnlineSoftmax.mass_pos _ ⟨(0 : Fin 32768), Finset.mem_univ _⟩ _

end Cert.Spec

end
-- ==== Proof.LibDivSwap.lean ====
/-
  A quotient by a nonzero real moved from one factor of a product to the other, over the extended reals.

  For reals `w`, `x` and a real `s ≠ 0`: `(w / s) * x = w * (x / s)` with the extended reals' division
  (`div_mul_eq_mul_div`). At `s = 0` the two sides differ: there `0 / 0` reads as `⊥` and `1 / 0` as `⊤`, so
  `(0 / 0) * 1 = ⊥` while `0 * (1 / 0) = 0` (`div_zero_sides_differ`) — a row of weights that sums to zero
  separates "normalise the weights, then weigh the values" from "weigh the values divided by the row sum".
-/
import Idealize.ShloMosaic.PureOps.Ideal

namespace LibDivSwap

open Idealize.ShloMosaic

theorem div_mul_eq_mul_div (w x s : ℝ) (hs : s ≠ 0) :
    Ideal.div (w : EReal) (s : EReal) * (x : EReal) = (w : EReal) * Ideal.div (x : EReal) (s : EReal) := by
  rw [Ideal.div_coe hs, Ideal.div_coe hs, ← EReal.coe_mul, ← EReal.coe_mul, ← EReal.coe_mul, ← EReal.coe_mul]
  congr 1; ring

theorem div_zero_sides_differ :
    Ideal.div (0 : EReal) 0 * (1 : EReal) ≠ (0 : EReal) * Ideal.div (1 : EReal) 0 := by
  simp [Ideal.div]

end LibDivSwap
-- ==== Proof.KI.Val0Pay.lean ====
/-
  Region 0 (the memory update), element by element: the windows' blocks as rows of their arrays, the body's three
  payloads at an index over the extended reals, one grid point on the resident buffer at an index (inside the
  point's slab of 1024 rows and outside it), and the running sums over the reals that the induction over the points
  follows.
-/
import proofs.«155079_g79826262164167_feedfinal_366_31_alg».proof.Proof.KI.Region0
import proofs.«155079_g79826262164167_feedfinal_366_31_alg».proof.Proof.Spec
import proofs.«155079_g79826262164167_feedfinal_366_31_alg».proof.Proof.LibDivSwap
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic.ValueIdx
open Idealize.ShloMosaic Idealize.ShloMosaic.TcCoe Idealize.SL.Sem
open Idealize.ShloMosaic.Pipeline (Dat)

variable {F : FTy → Type} [FloatOps F]

/-! ## The grid and the windows' index maps, in closed form -/

theorem N0_32 : cfg0.N = 32 := N_0

theorem coords0 : ∀ t : Fin cfg0.N, ((grid0.coords t) 0).val = t.val :=
  (by decide +kernel : ∀ t : Fin grid0.N, ((grid0.coords t) 0).val = t.val)

theorem index0_0 : ∀ t : Fin cfg0.N, win0_0.index t 0 = t.val ∧ win0_0.index t 1 = 0 :=
  (by decide +kernel : ∀ t : Fin grid0.N, win0_0.index t 0 = t.val ∧ win0_0.index t 1 = 0)
theorem index0_1 : ∀ t : Fin cfg0.N, win0_1.index t 0 = t.val ∧ win0_1.index t 1 = 0 :=
  (by decide +kernel : ∀ t : Fin grid0.N, win0_1.index t 0 = t.val ∧ win0_1.index t 1 = 0)
theorem index0_2 : ∀ t : Fin cfg0.N, win0_2.index t 0 = t.val ∧ win0_2.index t 1 = 0 :=
  (by decide +kernel : ∀ t : Fin grid0.N, win0_2.index t 0 = t.val ∧ win0_2.index t 1 = 0)

/-- Row `r` of the block of 128 rows at point `t`, as a row of the array. -/
def row128 (t : Fin cfg0.N) (r : Fin 128) : Fin 4096 :=
  ⟨128 * t.val + r.val, by have := lt_of_lt_of_eq t.isLt N0_32; have := r.isLt; omega⟩

/-- Row `r` of the slab of 1024 rows at point `t`, as a row of the array. -/
def row1024 (t : Fin cfg0.N) (r : Fin 1024) : Fin 32768 :=
  ⟨1024 * t.val + r.val, by have := lt_of_lt_of_eq t.isLt N0_32; have := r.isLt; omega⟩

/-! ## The windows' blocks at an index -/

section Blocks

variable (V : (c : Dev nD) → (b : Ref sig .tc) → Buf (Elt F) ((c : Thread nD τ).loc b)) (c : Dev nD)

theorem iblk0_0_apply (t : Fin cfg0.N) (r : Fin 128) (k : Fin 32768) :
    (iblk0 V c 0 t : Vec F S128x32768 .f32) (ix2 r k) = (V c main_arg2 : Vec F S4096x32768 .f32) (ix2 (row128 t r) k) := by
  unfold iblk0
  rw [View.read_apply]
  show V c main_arg2 _ = V c main_arg2 _
  congr 1
  funext a
  apply Fin.ext
  match a with
  | ⟨0, _⟩ => show win0_0.index t 0 * 128 + 1 * r.val = 128 * t.val + r.val; rw [(index0_0 t).1]; omega
  | ⟨1, _⟩ => show win0_0.index t 1 * 32768 + 1 * k.val = k.val; rw [(index0_0 t).2]; omega

theorem iblk0_1_apply (t : Fin cfg0.N) (r : Fin 128) (f : Fin 128) :
    (iblk0 V c 1 t : Vec F S128x128 .f32) (ix2 r f) = (V c main_arg1 : Vec F S4096x128 .f32) (ix2 (row128 t r) f) := by
  unfold iblk0
  rw [View.read_apply]
  show V c main_arg1 _ = V c main_arg1 _
  congr 1
  funext a
  apply Fin.ext
  match a with
  | ⟨0, _⟩ => show win0_1.index t 0 * 128 + 1 * r.val = 128 * t.val + r.val; rw [(index0_1 t).1]; omega
  | ⟨1, _⟩ => show win0_1.index t 1 * 128 + 1 * f.val = f.val; rw [(index0_1 t).2]; omega

theorem iblk0_2_apply (t : Fin cfg0.N) (r : Fin 1024) (f : Fin 128) :
    (iblk0 V c 2 t : Vec F S1024x128 .f32) (ix2 r f) = (V c main_arg0 : Vec F S32768x128 .f32) (ix2 (row1024 t r) f) := by
  unfold iblk0
  rw [View.read_apply]
  show V c main_arg0 _ = V c main_arg0 _
  congr 1
  funext a
  apply Fin.ext
  match a with
  | ⟨0, _⟩ => show win0_2.index t 0 * 1024 + 1 * r.val = 1024 * t.val + r.val; rw [(index0_2 t).1]; omega
  | ⟨1, _⟩ => show win0_2.index t 1 * 128 + 1 * f.val = f.val; rw [(index0_2 t).2]; omega

end Blocks

/-! ## The payloads at an index, over the extended reals -/

section Payloads

theorem lhs0_0 (i : S32768x128.Idx) (q : dot_S128x32768_S128x128_S32768x128_0_0_1_1_n_n.contr.Idx) : (dot_S128x32768_S128x128_S32768x128_0_0_1_1_n_n.lhsIdx i q 0).val = (q ⟨0, by decide⟩).val :=
  dot_S128x32768_S128x128_S32768x128_0_0_1_1_n_n.lhsIdx_val_of_single rfl i q
theorem lhs0_1 (i : S32768x128.Idx) (q : dot_S128x32768_S128x128_S32768x128_0_0_1_1_n_n.contr.Idx) : (dot_S128x32768_S128x128_S32768x128_0_0_1_1_n_n.lhsIdx i q 1).val = (i 0).val := by
  unfold DotDims.lhsIdx
  rw [dif_neg (show ¬(1 : Fin S128x32768.rank) ∈ dot_S128x32768_S128x128_S32768x128_0_0_1_1_n_n.lhsBatch by decide), dif_pos (show (1 : Fin S128x32768.rank) ∈ dot_S128x32768_S128x128_S32768x128_0_0_1_1_n_n.lhsNonContracting by decide)]
  rfl
theorem rhs0_0 (i : S32768x128.Idx) (q : dot_S128x32768_S128x128_S32768x128_0_0_1_1_n_n.contr.Idx) : (dot_S128x32768_S128x128_S32768x128_0_0_1_1_n_n.rhsIdx i q 0).val = (q ⟨0, by decide⟩).val :=
  dot_S128x32768_S128x128_S32768x128_0_0_1_1_n_n.rhsIdx_val_of_single rfl i q
theorem rhs0_1 (i : S32768x128.Idx) (q : dot_S128x32768_S128x128_S32768x128_0_0_1_1_n_n.contr.Idx) : (dot_S128x32768_S128x128_S32768x128_0_0_1_1_n_n.rhsIdx i q 1).val = (i 1).val := by
  unfold DotDims.rhsIdx
  rw [dif_neg (show ¬(1 : Fin S128x128.rank) ∈ dot_S128x32768_S128x128_S32768x128_0_0_1_1_n_n.rhsBatch by decide), dif_pos (show (1 : Fin S128x128.rank) ∈ dot_S128x32768_S128x128_S32768x128_0_0_1_1_n_n.rhsNonContracting by decide)]
  rfl

/-- Row `r` of a block of complete rows with lane `k` put back is `(r, k)`. -/
theorem lift_lane0 (h : S128x32768.Reduces [1] S128) (r : Fin 128) (k : Fin (S128x32768.size 1)) :
    h.lift (ix1 r) k = ix2 r (⟨k.val, k.isLt⟩ : Fin 32768) := by
  funext c; apply Fin.ext
  fin_cases c <;> rfl

/-- The lane sum of row `r` of a block. -/
theorem lanesum0 (x0 : Vec Ideal S128x32768 .f32) (r : Fin 128) :
    multiReduction (F := Ideal) .add [1] S128 x0 0x00000000#32 reduces_S128x32768_S128 (.inl rfl) rfl (ix1 r) = ∑ k : Fin 32768, x0 (ix2 r k) :=
  (Ideal.multiReduction_add_single x0 _ reduces_S128x32768_S128 _ _ (ix1 r)).trans
    (Finset.sum_congr rfl fun k _ => congrArg x0 (lift_lane0 _ r k))

/-- The zero block the first point starts from. -/
theorem pay1_apply (j : S32768x128.Idx) : k0_pay1 (F := Ideal) j = 0 := by
  unfold k0_pay1
  show Ideal.ofBits .f32 0x00000000#32 = 0
  exact Ideal.ofBits_zero_f32

/-- The whole-buffer update at `(m, f)`: what the buffer held there plus, over the block's 128 rows, the weight at
    slot `m` times the row's input at `f` divided by the row's lane sum. -/
theorem pay2_apply (x0 : Vec Ideal S128x32768 .f32) (x1 : Vec Ideal S128x128 .f32) (prev : Vec Ideal S32768x128 .f32)
    (m : Fin 32768) (f : Fin 128) :
    k0_pay2 x0 x1 prev x0 (ix2 m f)
      = prev (ix2 m f) + ∑ r : Fin 128, x0 (ix2 r m) * Ideal.div (x1 (ix2 r f)) (∑ k : Fin 32768, x0 (ix2 r k)) := by
  unfold k0_pay2
  dsimp only
  rw [addf_apply, shapeCast_self]
  simp only [matmul]
  rw [Ideal.matmul_constant_zero_apply, ← Equiv.sum_comp (contrEquiv1 dot_S128x32768_S128x128_S32768x128_0_0_1_1_n_n 128 rfl rfl).symm]
  refine congrArg (_ + ·) (Finset.sum_congr rfl fun r _ => ?_)
  have hk := contrEquiv1_symm_val dot_S128x32768_S128x128_S32768x128_0_0_1_1_n_n 128 rfl rfl r
  have el : dot_S128x32768_S128x128_S32768x128_0_0_1_1_n_n.lhsIdx (ix2 m f) ((contrEquiv1 dot_S128x32768_S128x128_S32768x128_0_0_1_1_n_n 128 rfl rfl).symm r) = ix2 r m := funext fun a => Fin.ext (by
    match a with
    | ⟨0, _⟩ => exact (lhs0_0 _ _).trans hk
    | ⟨1, _⟩ => exact lhs0_1 _ _)
  have er : dot_S128x32768_S128x128_S32768x128_0_0_1_1_n_n.rhsIdx (ix2 m f) ((contrEquiv1 dot_S128x32768_S128x128_S32768x128_0_0_1_1_n_n 128 rfl rfl).symm r) = ix2 r f := funext fun a => Fin.ext (by
    match a with
    | ⟨0, _⟩ => exact (rhs0_0 _ _).trans hk
    | ⟨1, _⟩ => exact rhs0_1 _ _)
  rw [el, er, divf_apply,
    broadcastTo_apply _ broadcasts_S128x1_S128x128 (ix2 r f) (ix2 r (⟨0, Nat.one_pos⟩ : Fin 1)) (fun a => match a with
      | ⟨0, _⟩ => by show r.val = if (128 : Nat) = 1 then 0 else r.val; rw [if_neg (by decide)]
      | ⟨1, _⟩ => by show 0 = if (1 : Nat) = 1 then 0 else f.val; rw [if_pos rfl]),
    shapeCast_apply _ shapeCasts_S128_S128x1 (ix2 r (⟨0, Nat.one_pos⟩ : Fin 1)) (ix1 r) (by
      rw [Shape.rowMajor_val_one, Shape.rowMajor_val_two]; show r.val = r.val * 1 + 0; omega)]
  exact congrArg (fun z => x0 (ix2 r m) * Ideal.div (x1 (ix2 r f)) z) (lanesum0 x0 r)

/-- The same over real witnesses: the block's weights `W`, its inputs `X`, every row's sum nonzero, the buffer at the
    real `p`. -/
theorem pay2_val (x0 : Vec Ideal S128x32768 .f32) (x1 : Vec Ideal S128x128 .f32) (prev : Vec Ideal S32768x128 .f32)
    (W : Fin 128 → Fin 32768 → ℝ) (X : Fin 128 → Fin 128 → ℝ) (p : ℝ) (m : Fin 32768) (f : Fin 128)
    (h0 : ∀ r k, x0 (ix2 r k) = ((W r k : ℝ) : EReal)) (h1 : ∀ r, x1 (ix2 r f) = ((X r f : ℝ) : EReal))
    (hσ : ∀ r, ∑ k : Fin 32768, W r k ≠ 0) (hp : prev (ix2 m f) = ((p : ℝ) : EReal)) :
    k0_pay2 x0 x1 prev x0 (ix2 m f) = ((p + ∑ r : Fin 128, W r m * (X r f / ∑ k : Fin 32768, W r k) : ℝ) : EReal) := by
  rw [pay2_apply, hp, EReal.coe_add, Cert.Spec.coe_sum]
  refine congrArg (_ + ·) (Finset.sum_congr rfl fun r _ => ?_)
  have hsum : ∑ k : Fin 32768, x0 (ix2 r k) = ((∑ k : Fin 32768, W r k : ℝ) : EReal) := by
    rw [Cert.Spec.coe_sum]
    exact Finset.sum_congr rfl fun k _ => h0 r k
  rw [hsum, h0, h1, Ideal.div_coe (hσ r), ← EReal.coe_mul, ← EReal.coe_mul, mul_one_div]

/-- The slab update at `(r, f)`: the sum. -/
theorem pay3_apply (u v : Vec Ideal S1024x128 .f32) (j : S1024x128.Idx) : k0_pay3 u v j = u j + v j := by
  unfold k0_pay3
  rw [addf_apply, shapeCast_self]

end Payloads

/-! ## One point at an index -/

section Step

variable (i : grid0.Coords) (x0 : Vec Ideal S128x32768 .f32) (x1 : Vec Ideal S128x128 .f32) (x2 : Vec Ideal S1024x128 .f32)
  (prev : Vec Ideal S32768x128 .f32) (m : Fin 32768) (f : Fin 128)

/-- The point's slab is rows `1024 i` to `1024 i + 1023`, every column. -/
theorem mem_rS0 : (ix2 m f : S32768x128.Idx) ∈ (rS0 i).set ↔ 1024 * (i 0).val ≤ m.val ∧ m.val < 1024 * (i 0).val + 1024 := by
  rw [Rect.mem_set_unit, k0_off1_eq]
  constructor
  · intro h; exact h 0
  · intro h a
    match a with
    | ⟨0, _⟩ => exact h
    | ⟨1, _⟩ => exact ⟨Nat.zero_le _, by show f.val < 0 + 128; omega⟩

/-- Inside the slab: the whole-buffer update there, plus the memory slab's element. -/
theorem step0_in (h : 1024 * (i 0).val ≤ m.val ∧ m.val < 1024 * (i 0).val + 1024) :
    step0 i x0 x1 x2 prev (ix2 m f)
      = k0_pay2 x0 x1 prev x0 (ix2 m f) + x2 (ix2 (⟨m.val - 1024 * (i 0).val, by omega⟩ : Fin 1024) f) := by
  unfold step0
  have hy : (rS0 i).emb (ix2 (⟨m.val - 1024 * (i 0).val, by omega⟩ : Fin 1024) f) = ix2 m f := funext fun a => Fin.ext (by
    match a with
    | ⟨0, _⟩ =>
      show k0_off1 i 0 + 1 * (m.val - 1024 * (i 0).val) = m.val
      rw [k0_off1_eq]; show 1024 * (i 0).val + 1 * (m.val - 1024 * (i 0).val) = m.val; omega
    | ⟨1, _⟩ =>
      show k0_off1 i 1 + 1 * f.val = f.val
      rw [k0_off1_eq]; show 0 + 1 * f.val = f.val; omega)
  rw [← hy, View.canon_cons_emb, pay3_apply]
  rfl

/-- Outside it: the whole-buffer update. -/
theorem step0_out (h : ¬(1024 * (i 0).val ≤ m.val ∧ m.val < 1024 * (i 0).val + 1024)) :
    step0 i x0 x1 x2 prev (ix2 m f) = k0_pay2 x0 x1 prev x0 (ix2 m f) := by
  unfold step0
  refine (View.canon_cons_of_not_mem _ _ ?_).trans ?_
  · exact fun hm => h ((mem_rS0 i m f).mp hm)
  · rw [View.canon_unit_zero (S := S32768x128) hz2]

end Step

/-! ## The running sums over the reals -/

section Reals

variable (w : Fin 4096 → Fin 32768 → ℝ) (x : Fin 4096 → Fin 128 → ℝ) (mem : Fin 32768 → Fin 128 → ℝ)

/-- Row `i`'s contribution to slot `m`, feature `f` (nothing past the last row). -/
def term0 (m : Fin 32768) (f : Fin 128) (i : ℕ) : ℝ :=
  if h : i < 4096 then w ⟨i, h⟩ m * (x ⟨i, h⟩ f / ∑ k : Fin 32768, w ⟨i, h⟩ k) else 0

/-- What slot `m`, feature `f` holds after `n` points: the first `128 n` rows' contributions, and the memory's element
    once the slot's slab has been met. -/
def acc0 (n : ℕ) (m : Fin 32768) (f : Fin 128) : ℝ :=
  (if m.val < 1024 * n then mem m f else 0) + ∑ i ∈ Finset.range (128 * n), term0 w x m f i

theorem acc0_zero (m : Fin 32768) (f : Fin 128) : acc0 w x mem 0 m f = 0 := by
  unfold acc0; simp

/-- One more point: its 128 rows' contributions, and the memory's element if the slot is in its slab. -/
theorem acc0_succ (n : ℕ) (m : Fin 32768) (f : Fin 128) :
    acc0 w x mem (n + 1) m f
      = acc0 w x mem n m f + ∑ r : Fin 128, term0 w x m f (128 * n + r.val)
        + (if 1024 * n ≤ m.val ∧ m.val < 1024 * n + 1024 then mem m f else 0) := by
  unfold acc0
  rw [show 128 * (n + 1) = 128 * n + 128 by ring, Finset.sum_range_add, Finset.sum_range (fun r => term0 w x m f (128 * n + r))]
  split_ifs <;> first | ring1 | (exfalso; omega)

/-- After all 32 points: the updated memory. -/
theorem acc0_last (m : Fin 32768) (f : Fin 128) : acc0 w x mem 32 m f = Cert.Spec.memNew w x mem m f := by
  unfold acc0 Cert.Spec.memNew
  rw [if_pos (by have := m.isLt; omega), show 128 * 32 = 4096 from rfl, Finset.sum_range]
  refine congrArg (_ + ·) (Finset.sum_congr rfl fun b _ => ?_)
  unfold term0
  rw [dif_pos b.isLt]

end Reals

end Cert.KernelIdeal.Hand

end
-- ==== Proof.KI.Val0.lean ====
/-
  Region 0 (the memory update) at the extended reals: what the resident output buffer holds after the last grid
  point, element by element, when the argument arrays hold coerced reals and every row of the write weights has a
  nonzero sum: the updated memory `Cert.Spec.memNew`.
-/
import proofs.«155079_g79826262164167_feedfinal_366_31_alg».proof.Proof.KI.Val0Pay
import proofs.«155079_g79826262164167_feedfinal_366_31_alg».proof.Proof.Spec
import proofs.«155079_g79826262164167_feedfinal_366_31_alg».proof.Proof.LibDivSwap
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic.ValueIdx
open Idealize.ShloMosaic Idealize.ShloMosaic.TcCoe Idealize.SL.Sem
open Idealize.ShloMosaic.Pipeline (Dat)

/-! ## The array after the region: what the last point left -/

section Final

variable {F : FTy → Type} [FloatOps F]
variable (V : (c : Dev nD) → (b : Ref sig .tc) → Buf (Elt F) ((c : Thread nD τ).loc b)) (c : Dev nD)

/-- The last point. -/
abbrev tLast0 : Fin cfg0.N := ⟨31, by rw [N0_32]; decide⟩

/-- The one write-back, at the last point, writes what that point left: the output's block is the whole array. -/
theorem flushed0_3 (t : Fin cfg0.N) (hf : (cfg0.win 3).flush t = true) :
    (dat0 V c).flushed 3 t = ((cfg0.win 3).blk t).view.read (Elt F) (outsAt0 V c tLast0) := by
  have h31 : t.val = 31 := by have := (flush0_3 t).mp hf; have := lt_of_lt_of_eq t.isLt N0_32; omega
  obtain rfl : t = tLast0 := Fin.ext h31
  show (cfg0.win 3).cut (grid0.coords tLast0) ((dat0 V c).after 3 tLast0) = _
  rw [after0_3]
  have hz' : (fun a => win0_3.index tLast0 a * main_v0.ty.shape.size a) = fun _ => 0 :=
    funext fun a => by fin_cases a <;> decide +kernel
  exact (Memref.read_access_unit_zero (Elt F) main_v0 hz' (fun a => by rw [congrFun hz' a]; simp) (outsAt0 V c tLast0)).symm

/-- So the array ends holding what the last point left. -/
theorem arrAt0_3 : (dat0 V c).arrAt 3 cfg0.N = outsAt0 V c tLast0 :=
  (dat0 V c).arrAt_eq_of_cover 3 (outsAt0 V c tLast0) (flushed0_3 V c) fun i =>
    ⟨tLast0, (flush0_3 tLast0).mpr rfl, by
      show i ∈ ((View.whole main_v0).slice (win0_3.rect tLast0)).set
      rw [View.set_slice_whole, Rect.mem_set_unit]
      intro a
      have h0 : (i 0 : Nat) < 32768 := (i 0).isLt
      have h1 : (i 1 : Nat) < 128 := (i 1).isLt
      match a with
      | ⟨0, _⟩ =>
        show win0_3.index tLast0 0 * win0_3.size 0 ≤ (i 0 : Nat) ∧ (i 0 : Nat) < win0_3.index tLast0 0 * win0_3.size 0 + win0_3.xsize (grid0.coords tLast0) 0
        rw [show win0_3.index tLast0 0 * win0_3.size 0 = 0 from by decide +kernel, show win0_3.xsize (grid0.coords tLast0) 0 = 32768 from by decide +kernel]; omega
      | ⟨1, _⟩ =>
        show win0_3.index tLast0 1 * win0_3.size 1 ≤ (i 1 : Nat) ∧ (i 1 : Nat) < win0_3.index tLast0 1 * win0_3.size 1 + win0_3.xsize (grid0.coords tLast0) 1
        rw [show win0_3.index tLast0 1 * win0_3.size 1 = 0 from by decide +kernel, show win0_3.xsize (grid0.coords tLast0) 1 = 128 from by decide +kernel]; omega⟩

end Final

/-! ## The buffer after each point, over the extended reals -/

section Induction

variable (V : (c : Dev nD) → (b : Ref sig .tc) → Buf (Elt Ideal) ((c : Thread nD τ).loc b)) (c : Dev nD)
  (w : Fin 4096 → Fin 32768 → ℝ) (x : Fin 4096 → Fin 128 → ℝ) (mem : Fin 32768 → Fin 128 → ℝ)

/-- A row of the block at point `t` is a row of the arrays. -/
theorem term0_row (t : Fin cfg0.N) (r : Fin 128) (m : Fin 32768) (f : Fin 128) :
    term0 w x m f (128 * t.val + r.val)
      = w (row128 t r) m * (x (row128 t r) f / ∑ k : Fin 32768, w (row128 t r) k) := by
  have h : 128 * t.val + r.val < 4096 := (row128 t r).isLt
  unfold term0
  rw [dif_pos h]
  rfl

variable (hw : ∀ b k, (V c main_arg2 : S4096x32768.Idx → EReal) (ix2 b k) = ((w b k : ℝ) : EReal))
  (hx : ∀ b f, (V c main_arg1 : S4096x128.Idx → EReal) (ix2 b f) = ((x b f : ℝ) : EReal))
  (hmem : ∀ m f, (V c main_arg0 : S32768x128.Idx → EReal) (ix2 m f) = ((mem m f : ℝ) : EReal))
  (hs : ∀ b, ∑ k : Fin 32768, w b k ≠ 0)

include hw hx hmem hs

/-- One point, at `(m, f)`, from a buffer holding the real `p` there: `p` plus the block's 128 rows' contributions
    (each row of the block is complete, so its lane sum is the row's sum, nonzero), plus the memory's element when
    the slot lies in the point's slab. -/
theorem step0_val (t : Fin cfg0.N) (prev : Vec Ideal S32768x128 .f32) (p : ℝ) (m : Fin 32768) (f : Fin 128)
    (hprev : prev (ix2 m f) = ((p : ℝ) : EReal)) :
    step0 (grid0.coords t) (iblk0 V c 0 t) (iblk0 V c 1 t) (iblk0 V c 2 t) prev (ix2 m f)
      = ((p + ∑ r : Fin 128, term0 w x m f (128 * t.val + r.val)
          + (if 1024 * t.val ≤ m.val ∧ m.val < 1024 * t.val + 1024 then mem m f else 0) : ℝ) : EReal) := by
  have hP : k0_pay2 (iblk0 V c 0 t) (iblk0 V c 1 t) prev (iblk0 V c 0 t) (ix2 m f)
      = ((p + ∑ r : Fin 128, term0 w x m f (128 * t.val + r.val) : ℝ) : EReal) := by
    rw [pay2_val (iblk0 V c 0 t) (iblk0 V c 1 t) prev (fun r k => w (row128 t r) k) (fun r f => x (row128 t r) f) p m f
      (fun r k => by rw [iblk0_0_apply, hw]) (fun r => by rw [iblk0_1_apply, hx]) (fun r => hs _) hprev]
    exact congrArg (fun z : ℝ => ((p + z : ℝ) : EReal)) (Finset.sum_congr rfl fun r _ => (term0_row w x t r m f).symm)
  by_cases h : 1024 * t.val ≤ m.val ∧ m.val < 1024 * t.val + 1024
  · have h' : 1024 * ((grid0.coords t) 0).val ≤ m.val ∧ m.val < 1024 * ((grid0.coords t) 0).val + 1024 := by
      rw [coords0 t]; exact h
    have hrow : row1024 t (⟨m.val - 1024 * ((grid0.coords t) 0).val, by omega⟩ : Fin 1024) = m := Fin.ext (by
      show 1024 * t.val + (m.val - 1024 * ((grid0.coords t) 0).val) = m.val
      rw [coords0 t]; omega)
    rw [if_pos h, step0_in _ _ _ _ _ _ _ h', hP, iblk0_2_apply, hrow, hmem, ← EReal.coe_add]
  · have h' : ¬(1024 * ((grid0.coords t) 0).val ≤ m.val ∧ m.val < 1024 * ((grid0.coords t) 0).val + 1024) := by
      rw [coords0 t]; exact h
    rw [if_neg h, step0_out _ _ _ _ _ _ _ h', hP, add_zero]

/-- After point `n` the buffer holds the running sum over `n + 1` points: by induction on the point. -/
theorem outsAtN0_val : ∀ (n : ℕ) (hn : n < cfg0.N) (m : Fin 32768) (f : Fin 128),
    outsAtN0 V c n hn (ix2 m f) = ((acc0 w x mem (n + 1) m f : ℝ) : EReal)
  | 0, hn, m, f => by
    show step0 (grid0.coords ⟨0, hn⟩) (iblk0 V c 0 ⟨0, hn⟩) (iblk0 V c 1 ⟨0, hn⟩) (iblk0 V c 2 ⟨0, hn⟩) (k0_pay1 (F := Ideal)) (ix2 m f) = _
    rw [step0_val V c w x mem hw hx hmem hs ⟨0, hn⟩ _ 0 m f (by rw [pay1_apply]; exact EReal.coe_zero.symm), acc0_succ, acc0_zero]
  | n + 1, hn, m, f => by
    show step0 (grid0.coords ⟨n + 1, hn⟩) (iblk0 V c 0 ⟨n + 1, hn⟩) (iblk0 V c 1 ⟨n + 1, hn⟩) (iblk0 V c 2 ⟨n + 1, hn⟩)
      (outsAtN0 V c n (Nat.lt_of_succ_lt hn)) (ix2 m f) = _
    rw [step0_val V c w x mem hw hx hmem hs ⟨n + 1, hn⟩ _ _ m f (outsAtN0_val n _ m f), acc0_succ w x mem (n + 1)]

end Induction

theorem final0 (V : (c : Dev nD) → (b : Ref sig .tc) → Buf (Elt Ideal) ((c : Thread nD τ).loc b)) (c : Dev nD)
    (w : Fin 4096 → Fin 32768 → ℝ) (x : Fin 4096 → Fin 128 → ℝ) (mem : Fin 32768 → Fin 128 → ℝ)
    (hw : ∀ b k, (V c main_arg2 : S4096x32768.Idx → EReal) (ix2 b k) = ((w b k : ℝ) : EReal))
    (hx : ∀ b f, (V c main_arg1 : S4096x128.Idx → EReal) (ix2 b f) = ((x b f : ℝ) : EReal))
    (hmem : ∀ m f, (V c main_arg0 : S32768x128.Idx → EReal) (ix2 m f) = ((mem m f : ℝ) : EReal))
    (hs : ∀ b, ∑ k : Fin 32768, w b k ≠ 0) (m : Fin 32768) (f : Fin 128) :
    ((dat0 (F := Ideal) V c).arrAt 3 cfg0.N : S32768x128.Idx → EReal) (ix2 m f)
      = ((Cert.Spec.memNew w x mem m f : ℝ) : EReal) := by
  rw [arrAt0_3 V c]
  exact (outsAtN0_val V c w x mem hw hx hmem hs 31 tLast0.isLt m f).trans (by rw [acc0_last])

end Cert.KernelIdeal.Hand

end
-- ==== Proof.KI.Val1Math.lean ====
/-
  The arithmetic of the attention read, apart from the program.

  The 32768 memory slots are cut into sixteen chunks of 2048 consecutive slots; key block `j` (of two) holds
  chunks `8 j` … `8 j + 7`. A row's scores `s` and one feature's values `v` over the slots give, per chunk, the
  greatest score, the mass and the weighted sum relative to it; one merge rescales the running pair and the
  eight chunk pairs to the new greatest score and adds them, left to right. Two merges, from nothing, give the
  pair over every slot relative to the greatest score of all.
  Then the extended-real side: greatest values, weights `exp (x - M)` with `x = ⊥` allowed, sums of nine terms.
-/
import Mathlib.Data.EReal.Basic
import Mathlib.Data.EReal.Operations
import proofs.«155079_g79826262164167_feedfinal_366_31_alg».proof.Proof.Spec
import Idealize.ShloMosaic.PureOps.Ideal

noncomputable section

namespace Cert.KernelIdeal.Hand

open LibOnlineSoftmax Finset Idealize.ShloMosaic

/-! ## Slots, chunks, key blocks -/

/-- Slot `2048 k + r`: row `r` of chunk `k`. -/
def colOf (k : Fin 16) (r : Fin 2048) : Fin 32768 := ⟨2048 * k.val + r.val, by omega⟩

theorem colOf_val (k : Fin 16) (r : Fin 2048) : (colOf k r).val = 2048 * k.val + r.val := rfl

theorem colOf_injective (k : Fin 16) : Function.Injective (colOf k) := by
  intro r r' h
  have h' := congrArg Fin.val h
  rw [colOf_val, colOf_val] at h'
  exact Fin.ext (by omega)

/-- The slots of chunk `k`. -/
def chunk (k : Fin 16) : Finset (Fin 32768) := univ.map ⟨colOf k, colOf_injective k⟩

theorem mem_chunk {k : Fin 16} {m : Fin 32768} : m ∈ chunk k ↔ m.val / 2048 = k.val := by
  unfold chunk
  rw [Finset.mem_map]
  constructor
  · rintro ⟨r, -, rfl⟩
    show (2048 * k.val + r.val) / 2048 = k.val
    omega
  · intro h
    refine ⟨⟨m.val % 2048, Nat.mod_lt _ (by norm_num)⟩, mem_univ _, Fin.ext ?_⟩
    show 2048 * k.val + m.val % 2048 = m.val
    omega

theorem sum_chunk (k : Fin 16) (g : Fin 32768 → ℝ) : ∑ m ∈ chunk k, g m = ∑ r : Fin 2048, g (colOf k r) := by
  unfold chunk
  rw [Finset.sum_map]
  rfl

/-- Chunk `c` of key block `j`. -/
def kk (j : Fin 2) (c : Fin 8) : Fin 16 := ⟨8 * j.val + c.val, by omega⟩

theorem kk_val (j : Fin 2) (c : Fin 8) : (kk j c).val = 8 * j.val + c.val := rfl

/-- The slots of key block `j`. -/
def blockCols (j : Fin 2) : Finset (Fin 32768) := (univ : Finset (Fin 8)).biUnion fun c => chunk (kk j c)

theorem mem_blockCols {j : Fin 2} {m : Fin 32768} : m ∈ blockCols j ↔ m.val / 16384 = j.val := by
  unfold blockCols
  rw [Finset.mem_biUnion]
  constructor
  · rintro ⟨c, -, hc⟩
    rw [mem_chunk, kk_val] at hc
    omega
  · intro h
    refine ⟨⟨m.val / 2048 % 8, Nat.mod_lt _ (by norm_num)⟩, mem_univ _, ?_⟩
    rw [mem_chunk, kk_val]
    show m.val / 2048 = 8 * j.val + m.val / 2048 % 8
    omega

theorem chunk_pairwise (j : Fin 2) :
    ((univ : Finset (Fin 8)) : Set (Fin 8)).PairwiseDisjoint (fun c => chunk (kk j c)) := by
  intro c _ c' _ hne
  show Disjoint (chunk (kk j c)) (chunk (kk j c'))
  refine Finset.disjoint_left.mpr fun m h h' => hne ?_
  rw [mem_chunk, kk_val] at h h'
  exact Fin.ext (by omega)

theorem blockCols_disjoint : Disjoint (blockCols 0) (blockCols 1) := by
  refine Finset.disjoint_left.mpr fun m h h' => ?_
  rw [mem_blockCols] at h h'
  have h0 : ((0 : Fin 2) : ℕ) = 0 := rfl
  have h1 : ((1 : Fin 2) : ℕ) = 1 := rfl
  omega

theorem blockCols_union : blockCols 0 ∪ blockCols 1 = univ := by
  ext m
  simp only [Finset.mem_union, mem_blockCols, mem_univ, iff_true]
  have h0 : ((0 : Fin 2) : ℕ) = 0 := rfl
  have h1 : ((1 : Fin 2) : ℕ) = 1 := rfl
  have := m.isLt
  omega

/-! ## The greatest of nine, of eight -/

/-- The greatest of eight reals, taken left to right. -/
def max7R (m : Fin 8 → ℝ) : ℝ :=
  max (max (max (max (max (max (max (m 0) (m 1)) (m 2)) (m 3)) (m 4)) (m 5)) (m 6)) (m 7)

/-- The greatest of a real and eight more, taken left to right. -/
def max8R (a : ℝ) (m : Fin 8 → ℝ) : ℝ :=
  max (max (max (max (max (max (max (max a (m 0)) (m 1)) (m 2)) (m 3)) (m 4)) (m 5)) (m 6)) (m 7)

theorem le_max7R (m : Fin 8 → ℝ) (c : Fin 8) : m c ≤ max7R m := by
  unfold max7R
  fin_cases c <;> simp [le_max_iff]

theorem max7R_le (m : Fin 8 → ℝ) (B : ℝ) (h : ∀ c, m c ≤ B) : max7R m ≤ B := by
  unfold max7R
  simp only [max_le_iff]
  exact ⟨⟨⟨⟨⟨⟨⟨h 0, h 1⟩, h 2⟩, h 3⟩, h 4⟩, h 5⟩, h 6⟩, h 7⟩

theorem le_max8R (a : ℝ) (m : Fin 8 → ℝ) (c : Fin 8) : m c ≤ max8R a m := by
  unfold max8R
  fin_cases c <;> simp [le_max_iff]

theorem left_le_max8R (a : ℝ) (m : Fin 8 → ℝ) : a ≤ max8R a m := by
  unfold max8R
  simp [le_max_iff]

theorem max8R_le (a : ℝ) (m : Fin 8 → ℝ) (B : ℝ) (ha : a ≤ B) (h : ∀ c, m c ≤ B) : max8R a m ≤ B := by
  unfold max8R
  simp only [max_le_iff]
  exact ⟨⟨⟨⟨⟨⟨⟨⟨ha, h 0⟩, h 1⟩, h 2⟩, h 3⟩, h 4⟩, h 5⟩, h 6⟩, h 7⟩

/-! ## Two merges over a row of scores -/

section Row
variable (s v : Fin 32768 → ℝ)

/-- The greatest score of chunk `k`. -/
def cmaxR (k : Fin 16) : ℝ := univ.sup' ⟨(0 : Fin 2048), mem_univ _⟩ fun r => s (colOf k r)

/-- The running greatest score after key block 0, and after both. -/
def M1 : ℝ := max7R fun c => cmaxR s (kk 0 c)
def M2 : ℝ := max8R (M1 s) fun c => cmaxR s (kk 1 c)

theorem cmaxR_le_sup (k : Fin 16) : cmaxR s k ≤ univ.sup' ⟨(0 : Fin 32768), mem_univ _⟩ s :=
  Finset.sup'_le _ _ fun r _ => Finset.le_sup' s (mem_univ (colOf k r))

theorem le_cmaxR (m : Fin 32768) (k : Fin 16) (h : m.val / 2048 = k.val) : s m ≤ cmaxR s k := by
  have hm : m = colOf k ⟨m.val % 2048, Nat.mod_lt _ (by norm_num)⟩ := Fin.ext (by
    show m.val = 2048 * k.val + m.val % 2048
    omega)
  rw [hm]
  exact Finset.le_sup' (fun r => s (colOf k r)) (mem_univ _)

theorem M2_eq_sup : M2 s = univ.sup' ⟨(0 : Fin 32768), mem_univ _⟩ s := by
  refine le_antisymm ?_ ?_
  · exact max8R_le _ _ _ (max7R_le _ _ fun c => cmaxR_le_sup s _) fun c => cmaxR_le_sup s _
  · refine Finset.sup'_le _ _ fun m _ => ?_
    by_cases hm : m.val < 16384
    · have hc : m.val / 2048 < 8 := by omega
      refine le_trans (le_cmaxR s m (kk 0 ⟨m.val / 2048, hc⟩) ?_) ?_
      · rw [kk_val]
        show m.val / 2048 = 8 * 0 + m.val / 2048
        omega
      · exact le_trans (le_max7R (fun c => cmaxR s (kk 0 c)) ⟨m.val / 2048, hc⟩) (left_le_max8R _ _)
    · have := m.isLt
      have hc : m.val / 2048 - 8 < 8 := by omega
      refine le_trans (le_cmaxR s m (kk 1 ⟨m.val / 2048 - 8, hc⟩) ?_) ?_
      · rw [kk_val]
        show m.val / 2048 = 8 * 1 + (m.val / 2048 - 8)
        omega
      · exact le_max8R (M1 s) (fun c => cmaxR s (kk 1 c)) ⟨m.val / 2048 - 8, hc⟩

/-- After key block 0: the mass and the weighted sum of its slots at `M1`. -/
theorem L1_eq (mc : Fin 8 → ℝ) (M' : ℝ) :
    ∑ c : Fin 8, mass s (chunk (kk 0 c)) (mc c) * Real.exp (mc c - M') = mass s (blockCols 0) M' :=
  mass_first s univ (fun c => chunk (kk 0 c)) (chunk_pairwise 0) M' mc

theorem A1_eq (mc : Fin 8 → ℝ) (M' : ℝ) :
    ∑ c : Fin 8, wsum s v (chunk (kk 0 c)) (mc c) * Real.exp (mc c - M') = wsum s v (blockCols 0) M' :=
  wsum_first s v univ (fun c => chunk (kk 0 c)) (chunk_pairwise 0) M' mc

/-- After both key blocks: the mass and the weighted sum of every slot. -/
theorem L2_eq (M M' : ℝ) (mc : Fin 8 → ℝ) :
    mass s (blockCols 0) M * Real.exp (M - M')
        + ∑ c : Fin 8, mass s (chunk (kk 1 c)) (mc c) * Real.exp (mc c - M')
      = mass s univ M' := by
  have h := mass_merge s (blockCols 0) univ (fun c => chunk (kk 1 c)) (chunk_pairwise 1) blockCols_disjoint M M' mc
  rw [h]
  exact congrArg (fun S => mass s S M') blockCols_union

theorem A2_eq (M M' : ℝ) (mc : Fin 8 → ℝ) :
    wsum s v (blockCols 0) M * Real.exp (M - M')
        + ∑ c : Fin 8, wsum s v (chunk (kk 1 c)) (mc c) * Real.exp (mc c - M')
      = wsum s v univ M' := by
  have h := wsum_merge s v (blockCols 0) univ (fun c => chunk (kk 1 c)) (chunk_pairwise 1) blockCols_disjoint M M' mc
  rw [h]
  exact congrArg (fun S => wsum s v S M') blockCols_union

/-- A chunk's mass and weighted sum as sums over its 2048 rows. -/
theorem mass_chunk (k : Fin 16) (M : ℝ) : mass s (chunk k) M = ∑ r : Fin 2048, Real.exp (s (colOf k r) - M) :=
  sum_chunk k _

theorem wsum_chunk (k : Fin 16) (M : ℝ) :
    wsum s v (chunk k) M = ∑ r : Fin 2048, Real.exp (s (colOf k r) - M) * v (colOf k r) :=
  sum_chunk k _

end Row

/-! ## The extended reals' side -/

theorem coe_max (a b : ℝ) : ((max a b : ℝ) : EReal) = max (a : EReal) (b : EReal) :=
  (EReal.coe_strictMono.monotone).map_max

/-- The fold of `max` from `⊥` over a nonempty family of reals is their greatest. -/
theorem fold_max_coe {ι : Type*} (S : Finset ι) (hS : S.Nonempty) (g : ι → ℝ) :
    S.fold max (⊥ : EReal) (fun i => (g i : EReal)) = ((S.sup' hS g : ℝ) : EReal) := by
  induction hS using Finset.Nonempty.cons_induction with
  | singleton a =>
    rw [Finset.fold_singleton, Finset.sup'_singleton]
    exact max_eq_left bot_le
  | cons a t ha ht ih =>
    rw [Finset.fold_cons, ih, Finset.sup'_cons ht, coe_max]

/-- The greatest of an extended real and eight more, left to right. -/
def max8 (a : EReal) (m : Fin 8 → EReal) : EReal :=
  max (max (max (max (max (max (max (max a (m 0)) (m 1)) (m 2)) (m 3)) (m 4)) (m 5)) (m 6)) (m 7)

theorem max8_bot (m : Fin 8 → ℝ) : max8 ⊥ (fun c => (m c : EReal)) = ((max7R m : ℝ) : EReal) := by
  unfold max8 max7R
  rw [max_eq_right bot_le]
  simp only [coe_max]

theorem max8_coe (a : ℝ) (m : Fin 8 → ℝ) : max8 (a : EReal) (fun c => (m c : EReal)) = ((max8R a m : ℝ) : EReal) := by
  unfold max8 max8R
  simp only [coe_max]

/-- A start value and eight terms, added left to right. -/
def acc8 (a : EReal) (t : Fin 8 → EReal) : EReal := a + t 0 + t 1 + t 2 + t 3 + t 4 + t 5 + t 6 + t 7

theorem acc8_coe (a : ℝ) (t : Fin 8 → ℝ) : acc8 (a : EReal) (fun c => (t c : EReal)) = ((a + ∑ c, t c : ℝ) : EReal) := by
  unfold acc8
  rw [Fin.sum_univ_eight]
  simp only [← EReal.coe_add]
  congr 1
  ring

/-- The weight of the reference point `x` seen from `M`. -/
def wt (x M : EReal) : EReal := Ideal.exp (x - M)

theorem wt_bot (M : ℝ) : wt ⊥ (M : EReal) = 0 := by
  unfold wt
  rw [EReal.bot_sub, Ideal.exp_bot]

theorem wt_coe (x M : ℝ) : wt (x : EReal) (M : EReal) = ((Real.exp (x - M) : ℝ) : EReal) := by
  unfold wt
  rw [← EReal.coe_sub, Ideal.exp_coe]

/-- The first merge: nothing before it (`⊥`, `0`). -/
theorem merge_first (lc mc : Fin 8 → ℝ) (M' : ℝ) :
    acc8 ((0 : EReal) * wt ⊥ (M' : EReal)) (fun c => ((lc c : ℝ) : EReal) * wt (mc c : EReal) (M' : EReal))
      = ((∑ c, lc c * Real.exp (mc c - M') : ℝ) : EReal) := by
  rw [wt_bot, mul_zero]
  simp only [wt_coe, ← EReal.coe_mul]
  have h := acc8_coe 0 (fun c => lc c * Real.exp (mc c - M'))
  rw [EReal.coe_zero, zero_add] at h
  exact h

/-- A later merge: a real running pair. -/
theorem merge_next (L M : ℝ) (lc mc : Fin 8 → ℝ) (M' : ℝ) :
    acc8 ((L : EReal) * wt (M : EReal) (M' : EReal)) (fun c => ((lc c : ℝ) : EReal) * wt (mc c : EReal) (M' : EReal))
      = ((L * Real.exp (M - M') + ∑ c, lc c * Real.exp (mc c - M') : ℝ) : EReal) := by
  simp only [wt_coe, ← EReal.coe_mul]
  exact acc8_coe _ _

/-- One over a nonzero real. -/
theorem div_one_coe {l : ℝ} (hl : l ≠ 0) : Ideal.div 1 (l : EReal) = ((1 / l : ℝ) : EReal) := by
  rw [Ideal.div_coe hl, one_mul]

/-- The f32 pattern of one is one. -/
theorem ofBits_one : Ideal.ofBits .f32 0x3F800000#32 = 1 := by
  simp [Ideal.ofBits, Ideal.ieee, -EReal.coe_mul]; norm_num

end Cert.KernelIdeal.Hand

end
-- ==== Proof.KI.Val1Chunk.lean ====
/-
  One chunk of 2048 memory rows against the query block, read at an index: the scores, each row's greatest
  score, the weights, each row's sum of weights, and the weights' product with the chunk's rows — first over
  the extended reals, then, for inputs that are reals, as the reals the streaming softmax speaks of.
  The eight chunks of a key block run the same six operations; their values are stated once.
-/
import proofs.«155079_g79826262164167_feedfinal_366_31_alg».proof.Proof.Gen.KernelIdeal.Skeleton
import proofs.«155079_g79826262164167_feedfinal_366_31_alg».proof.Proof.KI.Val1Math
import Idealize.ShloMosaic.Lib.ValueIdx
import Idealize.ShloMosaic.Lib.ValueIdxCoords
import Idealize.ShloMosaic.Lib.Pipeline.Value
import Idealize.ShloMosaic.PureOps.Ideal.Laws

noncomputable section

namespace Cert.KernelIdeal.Hand

open Idealize.ShloMosaic Idealize.SL.Sem Idealize.ShloMosaic.ValueIdx Cert.KernelIdeal Cert.KernelIdeal.Gen
open scoped BigOperators

/-! ## One chunk of 2048 memory rows against the query block

The six values the kernel computes from the query block `x0` and one chunk `xc`, read at an index:
the scores, each row's greatest score, the weights `exp (score - greatest)`, each row's sum of
weights, and the weights' product with the chunk's rows. -/

/-- The scores of one chunk: row `p` of the query block against row `r` of the chunk. -/
theorem scores_apply (x0 : Vec Ideal S512x128 .f32) (xc : Vec Ideal S2048x128 .f32) (p : Fin 512) (r : Fin 2048) :
    k1_pay9 x0 xc (ix2 p r) = ∑ f : Fin 128, x0 (ix2 p f) * xc (ix2 r f) := by
  unfold k1_pay9 k1_pay8
  rw [shapeCast_self]
  show FloatOps.matmul (F := Ideal) (φ₁ := .f32) (φ₂ := .f32) dot_S512x128_S2048x128_S512x2048_1_1_0_0_n_n none x0 xc (constant S512x2048 .f32 0x00000000#32) (ix2 p r) = _
  rw [Ideal.matmul_constant_zero_apply,
    ← Equiv.sum_comp (contrEquiv1 dot_S512x128_S2048x128_S512x2048_1_1_0_0_n_n 128 rfl rfl).symm]
  refine Finset.sum_congr rfl fun c _ => ?_
  have c2 := contrEquiv1_symm_val dot_S512x128_S2048x128_S512x2048_1_1_0_0_n_n 128 rfl rfl c
  have l2 : dot_S512x128_S2048x128_S512x2048_1_1_0_0_n_n.lhsIdx (ix2 p r) ((contrEquiv1 _ 128 rfl rfl).symm c) = ix2 p c := by
    funext ax; apply Fin.ext
    match ax with
    | ⟨0, _⟩ => simp [DotDims.lhsIdx, dot_S512x128_S2048x128_S512x2048_1_1_0_0_n_n]; rfl
    | ⟨1, _⟩ => simp [DotDims.lhsIdx, dot_S512x128_S2048x128_S512x2048_1_1_0_0_n_n]; exact c2
  have r2 : dot_S512x128_S2048x128_S512x2048_1_1_0_0_n_n.rhsIdx (ix2 p r) ((contrEquiv1 _ 128 rfl rfl).symm c) = ix2 r c := by
    funext ax; apply Fin.ext
    match ax with
    | ⟨0, _⟩ => simp [DotDims.rhsIdx, dot_S512x128_S2048x128_S512x2048_1_1_0_0_n_n]; rfl
    | ⟨1, _⟩ => simp [DotDims.rhsIdx, dot_S512x128_S2048x128_S512x2048_1_1_0_0_n_n]; exact c2
  rw [l2, r2]

/-- The index a reduction over the columns inserts: row `p`, column `k`. -/
theorem lift_row (p : Fin 512) (k : Fin 2048) :
    reduces_S512x2048_S512.lift (ix1 p) k = ix2 p k := by
  funext a; apply Fin.ext
  match a with
  | ⟨0, _⟩ => rfl
  | ⟨1, _⟩ => rfl

/-- A [512] vector viewed as [512, 1] reads its `p`-th entry at `(p, 0)`. -/
theorem cast_col {α : Type} (v : S512.Idx → α) (p : Fin 512) :
    shapeCast S512x1 v shapeCasts_S512_S512x1 (ix2 p (0 : Fin 1)) = v (ix1 p) := by
  refine shapeCast_apply v shapeCasts_S512_S512x1 (ix2 p (0 : Fin 1)) (ix1 p) ?_
  rw [Shape.rowMajor_val_one, Shape.rowMajor_val_two]
  show p.val = p.val * 1 + 0
  omega

/-- A [512, 1] column spread over [512, 2048] reads its row's entry. -/
theorem bcast_row {α : Type} (v : S512x1.Idx → α) (p : Fin 512) (r : Fin 2048) :
    broadcastTo S512x2048 v broadcasts_S512x1_S512x2048 (ix2 p r) = v (ix2 p (0 : Fin 1)) := by
  refine broadcastTo_apply v broadcasts_S512x1_S512x2048 (ix2 p r) (ix2 p (0 : Fin 1)) ?_
  intro a
  match a with
  | ⟨0, _⟩ => rfl
  | ⟨1, _⟩ => rfl

/-- A [512, 1] column spread over [512, 128] reads its row's entry. -/
theorem bcast_row128 {α : Type} (v : S512x1.Idx → α) (p : Fin 512) (f : Fin 128) :
    broadcastTo S512x128 v broadcasts_S512x1_S512x128 (ix2 p f) = v (ix2 p (0 : Fin 1)) := by
  refine broadcastTo_apply v broadcasts_S512x1_S512x128 (ix2 p f) (ix2 p (0 : Fin 1)) ?_
  intro a
  match a with
  | ⟨0, _⟩ => rfl
  | ⟨1, _⟩ => rfl

/-- The f32 pattern of minus infinity is the least extended real. -/
theorem ofBits_neg_inf : Ideal.ofBits .f32 0xFF800000#32 = ⊥ := by simp [Ideal.ofBits, Ideal.ieee]

/-- Each row's greatest score: the fold of `max` from `⊥` over the row's 2048 scores. -/
theorem rowmax_apply (x0 : Vec Ideal S512x128 .f32) (xc : Vec Ideal S2048x128 .f32) (p : Fin 512) :
    k1_pay10 x0 xc (ix2 p (0 : Fin 1))
      = (Finset.univ : Finset (Fin 2048)).fold max ⊥ (fun r => k1_pay9 x0 xc (ix2 p r)) := by
  unfold k1_pay10
  rw [cast_col]
  refine Eq.trans (Ideal.multiReduction_maximumf_single (φ := .f32) (s := S512x2048) (t := S512) (a := 1)
    (k1_pay9 x0 xc) _ reduces_S512x2048_S512 _ _ (ix1 p)) ?_
  show (Finset.univ : Finset (Fin 2048)).fold max (Ideal.ofBits .f32 0xFF800000#32) _ = _
  rw [ofBits_neg_inf]
  refine congrArg (fun g => (Finset.univ : Finset (Fin 2048)).fold max ⊥ g) (funext fun r => ?_)
  exact congrArg (k1_pay9 x0 xc) (lift_row p r)

/-- The weights: `exp` of the score less its row's greatest. -/
theorem weights_apply (x0 : Vec Ideal S512x128 .f32) (xc : Vec Ideal S2048x128 .f32) (p : Fin 512) (r : Fin 2048) :
    k1_pay11 x0 xc (ix2 p r)
      = Ideal.exp (k1_pay9 x0 xc (ix2 p r) - k1_pay10 x0 xc (ix2 p (0 : Fin 1))) := by
  unfold k1_pay11
  show Ideal.exp (k1_pay9 x0 xc (ix2 p r) - broadcastTo S512x2048 (k1_pay10 x0 xc) broadcasts_S512x1_S512x2048 (ix2 p r)) = _
  rw [bcast_row]

/-- Each row's sum of weights. -/
theorem rowsum_apply (x0 : Vec Ideal S512x128 .f32) (xc : Vec Ideal S2048x128 .f32) (p : Fin 512) :
    k1_pay12 x0 xc (ix2 p (0 : Fin 1)) = ∑ r : Fin 2048, k1_pay11 x0 xc (ix2 p r) := by
  unfold k1_pay12
  rw [cast_col]
  refine Eq.trans (Ideal.multiReduction_add_single (φ := .f32) (s := S512x2048) (t := S512) (a := 1)
    (k1_pay11 x0 xc) _ reduces_S512x2048_S512 _ _ (ix1 p)) ?_
  show ∑ r : Fin 2048, k1_pay11 x0 xc (reduces_S512x2048_S512.lift (ix1 p) r) = _
  refine Finset.sum_congr rfl fun r _ => ?_
  exact congrArg (k1_pay11 x0 xc) (lift_row p r)

/-- The weights' product with the chunk's rows, transposed back to [512, 128]. -/
theorem wprod_apply (x0 : Vec Ideal S512x128 .f32) (xc : Vec Ideal S2048x128 .f32) (p : Fin 512) (f : Fin 128) :
    k1_pay13 x0 xc (ix2 p f) = ∑ r : Fin 2048, xc (ix2 r f) * k1_pay11 x0 xc (ix2 p r) := by
  unfold k1_pay13 k1_pay8
  rw [shapeCast_self]
  refine (transpose_apply [1, 0] _ transposes_S128x512_p1_0_S512x128 (ix2 p f) (ix2 f p) ?_).trans ?_
  · intro b
    match b with
    | ⟨0, _⟩ => rfl
    | ⟨1, _⟩ => rfl
  show FloatOps.matmul (F := Ideal) (φ₁ := .f32) (φ₂ := .f32) dot_S2048x128_S512x2048_S128x512_0_1_1_0_n_n none xc (k1_pay11 x0 xc) (constant S128x512 .f32 0x00000000#32) (ix2 f p) = _
  rw [Ideal.matmul_constant_zero_apply,
    ← Equiv.sum_comp (contrEquiv1 dot_S2048x128_S512x2048_S128x512_0_1_1_0_n_n 2048 rfl rfl).symm]
  refine Finset.sum_congr rfl fun c _ => ?_
  have c2 := contrEquiv1_symm_val dot_S2048x128_S512x2048_S128x512_0_1_1_0_n_n 2048 rfl rfl c
  have l2 : dot_S2048x128_S512x2048_S128x512_0_1_1_0_n_n.lhsIdx (ix2 f p) ((contrEquiv1 _ 2048 rfl rfl).symm c) = ix2 c f := by
    funext ax; apply Fin.ext
    match ax with
    | ⟨0, _⟩ => simp [DotDims.lhsIdx, dot_S2048x128_S512x2048_S128x512_0_1_1_0_n_n]; exact c2
    | ⟨1, _⟩ => simp [DotDims.lhsIdx, dot_S2048x128_S512x2048_S128x512_0_1_1_0_n_n]; rfl
  have r2 : dot_S2048x128_S512x2048_S128x512_0_1_1_0_n_n.rhsIdx (ix2 f p) ((contrEquiv1 _ 2048 rfl rfl).symm c) = ix2 p c := by
    funext ax; apply Fin.ext
    match ax with
    | ⟨0, _⟩ => simp [DotDims.rhsIdx, dot_S2048x128_S512x2048_S128x512_0_1_1_0_n_n]; rfl
    | ⟨1, _⟩ => simp [DotDims.rhsIdx, dot_S2048x128_S512x2048_S128x512_0_1_1_0_n_n]; exact c2
  rw [l2, r2]

/-! ## With real inputs -/

/-- Row `r` of the chunk scored against the query row `qr`. -/
def srow (qr : Fin 128 → ℝ) (Mc : Fin 2048 → Fin 128 → ℝ) (r : Fin 2048) : ℝ := ∑ f : Fin 128, qr f * Mc r f

/-- The greatest of the chunk's 2048 scores. -/
def rmax (qr : Fin 128 → ℝ) (Mc : Fin 2048 → Fin 128 → ℝ) : ℝ :=
  Finset.univ.sup' ⟨(0 : Fin 2048), Finset.mem_univ _⟩ (srow qr Mc)

section RowReal
variable (x0 : Vec Ideal S512x128 .f32) (xc : Vec Ideal S2048x128 .f32) (p : Fin 512)
  (qr : Fin 128 → ℝ) (Mc : Fin 2048 → Fin 128 → ℝ)
  (hq : ∀ f, x0 (ix2 p f) = ((qr f : ℝ) : EReal)) (hM : ∀ r f, xc (ix2 r f) = ((Mc r f : ℝ) : EReal))
include hq hM

theorem scores_real (r : Fin 2048) : k1_pay9 x0 xc (ix2 p r) = ((srow qr Mc r : ℝ) : EReal) := by
  rw [scores_apply]
  unfold srow
  rw [Cert.Spec.coe_sum]
  exact Finset.sum_congr rfl fun f _ => by rw [hq, hM, EReal.coe_mul]

theorem rowmax_real : k1_pay10 x0 xc (ix2 p (0 : Fin 1)) = ((rmax qr Mc : ℝ) : EReal) := by
  rw [rowmax_apply]
  have h : (fun r => k1_pay9 x0 xc (ix2 p r)) = fun r => ((srow qr Mc r : ℝ) : EReal) :=
    funext fun r => scores_real x0 xc p qr Mc hq hM r
  rw [h]
  exact fold_max_coe Finset.univ ⟨(0 : Fin 2048), Finset.mem_univ _⟩ (srow qr Mc)

theorem weights_real (r : Fin 2048) :
    k1_pay11 x0 xc (ix2 p r) = ((Real.exp (srow qr Mc r - rmax qr Mc) : ℝ) : EReal) := by
  rw [weights_apply, scores_real x0 xc p qr Mc hq hM r, rowmax_real x0 xc p qr Mc hq hM, ← EReal.coe_sub,
    Ideal.exp_coe]

theorem rowsum_real :
    k1_pay12 x0 xc (ix2 p (0 : Fin 1)) = ((∑ r : Fin 2048, Real.exp (srow qr Mc r - rmax qr Mc) : ℝ) : EReal) := by
  rw [rowsum_apply, Cert.Spec.coe_sum]
  exact Finset.sum_congr rfl fun r _ => weights_real x0 xc p qr Mc hq hM r

theorem wprod_real (f : Fin 128) :
    k1_pay13 x0 xc (ix2 p f)
      = ((∑ r : Fin 2048, Real.exp (srow qr Mc r - rmax qr Mc) * Mc r f : ℝ) : EReal) := by
  rw [wprod_apply, Cert.Spec.coe_sum]
  refine Finset.sum_congr rfl fun r _ => ?_
  rw [hM, weights_real x0 xc p qr Mc hq hM r, ← EReal.coe_mul, mul_comm]

end RowReal

/-! ## The other seven chunks run the same operations -/

section Same
variable {F : FTy → Type} [FloatOps F] (x0 : Vec F S512x128 .f32) (y : Vec F S2048x128 .f32)

theorem pay16_eq : k1_pay16 x0 y = k1_pay10 x0 y := rfl
theorem pay18_eq : k1_pay18 x0 y = k1_pay12 x0 y := rfl
theorem pay19_eq : k1_pay19 x0 y = k1_pay13 x0 y := rfl
theorem pay22_eq : k1_pay22 x0 y = k1_pay10 x0 y := rfl
theorem pay24_eq : k1_pay24 (k1_pay23 x0 y) = k1_pay12 x0 y := rfl
theorem pay25_eq : k1_pay25 (k1_pay20 y) (k1_pay23 x0 y) = k1_pay13 x0 y := rfl
theorem pay28_eq : k1_pay28 x0 y = k1_pay10 x0 y := rfl
theorem pay30_eq : k1_pay30 x0 y = k1_pay12 x0 y := rfl
theorem pay31_eq : k1_pay31 x0 y = k1_pay13 x0 y := rfl
theorem pay34_eq : k1_pay34 x0 y = k1_pay10 x0 y := rfl
theorem pay36_eq : k1_pay36 x0 y = k1_pay12 x0 y := rfl
theorem pay37_eq : k1_pay37 x0 y = k1_pay13 x0 y := rfl
theorem pay40_eq : k1_pay40 x0 y = k1_pay10 x0 y := rfl
theorem pay42_eq : k1_pay42 x0 y = k1_pay12 x0 y := rfl
theorem pay43_eq : k1_pay43 x0 y = k1_pay13 x0 y := rfl
theorem pay46_eq : k1_pay46 x0 y = k1_pay10 x0 y := rfl
theorem pay48_eq : k1_pay48 x0 y = k1_pay12 x0 y := rfl
theorem pay49_eq : k1_pay49 x0 y = k1_pay13 x0 y := rfl
theorem pay52_eq : k1_pay52 x0 y = k1_pay10 x0 y := rfl
theorem pay54_eq : k1_pay54 x0 y = k1_pay12 x0 y := rfl
theorem pay55_eq : k1_pay55 x0 y = k1_pay13 x0 y := rfl

end Same

end Cert.KernelIdeal.Hand

end
-- ==== Proof.KI.Val1Step.lean ====
/-
  One grid point of the attention read on the three carried buffers, read at an index: the new running
  greatest score, mass and weighted sums as one merge of the running triple with the eight chunks' triples —
  first as extended-real expressions of what the buffers held, then, for real inputs, as the reals of the
  streaming softmax: the first point of a row block (nothing before it) and a later point (a real running triple).
  Last, the two outputs from the final triple.
-/
import proofs.«155079_g79826262164167_feedfinal_366_31_alg».proof.Proof.KI.Step1
import proofs.«155079_g79826262164167_feedfinal_366_31_alg».proof.Proof.KI.Val1Chunk

noncomputable section

namespace Cert.KernelIdeal.Hand

open Idealize.ShloMosaic Idealize.SL.Sem Idealize.ShloMosaic.ValueIdx Cert.KernelIdeal Cert.KernelIdeal.Gen
open scoped BigOperators

/-! ## The eight chunks of a key block -/

/-- Chunk `c` of a key block: its rows `2048 c` … `2048 c + 2047`. -/
def chOf (x1 : Vec Ideal S16384x128 .f32) (c : Fin 8) : Vec Ideal S2048x128 .f32 :=
  ![View.ld x1 rch0, View.ld x1 rch1, View.ld x1 rch2, View.ld x1 rch3, View.ld x1 rch4, View.ld x1 rch5,
    View.ld x1 rch6, View.ld x1 rch7] c

/-- Rows read through a unit-stride rectangle of 2048 rows from row `off`. -/
theorem ld_rows (x1 : Vec Ideal S16384x128 .f32) (off : ℕ) (inb : ∀ a, (![off, 0] : Fin 2 → ℕ) a + S2048x128.size a ≤ S16384x128.size a)
    (r : Fin 2048) (f : Fin 128) (h : off + r.val < 16384) :
    (View.ld x1 (Rect.unit (s := S16384x128) ![off, 0] S2048x128.size inb) : Vec Ideal S2048x128 .f32) (ix2 r f)
      = x1 (ix2 (⟨off + r.val, h⟩ : Fin 16384) f) := by
  show x1 _ = x1 _
  refine congrArg x1 (funext fun a => Fin.ext ?_)
  match a with
  | ⟨0, _⟩ => show off + 1 * r.val = off + r.val; omega
  | ⟨1, _⟩ => show 0 + 1 * f.val = f.val; omega

theorem chOf_apply (x1 : Vec Ideal S16384x128 .f32) (c : Fin 8) (r : Fin 2048) (f : Fin 128) :
    chOf x1 c (ix2 r f) = x1 (ix2 (⟨2048 * c.val + r.val, by omega⟩ : Fin 16384) f) := by
  fin_cases c
  · exact (ld_rows x1 0 _ r f (by omega)).trans (congrArg (fun k => x1 (ix2 k f)) (Fin.ext (by simp)))
  · exact (ld_rows x1 2048 _ r f (by omega)).trans (congrArg (fun k => x1 (ix2 k f)) (Fin.ext (by simp)))
  · exact (ld_rows x1 4096 _ r f (by omega)).trans (congrArg (fun k => x1 (ix2 k f)) (Fin.ext (by simp)))
  · exact (ld_rows x1 6144 _ r f (by omega)).trans (congrArg (fun k => x1 (ix2 k f)) (Fin.ext (by simp)))
  · exact (ld_rows x1 8192 _ r f (by omega)).trans (congrArg (fun k => x1 (ix2 k f)) (Fin.ext (by simp)))
  · exact (ld_rows x1 10240 _ r f (by omega)).trans (congrArg (fun k => x1 (ix2 k f)) (Fin.ext (by simp)))
  · exact (ld_rows x1 12288 _ r f (by omega)).trans (congrArg (fun k => x1 (ix2 k f)) (Fin.ext (by simp)))
  · exact (ld_rows x1 14336 _ r f (by omega)).trans (congrArg (fun k => x1 (ix2 k f)) (Fin.ext (by simp)))

/-! ## One point on the carried buffers, over the extended reals -/

theorem chOf_0 (x1 : Vec Ideal S16384x128 .f32) : chOf x1 0 = View.ld x1 rch0 := rfl
theorem chOf_1 (x1 : Vec Ideal S16384x128 .f32) : chOf x1 1 = View.ld x1 rch1 := rfl
theorem chOf_2 (x1 : Vec Ideal S16384x128 .f32) : chOf x1 2 = View.ld x1 rch2 := rfl
theorem chOf_3 (x1 : Vec Ideal S16384x128 .f32) : chOf x1 3 = View.ld x1 rch3 := rfl
theorem chOf_4 (x1 : Vec Ideal S16384x128 .f32) : chOf x1 4 = View.ld x1 rch4 := rfl
theorem chOf_5 (x1 : Vec Ideal S16384x128 .f32) : chOf x1 5 = View.ld x1 rch5 := rfl
theorem chOf_6 (x1 : Vec Ideal S16384x128 .f32) : chOf x1 6 = View.ld x1 rch6 := rfl
theorem chOf_7 (x1 : Vec Ideal S16384x128 .f32) : chOf x1 7 = View.ld x1 rch7 := rfl

section Payloads
variable (v3 : Vec Ideal S512x128 .f32) (v8 v13 v20 v25 v32 v37 v44 v49 v56 v61 v68 v73 v80 v85 v92 v97 : FVec Ideal S512x1 .f32)
  (v15 v27 v39 v51 v63 v75 v87 v99 : FVec Ideal S512x128 .f32)
  (v76 v88 : Vec Ideal S2048x128 .f32) (v100 v111 : Vec Ideal S512x1 .f32) (v113 : Vec Ideal S512x128 .f32)
  (v108 v112 v117 v118 : FVec Ideal S512x1 .f32) (v115 : FVec Ideal S512x128 .f32)

/-- The running greatest score merged with the eight chunks', at an index. -/
theorem pay56_apply (i : S512x1.Idx) :
    k1_pay56 v3 v8 v20 v32 v44 v56 v68 v76 v88 v100 i
      = max (max (max (max (max (max (max (max (v100 i) (v8 i)) (v20 i)) (v32 i)) (v44 i)) (v56 i)) (v68 i))
          (k1_pay46 v3 v76 i)) (k1_pay52 v3 v88 i) := rfl

/-- The running mass rescaled to the new greatest score. -/
theorem pay58_apply (i : S512x1.Idx) :
    k1_pay58 v3 v8 v20 v32 v44 v56 v68 v76 v88 v100 v111 i
      = v111 i * wt (v100 i) (k1_pay56 v3 v8 v20 v32 v44 v56 v68 v76 v88 v100 i) := rfl

/-- The first chunk's weight. -/
theorem pay60_apply (i : S512x1.Idx) :
    k1_pay60 v3 v8 v20 v32 v44 v56 v68 v76 v88 v100 i
      = wt (v8 i) (k1_pay56 v3 v8 v20 v32 v44 v56 v68 v76 v88 v100 i) := rfl

/-- The first chunk's mass rescaled. -/
theorem pay61_apply (i : S512x1.Idx) :
    k1_pay61 v3 v8 v13 v20 v32 v44 v56 v68 v76 v88 v100 i
      = v13 i * wt (v8 i) (k1_pay56 v3 v8 v20 v32 v44 v56 v68 v76 v88 v100 i) := rfl

/-- The new mass: nine terms added left to right. -/
theorem pay69_apply (i : S512x1.Idx) :
    k1_pay69 v20 v25 v32 v37 v44 v49 v56 v61 v68 v73 v80 v85 v92 v97 v108 v112 v118 i
      = v112 i + v118 i + v25 i * wt (v20 i) (v108 i) + v37 i * wt (v32 i) (v108 i) + v49 i * wt (v44 i) (v108 i)
          + v61 i * wt (v56 i) (v108 i) + v73 i * wt (v68 i) (v108 i) + v85 i * wt (v80 i) (v108 i)
          + v97 i * wt (v92 i) (v108 i) := rfl

/-- The running weighted sums rescaled to the new greatest score. -/
theorem pay59_apply (p : Fin 512) (f : Fin 128) :
    k1_pay59 v3 v8 v20 v32 v44 v56 v68 v76 v88 v100 v113 (ix2 p f)
      = v113 (ix2 p f) * wt (v100 (ix2 p (0 : Fin 1))) (k1_pay56 v3 v8 v20 v32 v44 v56 v68 v76 v88 v100 (ix2 p (0 : Fin 1))) := by
  unfold k1_pay59
  show v113 (ix2 p f) * broadcastTo S512x128 (k1_pay57 v3 v8 v20 v32 v44 v56 v68 v76 v88 v100) broadcasts_S512x1_S512x128 (ix2 p f) = _
  rw [bcast_row128]
  rfl

/-- The new weighted sums: nine terms added left to right. -/
theorem pay70_apply (p : Fin 512) (f : Fin 128) :
    k1_pay70 v15 v20 v27 v32 v39 v44 v51 v56 v63 v68 v75 v80 v87 v92 v99 v108 v115 v117 (ix2 p f)
      = v115 (ix2 p f) + v15 (ix2 p f) * v117 (ix2 p (0 : Fin 1))
          + v27 (ix2 p f) * wt (v20 (ix2 p (0 : Fin 1))) (v108 (ix2 p (0 : Fin 1)))
          + v39 (ix2 p f) * wt (v32 (ix2 p (0 : Fin 1))) (v108 (ix2 p (0 : Fin 1)))
          + v51 (ix2 p f) * wt (v44 (ix2 p (0 : Fin 1))) (v108 (ix2 p (0 : Fin 1)))
          + v63 (ix2 p f) * wt (v56 (ix2 p (0 : Fin 1))) (v108 (ix2 p (0 : Fin 1)))
          + v75 (ix2 p f) * wt (v68 (ix2 p (0 : Fin 1))) (v108 (ix2 p (0 : Fin 1)))
          + v87 (ix2 p f) * wt (v80 (ix2 p (0 : Fin 1))) (v108 (ix2 p (0 : Fin 1)))
          + v99 (ix2 p f) * wt (v92 (ix2 p (0 : Fin 1))) (v108 (ix2 p (0 : Fin 1))) := by
  unfold k1_pay70
  simp only [addf_apply, mulf_apply, bcast_row128]
  rfl

end Payloads

section Step
variable (x0 : Vec Ideal S512x128 .f32) (x1 : Vec Ideal S16384x128 .f32) (s : Scr Ideal)

/-- The new running greatest score of a row. -/
def mNew (i : S512x1.Idx) : EReal := max8 (s.2.1 i) fun c => k1_pay10 x0 (chOf x1 c) i

/-- The merged greatest score, as the point computes it. -/
def v108Of : FVec Ideal S512x1 .f32 :=
  k1_pay56 x0 (k1_pay10 x0 (View.ld x1 rch0)) (k1_pay16 x0 (View.ld x1 rch1)) (k1_pay22 x0 (View.ld x1 rch2))
      (k1_pay28 x0 (View.ld x1 rch3)) (k1_pay34 x0 (View.ld x1 rch4)) (k1_pay40 x0 (View.ld x1 rch5)) (View.ld
      x1 rch6) (View.ld x1 rch7) s.2.1

theorem scrStep_m : (scrStep x0 x1 s).2.1 = k1_pay71 (v108Of x0 x1 s) := rfl

theorem scrStep_l : (scrStep x0 x1 s).2.2
    = k1_pay1 (k1_pay69 (k1_pay16 x0 (View.ld x1 rch1)) (k1_pay18 x0 (View.ld x1 rch1)) (k1_pay22 x0 (View.ld x1 rch2))
      (k1_pay24 (k1_pay23 x0 (View.ld x1 rch2))) (k1_pay28 x0 (View.ld x1 rch3)) (k1_pay30 x0 (View.ld x1
      rch3)) (k1_pay34 x0 (View.ld x1 rch4)) (k1_pay36 x0 (View.ld x1 rch4)) (k1_pay40 x0 (View.ld x1 rch5))
      (k1_pay42 x0 (View.ld x1 rch5)) (k1_pay46 x0 (View.ld x1 rch6)) (k1_pay48 x0 (View.ld x1 rch6))
      (k1_pay52 x0 (View.ld x1 rch7)) (k1_pay54 x0 (View.ld x1 rch7)) (v108Of x0 x1 s) (k1_pay58 x0 (k1_pay10
      x0 (View.ld x1 rch0)) (k1_pay16 x0 (View.ld x1 rch1)) (k1_pay22 x0 (View.ld x1 rch2)) (k1_pay28 x0
      (View.ld x1 rch3)) (k1_pay34 x0 (View.ld x1 rch4)) (k1_pay40 x0 (View.ld x1 rch5)) (View.ld x1 rch6)
      (View.ld x1 rch7) s.2.1 s.2.2) (k1_pay61 x0 (k1_pay10 x0 (View.ld x1 rch0)) (k1_pay12 x0 (View.ld x1
      rch0)) (k1_pay16 x0 (View.ld x1 rch1)) (k1_pay22 x0 (View.ld x1 rch2)) (k1_pay28 x0 (View.ld x1 rch3))
      (k1_pay34 x0 (View.ld x1 rch4)) (k1_pay40 x0 (View.ld x1 rch5)) (View.ld x1 rch6) (View.ld x1 rch7)
      s.2.1)) := rfl

theorem scrStep_a : (scrStep x0 x1 s).1
    = k1_pay2 (k1_pay70 (k1_pay13 x0 (View.ld x1 rch0)) (k1_pay16 x0 (View.ld x1 rch1)) (k1_pay19 x0 (View.ld x1 rch1))
      (k1_pay22 x0 (View.ld x1 rch2)) (k1_pay25 (k1_pay20 (View.ld x1 rch2)) (k1_pay23 x0 (View.ld x1 rch2)))
      (k1_pay28 x0 (View.ld x1 rch3)) (k1_pay31 x0 (View.ld x1 rch3)) (k1_pay34 x0 (View.ld x1 rch4))
      (k1_pay37 x0 (View.ld x1 rch4)) (k1_pay40 x0 (View.ld x1 rch5)) (k1_pay43 x0 (View.ld x1 rch5))
      (k1_pay46 x0 (View.ld x1 rch6)) (k1_pay49 x0 (View.ld x1 rch6)) (k1_pay52 x0 (View.ld x1 rch7))
      (k1_pay55 x0 (View.ld x1 rch7)) (v108Of x0 x1 s) (k1_pay59 x0 (k1_pay10 x0 (View.ld x1 rch0)) (k1_pay16
      x0 (View.ld x1 rch1)) (k1_pay22 x0 (View.ld x1 rch2)) (k1_pay28 x0 (View.ld x1 rch3)) (k1_pay34 x0
      (View.ld x1 rch4)) (k1_pay40 x0 (View.ld x1 rch5)) (View.ld x1 rch6) (View.ld x1 rch7) s.2.1 s.1)
      (k1_pay60 x0 (k1_pay10 x0 (View.ld x1 rch0)) (k1_pay16 x0 (View.ld x1 rch1)) (k1_pay22 x0 (View.ld x1
      rch2)) (k1_pay28 x0 (View.ld x1 rch3)) (k1_pay34 x0 (View.ld x1 rch4)) (k1_pay40 x0 (View.ld x1 rch5))
      (View.ld x1 rch6) (View.ld x1 rch7) s.2.1)) := rfl

theorem v108Of_apply (i : S512x1.Idx) : v108Of x0 x1 s i = mNew x0 x1 s i := by
  unfold v108Of
  rw [pay56_apply, pay16_eq, pay22_eq, pay28_eq, pay34_eq, pay40_eq, pay46_eq, pay52_eq]
  unfold mNew max8
  simp only [chOf_0, chOf_1, chOf_2, chOf_3, chOf_4, chOf_5, chOf_6, chOf_7]

theorem step_m (i : S512x1.Idx) : (scrStep x0 x1 s).2.1 i = mNew x0 x1 s i := by
  rw [scrStep_m]
  unfold k1_pay71
  rw [shapeCast_self]
  exact v108Of_apply x0 x1 s i

theorem step_l (i : S512x1.Idx) :
    (scrStep x0 x1 s).2.2 i
      = acc8 (s.2.2 i * wt (s.2.1 i) (mNew x0 x1 s i))
          fun c => k1_pay12 x0 (chOf x1 c) i * wt (k1_pay10 x0 (chOf x1 c) i) (mNew x0 x1 s i) := by
  rw [scrStep_l]
  unfold k1_pay1
  rw [shapeCast_self, pay69_apply, pay58_apply, pay61_apply]
  rw [show k1_pay56 x0 (k1_pay10 x0 (View.ld x1 rch0)) (k1_pay16 x0 (View.ld x1 rch1)) (k1_pay22 x0 (View.ld x1 rch2)) (k1_pay28 x0 (View.ld x1 rch3)) (k1_pay34 x0 (View.ld x1 rch4)) (k1_pay40 x0 (View.ld x1 rch5)) (View.ld x1 rch6) (View.ld x1 rch7) s.2.1 = v108Of x0 x1 s from rfl]
  rw [v108Of_apply, pay16_eq, pay18_eq, pay22_eq, pay24_eq, pay28_eq, pay30_eq, pay34_eq, pay36_eq, pay40_eq, pay42_eq,
    pay46_eq, pay48_eq, pay52_eq, pay54_eq]
  unfold acc8
  simp only [chOf_0, chOf_1, chOf_2, chOf_3, chOf_4, chOf_5, chOf_6, chOf_7]

theorem step_a (p : Fin 512) (f : Fin 128) :
    (scrStep x0 x1 s).1 (ix2 p f)
      = acc8 (s.1 (ix2 p f) * wt (s.2.1 (ix2 p (0 : Fin 1))) (mNew x0 x1 s (ix2 p (0 : Fin 1))))
          fun c => k1_pay13 x0 (chOf x1 c) (ix2 p f)
            * wt (k1_pay10 x0 (chOf x1 c) (ix2 p (0 : Fin 1))) (mNew x0 x1 s (ix2 p (0 : Fin 1))) := by
  rw [scrStep_a]
  unfold k1_pay2
  rw [shapeCast_self, pay70_apply, pay59_apply, pay60_apply]
  rw [show k1_pay56 x0 (k1_pay10 x0 (View.ld x1 rch0)) (k1_pay16 x0 (View.ld x1 rch1)) (k1_pay22 x0 (View.ld x1 rch2)) (k1_pay28 x0 (View.ld x1 rch3)) (k1_pay34 x0 (View.ld x1 rch4)) (k1_pay40 x0 (View.ld x1 rch5)) (View.ld x1 rch6) (View.ld x1 rch7) s.2.1 = v108Of x0 x1 s from rfl]
  rw [v108Of_apply, pay16_eq, pay19_eq, pay22_eq, pay25_eq, pay28_eq, pay31_eq, pay34_eq, pay37_eq, pay40_eq, pay43_eq,
    pay46_eq, pay49_eq, pay52_eq, pay55_eq]
  unfold acc8
  simp only [chOf_0, chOf_1, chOf_2, chOf_3, chOf_4, chOf_5, chOf_6, chOf_7]

end Step

/-! ## With real inputs: the first point of a row block, and a later point -/

section Real
variable (x0 : Vec Ideal S512x128 .f32) (x1 : Vec Ideal S16384x128 .f32) (s : Scr Ideal) (p : Fin 512)
  (qr : Fin 128 → ℝ) (Mc : Fin 8 → Fin 2048 → Fin 128 → ℝ)

/-- Chunk `c`'s greatest score, mass and weighted sum of feature `f`, relative to its own greatest score. -/
def mcR (c : Fin 8) : ℝ := rmax qr (Mc c)
def lcR (c : Fin 8) : ℝ := ∑ r : Fin 2048, Real.exp (srow qr (Mc c) r - rmax qr (Mc c))
def acR (f : Fin 128) (c : Fin 8) : ℝ := ∑ r : Fin 2048, Real.exp (srow qr (Mc c) r - rmax qr (Mc c)) * Mc c r f

variable (hq : ∀ f, x0 (ix2 p f) = ((qr f : ℝ) : EReal))
  (hM : ∀ c r f, chOf x1 c (ix2 r f) = ((Mc c r f : ℝ) : EReal))
include hq hM

theorem cm_fun : (fun c => k1_pay10 x0 (chOf x1 c) (ix2 p (0 : Fin 1))) = fun c => ((mcR qr Mc c : ℝ) : EReal) :=
  funext fun c => rowmax_real x0 (chOf x1 c) p qr (Mc c) hq (hM c)

theorem cl_fun (M' : EReal) :
    (fun c => k1_pay12 x0 (chOf x1 c) (ix2 p (0 : Fin 1)) * wt (k1_pay10 x0 (chOf x1 c) (ix2 p (0 : Fin 1))) M')
      = fun c => ((lcR qr Mc c : ℝ) : EReal) * wt ((mcR qr Mc c : ℝ) : EReal) M' :=
  funext fun c => by
    rw [rowsum_real x0 (chOf x1 c) p qr (Mc c) hq (hM c), rowmax_real x0 (chOf x1 c) p qr (Mc c) hq (hM c)]
    all_goals rfl

theorem ca_fun (f : Fin 128) (M' : EReal) :
    (fun c => k1_pay13 x0 (chOf x1 c) (ix2 p f) * wt (k1_pay10 x0 (chOf x1 c) (ix2 p (0 : Fin 1))) M')
      = fun c => ((acR qr Mc f c : ℝ) : EReal) * wt ((mcR qr Mc c : ℝ) : EReal) M' :=
  funext fun c => by
    rw [wprod_real x0 (chOf x1 c) p qr (Mc c) hq (hM c) f, rowmax_real x0 (chOf x1 c) p qr (Mc c) hq (hM c)]
    all_goals rfl

theorem mNew_first (hm : s.2.1 (ix2 p (0 : Fin 1)) = ⊥) :
    mNew x0 x1 s (ix2 p (0 : Fin 1)) = ((max7R (mcR qr Mc) : ℝ) : EReal) := by
  unfold mNew
  rw [hm, cm_fun x0 x1 p qr Mc hq hM]
  exact max8_bot _

theorem mNew_next (M : ℝ) (hm : s.2.1 (ix2 p (0 : Fin 1)) = ((M : ℝ) : EReal)) :
    mNew x0 x1 s (ix2 p (0 : Fin 1)) = ((max8R M (mcR qr Mc) : ℝ) : EReal) := by
  unfold mNew
  rw [hm, cm_fun x0 x1 p qr Mc hq hM]
  exact max8_coe _ _

/-- The first point: from `(0, ⊥, 0)`. -/
theorem first_m (hm : s.2.1 (ix2 p (0 : Fin 1)) = ⊥) :
    (scrStep x0 x1 s).2.1 (ix2 p (0 : Fin 1)) = ((max7R (mcR qr Mc) : ℝ) : EReal) := by
  rw [step_m]
  exact mNew_first x0 x1 s p qr Mc hq hM hm

theorem first_l (hm : s.2.1 (ix2 p (0 : Fin 1)) = ⊥) (hl : s.2.2 (ix2 p (0 : Fin 1)) = 0) :
    (scrStep x0 x1 s).2.2 (ix2 p (0 : Fin 1))
      = ((∑ c, lcR qr Mc c * Real.exp (mcR qr Mc c - max7R (mcR qr Mc)) : ℝ) : EReal) := by
  rw [step_l, mNew_first x0 x1 s p qr Mc hq hM hm, hm, hl, cl_fun x0 x1 p qr Mc hq hM]
  exact merge_first _ _ _

theorem first_a (f : Fin 128) (hm : s.2.1 (ix2 p (0 : Fin 1)) = ⊥) (ha : s.1 (ix2 p f) = 0) :
    (scrStep x0 x1 s).1 (ix2 p f)
      = ((∑ c, acR qr Mc f c * Real.exp (mcR qr Mc c - max7R (mcR qr Mc)) : ℝ) : EReal) := by
  rw [step_a, mNew_first x0 x1 s p qr Mc hq hM hm, hm, ha, ca_fun x0 x1 p qr Mc hq hM]
  exact merge_first _ _ _

/-- A later point: from a real triple. -/
theorem next_m (M : ℝ) (hm : s.2.1 (ix2 p (0 : Fin 1)) = ((M : ℝ) : EReal)) :
    (scrStep x0 x1 s).2.1 (ix2 p (0 : Fin 1)) = ((max8R M (mcR qr Mc) : ℝ) : EReal) := by
  rw [step_m]
  exact mNew_next x0 x1 s p qr Mc hq hM M hm

theorem next_l (M L : ℝ) (hm : s.2.1 (ix2 p (0 : Fin 1)) = ((M : ℝ) : EReal))
    (hl : s.2.2 (ix2 p (0 : Fin 1)) = ((L : ℝ) : EReal)) :
    (scrStep x0 x1 s).2.2 (ix2 p (0 : Fin 1))
      = ((L * Real.exp (M - max8R M (mcR qr Mc))
          + ∑ c, lcR qr Mc c * Real.exp (mcR qr Mc c - max8R M (mcR qr Mc)) : ℝ) : EReal) := by
  rw [step_l, mNew_next x0 x1 s p qr Mc hq hM M hm, hm, hl, cl_fun x0 x1 p qr Mc hq hM]
  exact merge_next _ _ _ _ _

theorem next_a (f : Fin 128) (M A : ℝ) (hm : s.2.1 (ix2 p (0 : Fin 1)) = ((M : ℝ) : EReal))
    (ha : s.1 (ix2 p f) = ((A : ℝ) : EReal)) :
    (scrStep x0 x1 s).1 (ix2 p f)
      = ((A * Real.exp (M - max8R M (mcR qr Mc))
          + ∑ c, acR qr Mc f c * Real.exp (mcR qr Mc c - max8R M (mcR qr Mc)) : ℝ) : EReal) := by
  rw [step_a, mNew_next x0 x1 s p qr Mc hq hM M hm, hm, ha, ca_fun x0 x1 p qr Mc hq hM]
  exact merge_next _ _ _ _ _

end Real

/-! ## What a row block starts from, and what it ends with -/

theorem init_a (i : S512x128.Idx) : (scrInit (F := Ideal)).1 i = 0 := by
  show k1_pay5 (F := Ideal) i = 0
  unfold k1_pay5
  rw [shapeCast_self]
  exact Ideal.ofBits_zero_f32

theorem init_m (i : S512x1.Idx) : (scrInit (F := Ideal)).2.1 i = ⊥ := by
  show k1_pay6 (F := Ideal) i = ⊥
  unfold k1_pay6
  rw [shapeCast_self]
  exact ofBits_neg_inf

theorem init_l (i : S512x1.Idx) : (scrInit (F := Ideal)).2.2 i = 0 := by
  show k1_pay7 (F := Ideal) i = 0
  unfold k1_pay7
  rw [shapeCast_self]
  exact Ideal.ofBits_zero_f32

/-- The greatest weight: one over the mass. -/
theorem out_conf (s : Scr Ideal) (p : Fin 512) (L : ℝ) (hL : L ≠ 0)
    (hl : s.2.2 (ix2 p (0 : Fin 1)) = ((L : ℝ) : EReal)) :
    (outStep s).2 (ix2 p (0 : Fin 1)) = ((1 / L : ℝ) : EReal) := by
  show k1_pay3 s.2.2 (ix2 p (0 : Fin 1)) = _
  unfold k1_pay3
  show Ideal.div (Ideal.ofBits .f32 0x3F800000#32) (s.2.2 (ix2 p (0 : Fin 1))) = _
  rw [ofBits_one, hl, div_one_coe hL]

/-- The read: the weighted sum over the mass. -/
theorem out_ret (s : Scr Ideal) (p : Fin 512) (f : Fin 128) (A L : ℝ) (hL : L ≠ 0)
    (ha : s.1 (ix2 p f) = ((A : ℝ) : EReal)) (hl : s.2.2 (ix2 p (0 : Fin 1)) = ((L : ℝ) : EReal)) :
    (outStep s).1 (ix2 p f) = ((A * (1 / L) : ℝ) : EReal) := by
  show k1_pay4 s.2.2 s.1 (ix2 p f) = _
  unfold k1_pay4
  show s.1 (ix2 p f) * broadcastTo S512x128 (k1_pay3 s.2.2) broadcasts_S512x1_S512x128 (ix2 p f) = _
  rw [bcast_row128, ha]
  have h := out_conf s p L hL hl
  rw [show (outStep s).2 = k1_pay3 s.2.2 from rfl] at h
  rw [h, ← EReal.coe_mul]

end Cert.KernelIdeal.Hand

end
-- ==== Proof.KI.Val1.lean ====
/-
  The two results of the attention read as arrays: after the region, row `b`, feature `f` of the first output
  array is the softmax-weighted read of the memory, `wsum / mass` over all 32768 slots at the greatest score,
  and row `b` of the second is the greatest softmax weight, `1 / mass`. Row block `i` of either array is
  written back after grid point `2 i + 1`, when both key blocks have been merged into the carried triple.
-/
import proofs.«155079_g79826262164167_feedfinal_366_31_alg».proof.Proof.KI.Region1
import proofs.«155079_g79826262164167_feedfinal_366_31_alg».proof.Proof.KI.Val1Step
import proofs.«155079_g79826262164167_feedfinal_366_31_alg».proof.Proof.Spec
import Idealize.ShloMosaic.Lib.Pipeline.Value

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

open LibOnlineSoftmax

/-! ## The windows' block indices over the grid -/

/-- Point `t` is row block `t / 2`, key block `t % 2`; the outputs' row block is `t / 2`. -/
theorem idx_facts1 : ∀ t : Fin cfg1.N, win1_0.index t (0 : Fin 2) = t.val / 2 ∧ win1_0.index t (1 : Fin 2) = 0
    ∧ win1_1.index t (0 : Fin 2) = t.val % 2 ∧ win1_1.index t (1 : Fin 2) = 0
    ∧ win1_2.index t (0 : Fin 2) = t.val / 2 ∧ win1_2.index t (1 : Fin 2) = 0
    ∧ win1_3.index t (0 : Fin 2) = t.val / 2 ∧ win1_3.index t (1 : Fin 2) = 0 :=
  (by decide +kernel : ∀ t : Fin grid1.N, _)

section Final
variable (V : (c : Dev nD) → (b : Ref sig .tc) → Buf (Elt Ideal) ((c : Thread nD τ).loc b)) (c : Dev nD)

/-- The query block at point `t` is rows `512 (t / 2)` … of the query array. -/
theorem iblk_q (t : Fin cfg1.N) (y : S512x128.Idx) (k : S4096x128.Idx)
    (hk0 : (k 0).val = 512 * (t.val / 2) + (y 0).val) (hk1 : (k 1).val = (y 1).val) :
    (iblk1 V c 0 t : Vec Ideal S512x128 .f32) y = (V c main_arg3 : S4096x128.Idx → EReal) k := by
  obtain ⟨e0, e1, -⟩ := idx_facts1 t
  unfold iblk1
  rw [View.read_apply]
  show V c main_arg3 _ = V c main_arg3 _
  congr 1
  funext a
  apply Fin.ext
  match a with
  | ⟨0, _⟩ => show win1_0.index t 0 * 512 + 1 * (y 0).val = (k 0).val; rw [e0, hk0]; omega
  | ⟨1, _⟩ => show win1_0.index t 1 * 128 + 1 * (y 1).val = (k 1).val; rw [e1, hk1]; omega

/-- The memory block at point `t` is rows `16384 (t % 2)` … of the updated memory. -/
theorem iblk_mem (t : Fin cfg1.N) (y : S16384x128.Idx) (k : S32768x128.Idx)
    (hk0 : (k 0).val = 16384 * (t.val % 2) + (y 0).val) (hk1 : (k 1).val = (y 1).val) :
    (iblk1 V c 1 t : Vec Ideal S16384x128 .f32) y = (V c main_v0 : S32768x128.Idx → EReal) k := by
  obtain ⟨-, -, e0, e1, -⟩ := idx_facts1 t
  unfold iblk1
  rw [View.read_apply]
  show V c main_v0 _ = V c main_v0 _
  congr 1
  funext a
  apply Fin.ext
  match a with
  | ⟨0, _⟩ => show win1_1.index t 0 * 16384 + 1 * (y 0).val = (k 0).val; rw [e0, hk0]; omega
  | ⟨1, _⟩ => show win1_1.index t 1 * 128 + 1 * (y 1).val = (k 1).val; rw [e1, hk1]; omega

variable (q : Fin 4096 → Fin 128 → ℝ) (M : Fin 32768 → Fin 128 → ℝ)
  (hq : ∀ b f, (V c main_arg3 : S4096x128.Idx → EReal) (ix2 b f) = ((q b f : ℝ) : EReal))
  (hM : ∀ m f, (V c main_v0 : S32768x128.Idx → EReal) (ix2 m f) = ((M m f : ℝ) : EReal))

/-- The rows of key block `j`'s chunk `c'`, as reals. -/
def McOf (j : Fin 2) (c' : Fin 8) (r : Fin 2048) (f : Fin 128) : ℝ := M (colOf (kk j c') r) f

include hq in
theorem hq_blk (t : Fin cfg1.N) (p : Fin 512) (b : Fin 4096) (hb : b.val = 512 * (t.val / 2) + p.val) (f : Fin 128) :
    (iblk1 V c 0 t : Vec Ideal S512x128 .f32) (ix2 p f) = ((q b f : ℝ) : EReal) :=
  (iblk_q V c t (ix2 p f) (ix2 b f) hb rfl).trans (hq b f)

include hM in
theorem hM_blk (t : Fin cfg1.N) (j : Fin 2) (hj : j.val = t.val % 2) (c' : Fin 8) (r : Fin 2048) (f : Fin 128) :
    chOf (iblk1 V c 1 t) c' (ix2 r f) = ((McOf M j c' r f : ℝ) : EReal) := by
  rw [chOf_apply]
  refine (iblk_mem V c t _ (ix2 (colOf (kk j c') r) f) ?_ rfl).trans (hM _ f)
  show (colOf (kk j c') r).val = 16384 * (t.val % 2) + (2048 * c'.val + r.val)
  rw [colOf_val, kk_val, hj]
  omega

/-! ## The carried triple after each point, row by row -/

theorem mcR_eq (b : Fin 4096) (j : Fin 2) :
    mcR (q b) (McOf M j) = fun c' => cmaxR (Cert.Spec.score q M b) (kk j c') := rfl

theorem lcR_eq (b : Fin 4096) (j : Fin 2) :
    lcR (q b) (McOf M j)
      = fun c' => mass (Cert.Spec.score q M b) (chunk (kk j c')) (cmaxR (Cert.Spec.score q M b) (kk j c')) :=
  funext fun c' => (mass_chunk (Cert.Spec.score q M b) (kk j c') _).symm

theorem acR_eq (b : Fin 4096) (f : Fin 128) (j : Fin 2) :
    acR (q b) (McOf M j) f
      = fun c' => wsum (Cert.Spec.score q M b) (fun m => M m f) (chunk (kk j c')) (cmaxR (Cert.Spec.score q M b) (kk j c')) :=
  funext fun c' => (wsum_chunk (Cert.Spec.score q M b) (fun m => M m f) (kk j c') _).symm

include hq hM in
/-- After the first point of a row block: key block 0 merged, from nothing. -/
theorem even_state (t : Fin cfg1.N) (ht : t.val % 2 = 0) (p : Fin 512) (b : Fin 4096)
    (hb : b.val = 512 * (t.val / 2) + p.val) :
    (scrAt1 V c t).2.1 (ix2 p (0 : Fin 1)) = ((M1 (Cert.Spec.score q M b) : ℝ) : EReal)
    ∧ (scrAt1 V c t).2.2 (ix2 p (0 : Fin 1))
        = ((mass (Cert.Spec.score q M b) (blockCols 0) (M1 (Cert.Spec.score q M b)) : ℝ) : EReal)
    ∧ ∀ f, (scrAt1 V c t).1 (ix2 p f)
        = ((wsum (Cert.Spec.score q M b) (fun m => M m f) (blockCols 0) (M1 (Cert.Spec.score q M b)) : ℝ) : EReal) := by
  rw [scrAt1_even V c t ht]
  have hq' := hq_blk V c q hq t p b hb
  have hM' := hM_blk V c M hM t 0 (by rw [ht]; rfl)
  refine ⟨?_, ?_, fun f => ?_⟩
  · rw [first_m _ _ _ p (q b) (McOf M 0) hq' hM' (init_m _), mcR_eq]
    rfl
  · rw [first_l _ _ _ p (q b) (McOf M 0) hq' hM' (init_m _) (init_l _), lcR_eq, mcR_eq]
    exact congrArg _ (L1_eq (Cert.Spec.score q M b) _ _)
  · rw [first_a _ _ _ p (q b) (McOf M 0) hq' hM' f (init_m _) (init_a _), acR_eq, mcR_eq]
    exact congrArg _ (A1_eq (Cert.Spec.score q M b) (fun m => M m f) _ _)

include hq hM in
/-- After the second point: both key blocks merged — every slot, at the greatest score of all. -/
theorem odd_state (t : Fin cfg1.N) (ht : t.val % 2 = 1) (p : Fin 512) (b : Fin 4096)
    (hb : b.val = 512 * (t.val / 2) + p.val) :
    (scrAt1 V c t).2.2 (ix2 p (0 : Fin 1))
        = ((mass (Cert.Spec.score q M b) Finset.univ (Cert.Spec.smax q M b) : ℝ) : EReal)
    ∧ ∀ f, (scrAt1 V c t).1 (ix2 p f)
        = ((wsum (Cert.Spec.score q M b) (fun m => M m f) Finset.univ (Cert.Spec.smax q M b) : ℝ) : EReal) := by
  rw [scrAt1_odd V c t ht]
  have hq' := hq_blk V c q hq t p b hb
  have hM' := hM_blk V c M hM t 1 (by rw [ht]; rfl)
  obtain ⟨hm, hl, ha⟩ := even_state V c q M hq hM ⟨t.val - 1, Nat.lt_of_le_of_lt (Nat.sub_le _ _) t.isLt⟩
    (by show (t.val - 1) % 2 = 0; omega) p b (by show b.val = 512 * ((t.val - 1) / 2) + p.val; omega)
  have hsup : Cert.Spec.smax q M b = M2 (Cert.Spec.score q M b) := (M2_eq_sup (Cert.Spec.score q M b)).symm
  rw [hsup]
  refine ⟨?_, fun f => ?_⟩
  · rw [next_l _ _ _ p (q b) (McOf M 1) hq' hM' _ _ hm hl, lcR_eq, mcR_eq]
    exact congrArg _ (L2_eq (Cert.Spec.score q M b) _ _ _)
  · rw [next_a _ _ _ p (q b) (McOf M 1) hq' hM' f _ _ hm (ha f), acR_eq, mcR_eq]
    exact congrArg _ (A2_eq (Cert.Spec.score q M b) (fun m => M m f) _ _ _)

/-! ## What an odd point writes back -/

include hq hM in
theorem point_ret (t : Fin cfg1.N) (ht : t.val % 2 = 1) (y : S512x128.Idx) (i : S4096x128.Idx)
    (h0 : (i 0).val = 512 * (t.val / 2) + (y 0).val) (h1 : (i 1).val = (y 1).val) :
    (outsAt1 V c t).1 y = ((Cert.Spec.ret q M (i 0) (i 1) : ℝ) : EReal) := by
  obtain ⟨p, f, rfl⟩ : ∃ (p : Fin 512) (f : Fin 128), y = ix2 p f := ⟨y 0, y 1, eq_ix2 y⟩
  have h0' : (i 0).val = 512 * (t.val / 2) + p.val := h0
  have hf : i 1 = f := Fin.ext h1
  obtain ⟨hl, ha⟩ := odd_state V c q M hq hM t ht p (i 0) h0'
  have hL : mass (Cert.Spec.score q M (i 0)) Finset.univ (Cert.Spec.smax q M (i 0)) ≠ 0 :=
    (Cert.Spec.mass_pos q M (i 0)).ne'
  unfold outsAt1
  rw [out_ret (scrAt1 V c t) p f _ _ hL (ha f) hl, hf]
  rfl

include hq hM in
theorem point_conf (t : Fin cfg1.N) (ht : t.val % 2 = 1) (y : S512x1.Idx) (i : S4096x1.Idx)
    (h0 : (i 0).val = 512 * (t.val / 2) + (y 0).val) :
    (outsAt1 V c t).2 y = ((Cert.Spec.conf q M (i 0) : ℝ) : EReal) := by
  obtain ⟨p, z, rfl⟩ : ∃ (p : Fin 512) (z : Fin 1), y = ix2 p z := ⟨y 0, y 1, eq_ix2 y⟩
  obtain rfl : z = 0 := Subsingleton.elim _ _
  have h0' : (i 0).val = 512 * (t.val / 2) + p.val := h0
  obtain ⟨hl, -⟩ := odd_state V c q M hq hM t ht p (i 0) h0'
  have hL : mass (Cert.Spec.score q M (i 0)) Finset.univ (Cert.Spec.smax q M (i 0)) ≠ 0 :=
    (Cert.Spec.mass_pos q M (i 0)).ne'
  unfold outsAt1
  rw [out_conf (scrAt1 V c t) p _ hL hl]
  rfl

/-! ## From blocks to the arrays -/

/-- The read, as one function of the array index. -/
def Gret : S4096x128.Idx → EReal := fun i => ((Cert.Spec.ret q M (i 0) (i 1) : ℝ) : EReal)

/-- The greatest weight, as one function of the array index. -/
def Gconf : S4096x1.Idx → EReal := fun i => ((Cert.Spec.conf q M (i 0) : ℝ) : EReal)

include hq hM in
theorem flushed_ret (t : Fin cfg1.N) (hf : (cfg1.win 2).flush t = true) :
    (dat1 (F := Ideal) V c).flushed 2 t = ((cfg1.win 2).blk t).view.read (Elt Ideal) (Gret q M) := by
  have ht : t.val % 2 = 1 := (flush1_2 t).mp hf
  obtain ⟨-, -, -, -, e0, e1, -⟩ := idx_facts1 t
  show (cfg1.win 2).cut (grid1.coords t) ((dat1 (F := Ideal) V c).after 2 t) = _
  rw [after1_2 V c t ht]
  funext j
  show (outsAt1 V c t).1 j = Gret q M (((cfg1.win 2).blk t).view.emb j)
  refine point_ret V c q M hq hM t ht j _ ?_ ?_
  · show win1_2.index t (0 : Fin 2) * 512 + 1 * (j 0).val = 512 * (t.val / 2) + (j 0).val
    rw [e0]; omega
  · show win1_2.index t (1 : Fin 2) * 128 + 1 * (j 1).val = (j 1).val
    rw [e1]; omega

include hq hM in
theorem flushed_conf (t : Fin cfg1.N) (hf : (cfg1.win 3).flush t = true) :
    (dat1 (F := Ideal) V c).flushed 3 t = ((cfg1.win 3).blk t).view.read (Elt Ideal) (Gconf q M) := by
  have ht : t.val % 2 = 1 := (flush1_3 t).mp hf
  obtain ⟨-, -, -, -, -, -, e0, e1⟩ := idx_facts1 t
  show (cfg1.win 3).cut (grid1.coords t) ((dat1 (F := Ideal) V c).after 3 t) = _
  rw [after1_3 V c t ht]
  funext j
  show (outsAt1 V c t).2 j = Gconf q M (((cfg1.win 3).blk t).view.emb j)
  refine point_conf V c q M hq hM t ht j _ ?_
  show win1_3.index t (0 : Fin 2) * 512 + 1 * (j 0).val = 512 * (t.val / 2) + (j 0).val
  rw [e0]; omega

/-- Row `r` of either output is covered by point `2 (r / 512) + 1`. -/
theorem cover_ret (i : S4096x128.Idx) :
    ∃ t : Fin cfg1.N, (cfg1.win 2).flush t = true ∧ i ∈ ((cfg1.win 2).blk t).view.set := by
  have hi0 : (i 0).val < 4096 := (i 0).isLt
  have hi1 : (i 1).val < 128 := (i 1).isLt
  have hN : cfg1.N = 16 := N_1
  obtain ⟨t, htv⟩ : ∃ t : Fin cfg1.N, t.val = 2 * ((i 0).val / 512) + 1 := ⟨⟨2 * ((i 0).val / 512) + 1, by rw [hN]; omega⟩, rfl⟩
  refine ⟨t, (flush1_2 t).mpr (by omega), ?_⟩
  obtain ⟨-, -, -, -, e0, e1, -⟩ := idx_facts1 t
  show i ∈ ((View.whole main_v1_0).slice (win1_2.rect t)).set
  rw [View.set_slice_whole, Rect.mem_set_unit]
  intro a
  match a with
  | ⟨0, _⟩ =>
    show win1_2.index t (0 : Fin 2) * 512 ≤ (i 0).val ∧ (i 0).val < win1_2.index t (0 : Fin 2) * 512 + 512
    rw [e0]; omega
  | ⟨1, _⟩ =>
    show win1_2.index t (1 : Fin 2) * 128 ≤ (i 1).val ∧ (i 1).val < win1_2.index t (1 : Fin 2) * 128 + 128
    rw [e1]; omega

theorem cover_conf (i : S4096x1.Idx) :
    ∃ t : Fin cfg1.N, (cfg1.win 3).flush t = true ∧ i ∈ ((cfg1.win 3).blk t).view.set := by
  have hi0 : (i 0).val < 4096 := (i 0).isLt
  have hi1 : (i 1).val < 1 := (i 1).isLt
  have hN : cfg1.N = 16 := N_1
  obtain ⟨t, htv⟩ : ∃ t : Fin cfg1.N, t.val = 2 * ((i 0).val / 512) + 1 := ⟨⟨2 * ((i 0).val / 512) + 1, by rw [hN]; omega⟩, rfl⟩
  refine ⟨t, (flush1_3 t).mpr (by omega), ?_⟩
  obtain ⟨-, -, -, -, -, -, e0, e1⟩ := idx_facts1 t
  show i ∈ ((View.whole main_v1_1).slice (win1_3.rect t)).set
  rw [View.set_slice_whole, Rect.mem_set_unit]
  intro a
  match a with
  | ⟨0, _⟩ =>
    show win1_3.index t (0 : Fin 2) * 512 ≤ (i 0).val ∧ (i 0).val < win1_3.index t (0 : Fin 2) * 512 + 512
    rw [e0]; omega
  | ⟨1, _⟩ =>
    show win1_3.index t (1 : Fin 2) * 1 ≤ (i 1).val ∧ (i 1).val < win1_3.index t (1 : Fin 2) * 1 + 1
    rw [e1]; omega

end Final

theorem final1_ret (V : (c : Dev nD) → (b : Ref sig .tc) → Buf (Elt Ideal) ((c : Thread nD τ).loc b)) (c : Dev nD)
    (q : Fin 4096 → Fin 128 → ℝ) (M : Fin 32768 → Fin 128 → ℝ)
    (hq : ∀ b f, (V c main_arg3 : S4096x128.Idx → EReal) (ix2 b f) = ((q b f : ℝ) : EReal))
    (hM : ∀ m f, (V c main_v0 : S32768x128.Idx → EReal) (ix2 m f) = ((M m f : ℝ) : EReal)) (b : Fin 4096) (f : Fin 128) :
    ((dat1 (F := Ideal) V c).arrAt 2 cfg1.N : S4096x128.Idx → EReal) (ix2 b f) = ((Cert.Spec.ret q M b f : ℝ) : EReal) := by
  have h := (dat1 (F := Ideal) V c).arrAt_eq_of_cover 2 (Gret q M) (fun t hf => flushed_ret V c q M hq hM t hf) cover_ret
  rw [h]
  rfl

theorem final1_conf (V : (c : Dev nD) → (b : Ref sig .tc) → Buf (Elt Ideal) ((c : Thread nD τ).loc b)) (c : Dev nD)
    (q : Fin 4096 → Fin 128 → ℝ) (M : Fin 32768 → Fin 128 → ℝ)
    (hq : ∀ b f, (V c main_arg3 : S4096x128.Idx → EReal) (ix2 b f) = ((q b f : ℝ) : EReal))
    (hM : ∀ m f, (V c main_v0 : S32768x128.Idx → EReal) (ix2 m f) = ((M m f : ℝ) : EReal)) (b : Fin 4096) :
    ((dat1 (F := Ideal) V c).arrAt 3 cfg1.N : S4096x1.Idx → EReal) (ix2 b (0 : Fin 1)) = ((Cert.Spec.conf q M b : ℝ) : EReal) := by
  have h := (dat1 (F := Ideal) V c).arrAt_eq_of_cover 3 (Gconf q M) (fun t hf => flushed_conf V c q M hq hM t hf) cover_conf
  rw [h]
  rfl

end Cert.KernelIdeal.Hand

end
-- ==== Proof.RefIsSpec.lean ====
/-
  The reference program read operation by operation over the extended reals: when its four argument arrays hold
  (coerced) reals and every row of the write weights has a nonzero sum, its three results are the coerced real
  functions of `Cert.Spec`: the updated memory `memNew`, the attention read `ret` over that memory, and the greatest
  attention weight `conf`.
-/
import proofs.«155079_g79826262164167_feedfinal_366_31_alg».proof.Proof.Gen.ReferenceIdeal.Read
import proofs.«155079_g79826262164167_feedfinal_366_31_alg».proof.Proof.Spec
import proofs.«155079_g79826262164167_feedfinal_366_31_alg».proof.Proof.LibOnlineSoftmax
import proofs.«155079_g79826262164167_feedfinal_366_31_alg».proof.Proof.LibDivSwap

noncomputable section

namespace Cert.RefSpec

open Idealize.ShloMosaic Idealize.ShloMosaic.ValueIdx Cert.ReferenceIdeal Cert.ReferenceIdeal.Read LibOnlineSoftmax

variable (A0 : (⟨S32768x128, .f32⟩ : BufTy).Contents (Elt Ideal)) (A1 : (⟨S4096x128, .f32⟩ : BufTy).Contents (Elt Ideal))
  (A2 : (⟨S4096x32768, .f32⟩ : BufTy).Contents (Elt Ideal)) (A3 : (⟨S4096x128, .f32⟩ : BufTy).Contents (Elt Ideal))
  (w : Fin 4096 → Fin 32768 → ℝ) (x : Fin 4096 → Fin 128 → ℝ) (mem : Fin 32768 → Fin 128 → ℝ) (q : Fin 4096 → Fin 128 → ℝ)

/-! ## Indices of the write side, by coordinates -/

theorem idx_v0 (b : Fin 4096) (k : Fin 32768) : idx_main_v0 (ix1 b) k = ix2 b k :=
  funext fun a => Fin.ext (by match a with | ⟨0, _⟩ => rfl | ⟨1, _⟩ => rfl)

theorem idx_v2_v1 (b : Fin 4096) (m : Fin 32768) : idx_main_v1 (idx_main_v2 (ix2 b m)) = ix1 b :=
  funext fun a => Fin.ext (by match a with | ⟨0, _⟩ => rfl)

theorem lidx_v4 (m : Fin 32768) (f : Fin 128) (k : Fin 4096) : lidx_main_v4 (ix2 m f) k = ix2 k m :=
  funext fun a => Fin.ext (by match a with | ⟨0, _⟩ => rfl | ⟨1, _⟩ => rfl)

theorem ridx_v4 (m : Fin 32768) (f : Fin 128) (k : Fin 4096) : ridx_main_v4 (ix2 m f) k = ix2 k f :=
  funext fun a => Fin.ext (by match a with | ⟨0, _⟩ => rfl | ⟨1, _⟩ => rfl)

/-! ## The updated memory -/

/-- The sum of a row of weights, from the initial value zero. -/
theorem rowsum (hw : ∀ b k, A2 (ix2 b k) = ((w b k : ℝ) : EReal)) (b : Fin 4096) :
    val_main_v0 (F := Ideal) A2 (ix1 b) = ((∑ k : Fin 32768, w b k : ℝ) : EReal) := by
  rw [val_main_v0_apply, val_main_cst_apply, Ideal.ofBits_def, Ideal.ofBits_zero_f32, zero_add, Cert.Spec.coe_sum]
  exact Finset.sum_congr rfl fun k _ => by rw [idx_v0, hw]

/-- A weight divided by its row's sum. -/
theorem normalised (hw : ∀ b k, A2 (ix2 b k) = ((w b k : ℝ) : EReal)) (b : Fin 4096) (m : Fin 32768) :
    val_main_v3 (F := Ideal) A2 (ix2 b m)
      = Ideal.div ((w b m : ℝ) : EReal) ((∑ k : Fin 32768, w b k : ℝ) : EReal) := by
  rw [val_main_v3_apply, val_main_v2_apply, val_main_v1_apply, idx_v2_v1, rowsum A2 w hw, hw, Ideal.hostDivf_def]

theorem ref_memNew (hs : ∀ b, ∑ k : Fin 32768, w b k ≠ 0)
    (hw : ∀ b k, A2 (ix2 b k) = ((w b k : ℝ) : EReal)) (hx : ∀ b f, A1 (ix2 b f) = ((x b f : ℝ) : EReal))
    (hmem : ∀ m f, A0 (ix2 m f) = ((mem m f : ℝ) : EReal)) (m : Fin 32768) (f : Fin 128) :
    val_main_v5 (F := Ideal) A0 A1 A2 (ix2 m f) = ((Cert.Spec.memNew w x mem m f : ℝ) : EReal) := by
  rw [val_main_v5_apply, val_main_v4_apply, Ideal.addf_def, hmem]
  unfold Cert.Spec.memNew
  rw [EReal.coe_add, Cert.Spec.coe_sum]
  refine congrArg (_ + ·) (Finset.sum_congr rfl fun b _ => ?_)
  rw [lidx_v4, ridx_v4, normalised A2 w hw, hx, LibDivSwap.div_mul_eq_mul_div _ _ _ (hs b), Ideal.div_coe (hs b),
    ← EReal.coe_mul, ← EReal.coe_mul, mul_one_div]

/-! ## Indices of the read side, by coordinates -/

theorem lidx_v7 (b : Fin 4096) (m : Fin 32768) (k : Fin 128) : lidx_main_v7 (ix2 b m) k = ix2 b k :=
  funext fun a => Fin.ext (by match a with | ⟨0, _⟩ => rfl | ⟨1, _⟩ => rfl)

theorem ridx_v7_v6 (b : Fin 4096) (m : Fin 32768) (k : Fin 128) : idx_main_v6 (ridx_main_v7 (ix2 b m) k) = ix2 m k :=
  funext fun a => Fin.ext (by match a with | ⟨0, _⟩ => rfl | ⟨1, _⟩ => rfl)

theorem idx_v12_v11 (b : Fin 4096) (m : Fin 32768) : idx_main_v11 (idx_main_v12 (ix2 b m)) = ix1 b :=
  funext fun a => Fin.ext (by match a with | ⟨0, _⟩ => rfl)

theorem idx_v15 (b : Fin 4096) (k : Fin 32768) : idx_main_v15 (ix1 b) k = ix2 b k :=
  funext fun a => Fin.ext (by match a with | ⟨0, _⟩ => rfl | ⟨1, _⟩ => rfl)

theorem idx_v17_v16 (b : Fin 4096) (m : Fin 32768) : idx_main_v16 (idx_main_v17 (ix2 b m)) = ix1 b :=
  funext fun a => Fin.ext (by match a with | ⟨0, _⟩ => rfl)

theorem lidx_v19 (b : Fin 4096) (f : Fin 128) (k : Fin 32768) : lidx_main_v19 (ix2 b f) k = ix2 b k :=
  funext fun a => Fin.ext (by match a with | ⟨0, _⟩ => rfl | ⟨1, _⟩ => rfl)

theorem ridx_v19 (b : Fin 4096) (f : Fin 128) (k : Fin 32768) : ridx_main_v19 (ix2 b f) k = ix2 k f :=
  funext fun a => Fin.ext (by match a with | ⟨0, _⟩ => rfl | ⟨1, _⟩ => rfl)

/-! ## A row maximum from −∞ -/

/-- The bit pattern of −∞ is the least extended real. -/
theorem ofBits_neg_inf : Ideal.ofBits .f32 0xFF800000#32 = ⊥ := by simp [Ideal.ofBits, Ideal.ieee]

/-- Folding `max` from `⊥` over coerced reals gives the coercion of their greatest: it is above each of them, and
    it is one of them. -/
theorem fold_max_coe {n : Nat} (hn : (Finset.univ : Finset (Fin n)).Nonempty) (g : Fin n → ℝ) :
    (Finset.univ : Finset (Fin n)).fold (max : EReal → EReal → EReal) ⊥ (fun k => ((g k : ℝ) : EReal))
      = ((Finset.univ.sup' hn g : ℝ) : EReal) := by
  have e : (Finset.univ : Finset (Fin n)).fold (max : EReal → EReal → EReal) ⊥ (fun k => ((g k : ℝ) : EReal))
      = Finset.univ.sup (fun k => ((g k : ℝ) : EReal)) := rfl
  rw [e]
  apply le_antisymm
  · exact Finset.sup_le fun k _ => EReal.coe_le_coe_iff.2 (Finset.le_sup' g (Finset.mem_univ k))
  · obtain ⟨k, -, hk⟩ := Finset.exists_mem_eq_sup' hn g
    rw [hk]
    exact Finset.le_sup (f := fun k => ((g k : ℝ) : EReal)) (Finset.mem_univ k)

/-- Row `b` with column `k` put back is `(b, k)`. -/
theorem lift_row (h : S4096x32768.Reduces [1] S4096) (b : Fin 4096) (k : Fin (S4096x32768.size 1)) :
    h.lift (ix1 b) k = ix2 b (⟨k.val, k.isLt⟩ : Fin 32768) := by
  funext c; apply Fin.ext
  fin_cases c <;> rfl

/-- The reference's row maximum (a reduce with a maximum body from −∞ over the second axis) of an array whose row `b`
    holds the coerced reals `g` is the coercion of the greatest of `g`. -/
theorem rowmax (X : (⟨S4096x32768, .f32⟩ : BufTy).Contents (Elt Ideal)) (init : (⟨S_, .f32⟩ : BufTy).Contents (Elt Ideal))
    (hinit : init (Shape.Idx.first Gen.h_S_) = ⊥) (b : Fin 4096) (g : Fin 32768 → ℝ)
    (hX : ∀ k, X (ix2 b k) = ((g k : ℝ) : EReal)) :
    Host.reduce (FloatOps.maximumf (F := Ideal) (φ := .f32)) X init Gen.reducesTo_S4096x32768_S4096_d1 Gen.h_S_ (ix1 b)
      = ((Finset.univ.sup' ⟨(0 : Fin 32768), Finset.mem_univ _⟩ g : ℝ) : EReal) := by
  have h : S4096x32768.Reduces [1] S4096 := by decide
  rw [Host.reduce_eq_fold_single (FloatOps.maximumf (F := Ideal) (φ := .f32)) X init Gen.reducesTo_S4096x32768_S4096_d1 h Gen.h_S_, hinit]
  have hf : (X ∘ h.lift (ix1 b)) = fun k : Fin 32768 => ((g k : ℝ) : EReal) :=
    funext fun k => by show X (h.lift (ix1 b) k) = _; rw [lift_row, hX]; rfl
  rw [hf]
  exact fold_max_coe ⟨(0 : Fin 32768), Finset.mem_univ _⟩ g

/-! ## The attention read over the updated memory -/

section Read

variable (hs : ∀ b, ∑ k : Fin 32768, w b k ≠ 0)
  (hw : ∀ b k, A2 (ix2 b k) = ((w b k : ℝ) : EReal)) (hx : ∀ b f, A1 (ix2 b f) = ((x b f : ℝ) : EReal))
  (hmem : ∀ m f, A0 (ix2 m f) = ((mem m f : ℝ) : EReal)) (hq : ∀ b f, A3 (ix2 b f) = ((q b f : ℝ) : EReal))

include hs hw hx hmem hq

/-- A score: the query row against a slot of the updated memory (the transposed memory read back at `(m, k)`). -/
theorem ref_score (b : Fin 4096) (m : Fin 32768) :
    val_main_v7 (F := Ideal) A0 A1 A2 A3 (ix2 b m)
      = ((Cert.Spec.score q (Cert.Spec.memNew w x mem) b m : ℝ) : EReal) := by
  rw [val_main_v7_apply]
  unfold Cert.Spec.score
  rw [Cert.Spec.coe_sum]
  refine Finset.sum_congr rfl fun k _ => ?_
  rw [val_main_v6_apply, lidx_v7, ridx_v7_v6, hq, ref_memNew A0 A1 A2 w x mem hs hw hx hmem, ← EReal.coe_mul]

/-- The row's greatest score; the further maximum with −∞ changes nothing. -/
theorem ref_smax (b : Fin 4096) :
    val_main_v10 (F := Ideal) A0 A1 A2 A3 (ix1 b) = ((Cert.Spec.smax q (Cert.Spec.memNew w x mem) b : ℝ) : EReal) := by
  rw [val_main_v10_apply, val_main_v9_apply, val_main_cst_1_apply, Ideal.ofBits_def, ofBits_neg_inf, Ideal.maximumf_def,
    max_eq_right bot_le]
  unfold val_main_v8 Cert.Spec.smax
  exact rowmax _ _ (by rw [val_main_cst_0_apply, Ideal.ofBits_def, ofBits_neg_inf]) b _
    (fun k => ref_score A0 A1 A2 A3 w x mem q hs hw hx hmem hq b k)

/-- The weight of a slot: the exponential of its score less the row's greatest. -/
theorem ref_expw (b : Fin 4096) (m : Fin 32768) :
    val_main_v14 (F := Ideal) A0 A1 A2 A3 (ix2 b m)
      = ((Real.exp (Cert.Spec.score q (Cert.Spec.memNew w x mem) b m - Cert.Spec.smax q (Cert.Spec.memNew w x mem) b) : ℝ) : EReal) := by
  rw [val_main_v14_apply, val_main_v13_apply, val_main_v12_apply, val_main_v11_apply, idx_v12_v11,
    ref_smax A0 A1 A2 A3 w x mem q hs hw hx hmem hq, ref_score A0 A1 A2 A3 w x mem q hs hw hx hmem hq, Ideal.subf_def,
    Ideal.hostUnary_exp_def, ← EReal.coe_sub, Ideal.exp_coe]

/-- The row's sum of weights, from the initial value zero. -/
theorem ref_mass (b : Fin 4096) :
    val_main_v15 (F := Ideal) A0 A1 A2 A3 (ix1 b)
      = ((mass (Cert.Spec.score q (Cert.Spec.memNew w x mem) b) Finset.univ (Cert.Spec.smax q (Cert.Spec.memNew w x mem) b) : ℝ) : EReal) := by
  rw [val_main_v15_apply, val_main_cst_2_apply, Ideal.ofBits_def, Ideal.ofBits_zero_f32, zero_add]
  unfold mass
  rw [Cert.Spec.coe_sum]
  exact Finset.sum_congr rfl fun k _ => by rw [idx_v15, ref_expw A0 A1 A2 A3 w x mem q hs hw hx hmem hq]

/-- The normalised weight of a slot; the row's sum is a positive real, so the quotient is the reals'. -/
theorem ref_softmax (b : Fin 4096) (m : Fin 32768) :
    val_main_v18 (F := Ideal) A0 A1 A2 A3 (ix2 b m)
      = ((Real.exp (Cert.Spec.score q (Cert.Spec.memNew w x mem) b m - Cert.Spec.smax q (Cert.Spec.memNew w x mem) b)
          / mass (Cert.Spec.score q (Cert.Spec.memNew w x mem) b) Finset.univ (Cert.Spec.smax q (Cert.Spec.memNew w x mem) b) : ℝ) : EReal) := by
  rw [val_main_v18_apply, val_main_v17_apply, val_main_v16_apply, idx_v17_v16,
    ref_mass A0 A1 A2 A3 w x mem q hs hw hx hmem hq, ref_expw A0 A1 A2 A3 w x mem q hs hw hx hmem hq, Ideal.hostDivf_def,
    Ideal.div_coe (Cert.Spec.mass_pos q (Cert.Spec.memNew w x mem) b).ne', ← EReal.coe_mul, mul_one_div]

end Read

theorem ref_ret (hs : ∀ b, ∑ k : Fin 32768, w b k ≠ 0)
    (hw : ∀ b k, A2 (ix2 b k) = ((w b k : ℝ) : EReal)) (hx : ∀ b f, A1 (ix2 b f) = ((x b f : ℝ) : EReal))
    (hmem : ∀ m f, A0 (ix2 m f) = ((mem m f : ℝ) : EReal)) (hq : ∀ b f, A3 (ix2 b f) = ((q b f : ℝ) : EReal))
    (b : Fin 4096) (f : Fin 128) :
    val_main_v19 (F := Ideal) A0 A1 A2 A3 (ix2 b f) = ((Cert.Spec.ret q (Cert.Spec.memNew w x mem) b f : ℝ) : EReal) := by
  rw [val_main_v19_apply]
  unfold Cert.Spec.ret
  rw [← sum_softmax_mul, Cert.Spec.coe_sum]
  refine Finset.sum_congr rfl fun k _ => ?_
  rw [lidx_v19, ridx_v19, ref_softmax A0 A1 A2 A3 w x mem q hs hw hx hmem hq, ref_memNew A0 A1 A2 w x mem hs hw hx hmem,
    ← EReal.coe_mul]

theorem ref_conf (hs : ∀ b, ∑ k : Fin 32768, w b k ≠ 0)
    (hw : ∀ b k, A2 (ix2 b k) = ((w b k : ℝ) : EReal)) (hx : ∀ b f, A1 (ix2 b f) = ((x b f : ℝ) : EReal))
    (hmem : ∀ m f, A0 (ix2 m f) = ((mem m f : ℝ) : EReal)) (hq : ∀ b f, A3 (ix2 b f) = ((q b f : ℝ) : EReal))
    (b : Fin 4096) :
    val_main_v20 (F := Ideal) A0 A1 A2 A3 (ix1 b) = ((Cert.Spec.conf q (Cert.Spec.memNew w x mem) b : ℝ) : EReal) := by
  unfold val_main_v20
  rw [rowmax _ _ (by rw [val_main_cst_3_apply, Ideal.ofBits_def, ofBits_neg_inf]) b _
    (fun k => ref_softmax A0 A1 A2 A3 w x mem q hs hw hx hmem hq b k)]
  unfold Cert.Spec.conf
  refine congrArg _ (le_antisymm ?_ ?_)
  · exact Finset.sup'_le _ _ fun k _ =>
      softmax_le _ ⟨(0 : Fin 32768), Finset.mem_univ _⟩ (Cert.Spec.score_le_smax q _ b k)
  · obtain ⟨m, hm⟩ := Cert.Spec.exists_score_eq_smax q (Cert.Spec.memNew w x mem) b
    have e : 1 / mass (Cert.Spec.score q (Cert.Spec.memNew w x mem) b) Finset.univ (Cert.Spec.smax q (Cert.Spec.memNew w x mem) b)
        = Real.exp (Cert.Spec.score q (Cert.Spec.memNew w x mem) b m - Cert.Spec.smax q (Cert.Spec.memNew w x mem) b)
          / mass (Cert.Spec.score q (Cert.Spec.memNew w x mem) b) Finset.univ (Cert.Spec.smax q (Cert.Spec.memNew w x mem) b) := by
      rw [hm, sub_self, Real.exp_zero]
    rw [e]
    exact Finset.le_sup' (fun k => Real.exp (Cert.Spec.score q (Cert.Spec.memNew w x mem) b k - Cert.Spec.smax q (Cert.Spec.memNew w x mem) b)
      / mass (Cert.Spec.score q (Cert.Spec.memNew w x mem) b) Finset.univ (Cert.Spec.smax q (Cert.Spec.memNew w x mem) b)) (Finset.mem_univ m)

end Cert.RefSpec

end
-- ==== Proof.PreDecode.lean ====
/-
  The precondition, decoded: every entry of the four argument arrays is a real number, and no row of the weights
  sums to zero.
  Each `jnp.all` is a reduction by `and` that came out 1, so every compared entry passed its test; an extended
  real whose absolute value is below `+∞` is neither infinity; the row sums are compared with zero one by one.
-/
import proofs.«155079_g79826262164167_feedfinal_366_31_alg».proof.Pre_finite_inputs
import proofs.«155079_g79826262164167_feedfinal_366_31_alg».proof.Proof.Gen.Pre_finite_inputs
import Idealize.ShloMosaic.Lib.ReduceAll
import Idealize.ShloMosaic.Lib.ValueIdx
import Idealize.ShloMosaic.PureOps.Ideal.Laws

noncomputable section

namespace Cert.PreDecode

open Idealize.ShloMosaic Idealize.ShloMosaic.ValueIdx Cert.Pre_finite_inputs

attribute [local instance] Cert.Pre_finite_inputs.Gen.facts

instance : Subsingleton S_.Idx := ⟨fun a b => funext fun d => d.elim0⟩

/-- The f32 pattern of `+∞`. -/
theorem ofBits_inf : Ideal.ofBits .f32 0x7F800000#32 = (⊤ : EReal) := by
  simp [Ideal.ofBits, Ideal.ieee]

/-- The f32 pattern of zero. -/
theorem ofBits_zero : Ideal.ofBits .f32 0x00000000#32 = (0 : EReal) := by
  simp [Ideal.ofBits, Ideal.ieee]

/-- An entry whose absolute value compares below `+∞` is a real number. -/
theorem real_of_lt_top (S : Shape) (hb : S_.BroadcastsInDim S (![] : Fin 0 → Fin S.rank)) (A : FVec Ideal S .f32) (i : S.Idx)
    (h : cmpf .olt (Host.absf A) (broadcastInDim S ![] hb (constant (F := Ideal) S_ .f32 0x7F800000#32)) i = 1#1) :
    ∃ r : ℝ, A i = r := by
  simp only [cmpf, Host.absf, broadcastInDim, constant, Ideal.hostAbsf_def, Ideal.cmpf_def, Ideal.absf_def, Ideal.ofBits_def,
    ofBits_inf] at h
  generalize A i = a at h ⊢
  have hlt : max a (-a) < ⊤ := by
    by_contra hn
    simp [Ideal.cmp, hn] at h
  induction a using EReal.rec with
  | bot => simp at hlt
  | coe r => exact ⟨r, rfl⟩
  | top => simp at hlt

/-- The precondition's five conjuncts, entry by entry. -/
theorem decode (A0 : FVec Ideal S32768x128 .f32) (A1 : FVec Ideal S4096x128 .f32) (A2 : FVec Ideal S4096x32768 .f32)
    (A3 : FVec Ideal S4096x128 .f32) (h : fn (F := Ideal) A0 A1 A2 A3 = fun _ => 1#1) :
    (∀ i, ∃ r : ℝ, A0 i = r) ∧ (∀ i, ∃ r : ℝ, A1 i = r) ∧ (∀ i, ∃ r : ℝ, A2 i = r) ∧ (∀ i, ∃ r : ℝ, A3 i = r)
      ∧ ∀ b : Fin 4096, (∑ k : Fin 32768, A2 (ix2 b k)) ≠ 0 := by
  have h0 := congrFun h ix0
  dsimp only [fn, fn_part1] at h0
  simp only [andi, IntOp.andi_eq_one] at h0
  obtain ⟨⟨⟨⟨e0, e1⟩, e2⟩, e3⟩, e4⟩ := h0
  refine ⟨fun i => real_of_lt_top _ _ A0 i (Host.reduce_andi_all _ _ _ _ _ e0 i),
    fun i => real_of_lt_top _ _ A1 i (Host.reduce_andi_all _ _ _ _ _ e1 i),
    fun i => real_of_lt_top _ _ A2 i (Host.reduce_andi_all _ _ _ _ _ e2 i),
    fun i => real_of_lt_top _ _ A3 i (Host.reduce_andi_all _ _ _ _ _ e3 i), fun b => ?_⟩
  have hb := Host.reduce_andi_all _ _ _ _ _ e4 (ix1 b)
  simp only [cmpf, broadcastInDim, constant, Host.reduceAdd, Ideal.hostReduceAdd_def, Ideal.cmpf_def, Ideal.ofBits_def,
    ofBits_zero] at hb
  rw [Ideal.hostReduceAdd_single Facts.reducesTo_S4096x32768_S4096_d1 (by decide)] at hb
  intro hz
  have hz' : (0 : EReal) + ∑ k : Fin 32768, A2 (ix2 b k) = 0 := by rw [hz, zero_add]
  have hb' : Ideal.cmp .une ((0 : EReal) + ∑ k : Fin 32768, A2 (ix2 b k)) 0 = 1#1 := by
    refine Eq.trans (congrArg (fun s => Ideal.cmp .une ((0 : EReal) + s) 0) ?_) hb
    exact Finset.sum_congr rfl fun k _ => congrArg A2 (funext fun a => Fin.ext (by match a with | ⟨0, _⟩ => rfl | ⟨1, _⟩ => rfl))
  simp [Ideal.cmp, hz'] at hb'

end Cert.PreDecode

end
-- ==== Proof.Assemble.lean ====
/-
  The two programs' results are the same real-valued functions of real-valued arguments.

  Under the precondition the four argument arrays hold real numbers and no row of the weights sums to zero
  (PreDecode). The write region's array is then `Spec.memNew` of them, coerced (region 0's value), and so is the
  reference's `memory + normalised weightsᵀ · input`; the read region's two arrays are `Spec.ret` and `Spec.conf` of the
  query and that memory, and so are the reference's softmax read and its greatest weight; the kernel's host
  reshape [4096,1] → [4096] reads the confidence column at (b, 0).
-/
import proofs.«155079_g79826262164167_feedfinal_366_31_alg».proof.Defs
import proofs.«155079_g79826262164167_feedfinal_366_31_alg».proof.Proof.KI.Run
import proofs.«155079_g79826262164167_feedfinal_366_31_alg».proof.Proof.KI.Val0
import proofs.«155079_g79826262164167_feedfinal_366_31_alg».proof.Proof.KI.Val1
import proofs.«155079_g79826262164167_feedfinal_366_31_alg».proof.Proof.RefIsSpec
import proofs.«155079_g79826262164167_feedfinal_366_31_alg».proof.Proof.RefSide
import proofs.«155079_g79826262164167_feedfinal_366_31_alg».proof.Proof.PreDecode
import proofs.«155079_g79826262164167_feedfinal_366_31_alg».proof.Proof.Spec
import Idealize.ShloMosaic.Lib.StableHlo.Run
import Idealize.ShloMosaic.Lib.ValueLayout

set_option maxRecDepth 16384

noncomputable section

namespace Cert.Proof.Assemble

open Idealize.ShloMosaic Idealize.ShloMosaic.TcCoe Idealize.SL.Sem Idealize.ShloMosaic.ValueIdx
open Cert.KernelIdeal Cert.KernelIdeal.Gen Cert.KernelIdeal.Hand

attribute [local instance] Cert.KernelIdeal.Gen.facts Cert.ReferenceIdeal.Gen.facts Cert.Pre_finite_inputs.Gen.facts

variable (m : (ℓ : Loc nD τ sig) → Buf (Elt Ideal) ℓ) (ρ : Dev nD → PrngReg)

/-- The four argument arrays as real arrays, with the row sums of the weights nonzero. -/
theorem witnesses (hpre : Cert.Pre_KernelIdeal m) (c : Dev nD) :
    ∃ (mem : Fin 32768 → Fin 128 → ℝ) (x : Fin 4096 → Fin 128 → ℝ) (w : Fin 4096 → Fin 32768 → ℝ) (q : Fin 4096 → Fin 128 → ℝ),
      (∀ p f, (m ((c.tc : Thread nD τ).loc main_arg0) : S32768x128.Idx → EReal) (ix2 p f) = ((mem p f : ℝ) : EReal))
      ∧ (∀ b f, (m ((c.tc : Thread nD τ).loc main_arg1) : S4096x128.Idx → EReal) (ix2 b f) = ((x b f : ℝ) : EReal))
      ∧ (∀ b k, (m ((c.tc : Thread nD τ).loc main_arg2) : S4096x32768.Idx → EReal) (ix2 b k) = ((w b k : ℝ) : EReal))
      ∧ (∀ b f, (m ((c.tc : Thread nD τ).loc main_arg3) : S4096x128.Idx → EReal) (ix2 b f) = ((q b f : ℝ) : EReal))
      ∧ ∀ b, ∑ k : Fin 32768, w b k ≠ 0 := by
  obtain ⟨h0, h1, h2, h3, hs⟩ := Cert.PreDecode.decode _ _ _ _ (hpre c)
  choose g0 hg0 using h0
  choose g1 hg1 using h1
  choose g2 hg2 using h2
  choose g3 hg3 using h3
  refine ⟨fun p f => g0 (ix2 p f), fun b f => g1 (ix2 b f), fun b k => g2 (ix2 b k), fun b f => g3 (ix2 b f),
    fun p f => hg0 _, fun b f => hg1 _, fun b k => hg2 _, fun b f => hg3 _, fun b hz => hs b ?_⟩
  have key : ∀ (A : S4096x32768.Idx → EReal) (g : Fin 32768 → ℝ), (∀ k, A (ix2 b k) = ((g k : ℝ) : EReal)) →
      ∑ k : Fin 32768, A (ix2 b k) = ((∑ k : Fin 32768, g k : ℝ) : EReal) := fun A g hA => by
    rw [Cert.Spec.coe_sum]; exact Finset.sum_congr rfl fun k _ => hA k
  rw [key (m ((c.tc : Thread nD τ).loc main_arg2)) (fun k => g2 (ix2 b k)) (fun k => hg2 _), hz]; rfl

/-- The reshape of the confidence column: entry `b` of `main_v2` is entry `(b, 0)` of `main_v1_1`. -/
theorem B3_main_v2 (c : Dev nD) (b : Fin 4096) :
    (B3 m ρ c (Proc.devRef .tc main_v2) : S4096.Idx → EReal) (ix1 b)
      = ((dat1 (F := Ideal) (E1 m ρ) c).arrAt 3 cfg1.N : S4096x1.Idx → EReal) (ix2 b 0) := by
  have e : (B3 m ρ c (Proc.devRef .tc main_v2) : S4096.Idx → EReal)
      = shapeCast S4096 (B2 m ρ c (Proc.devRef .tc main_v1_1) : S4096x1.Idx → EReal) shapeCasts_S4096x1_S4096 := by
    show StableHlo.after hostOps2 (B2 m ρ c) (Proc.devRef .tc main_v2) = _
    after_results
    rfl
  rw [e, ← B2_main_v1_1]
  exact shapeCast_apply _ _ (ix1 b) (ix2 b 0) (by
    rw [Shape.rowMajor_val_two, Shape.rowMajor_val_one]
    show b.val * 1 + 0 = b.val
    omega)

section Results

variable (c : Dev nD) (mem : Fin 32768 → Fin 128 → ℝ) (x : Fin 4096 → Fin 128 → ℝ) (w : Fin 4096 → Fin 32768 → ℝ)
  (q : Fin 4096 → Fin 128 → ℝ)
  (hmem : ∀ p f, (m ((c.tc : Thread nD τ).loc main_arg0) : S32768x128.Idx → EReal) (ix2 p f) = ((mem p f : ℝ) : EReal))
  (hx : ∀ b f, (m ((c.tc : Thread nD τ).loc main_arg1) : S4096x128.Idx → EReal) (ix2 b f) = ((x b f : ℝ) : EReal))
  (hw : ∀ b k, (m ((c.tc : Thread nD τ).loc main_arg2) : S4096x32768.Idx → EReal) (ix2 b k) = ((w b k : ℝ) : EReal))
  (hq : ∀ b f, (m ((c.tc : Thread nD τ).loc main_arg3) : S4096x128.Idx → EReal) (ix2 b f) = ((q b f : ℝ) : EReal))
  (hs : ∀ b, ∑ k : Fin 32768, w b k ≠ 0)

include hmem hx hw hs in
/-- The write region's array is `Spec.memNew` of the arguments. -/
theorem mem_new_eq (p : Fin 32768) (f : Fin 128) :
    ((dat0 (F := Ideal) (E0 m ρ) c).arrAt 3 cfg0.N : S32768x128.Idx → EReal) (ix2 p f) = ((Cert.Spec.memNew w x mem p f : ℝ) : EReal) :=
  final0 (E0 m ρ) c w x mem hw hx hmem hs p f

include hmem hx hw hs in
/-- What the read region finds in its memory window's array. -/
theorem E1_main_v0 (p : Fin 32768) (f : Fin 128) :
    (E1 m ρ c main_v0 : S32768x128.Idx → EReal) (ix2 p f) = ((Cert.Spec.memNew w x mem p f : ℝ) : EReal) := by
  show (B1 m ρ c (Proc.devRef .tc main_v0) : S32768x128.Idx → EReal) (ix2 p f) = _
  rw [show B1 m ρ c (Proc.devRef .tc main_v0) = (dat0 (E0 m ρ) c).arrAt 3 cfg0.N from B1_arr m ρ c 3]
  exact mem_new_eq m ρ c mem x w hmem hx hw hs p f

include hq in
theorem E1_main_arg3 (b : Fin 4096) (f : Fin 128) :
    (E1 m ρ c main_arg3 : S4096x128.Idx → EReal) (ix2 b f) = ((q b f : ℝ) : EReal) := by
  show (B1 m ρ c (Proc.devRef .tc main_arg3) : S4096x128.Idx → EReal) (ix2 b f) = _
  rw [B1_of_ne m ρ c main_arg3 (by decide)]
  exact hq b f

include hmem hx hw hq hs in
/-- The three results of the kernel's program against the reference's stages. -/
theorem res_ret : Cert.ReferenceIdeal.Read.val_main_v19 (F := Ideal) (m ((c.tc : Thread nD τ).loc main_arg0)) (m ((c.tc : Thread nD τ).loc main_arg1))
      (m ((c.tc : Thread nD τ).loc main_arg2)) (m ((c.tc : Thread nD τ).loc main_arg3))
    = B3 m ρ c (Proc.devRef .tc main_v1_0) := by
  funext i
  obtain ⟨b, f, rfl⟩ : ∃ (b : Fin 4096) (f : Fin 128), i = ix2 b f := ⟨i 0, i 1, eq_ix2 i⟩
  rw [B3_main_v1_0]
  refine (Cert.RefSpec.ref_ret _ _ _ _ w x mem q hs hw hx hmem hq b f).trans ?_
  exact (final1_ret (E1 m ρ) c q (Cert.Spec.memNew w x mem) (E1_main_arg3 m ρ c q hq)
    (E1_main_v0 m ρ c mem x w hmem hx hw hs) b f).symm

include hmem hx hw hq hs in
theorem res_conf : Cert.ReferenceIdeal.Read.val_main_v20 (F := Ideal) (m ((c.tc : Thread nD τ).loc main_arg0)) (m ((c.tc : Thread nD τ).loc main_arg1))
      (m ((c.tc : Thread nD τ).loc main_arg2)) (m ((c.tc : Thread nD τ).loc main_arg3))
    = B3 m ρ c (Proc.devRef .tc main_v2) := by
  funext i
  obtain ⟨b, rfl⟩ : ∃ b : Fin 4096, i = ix1 b := ⟨i 0, eq_ix1 i⟩
  rw [B3_main_v2]
  refine (Cert.RefSpec.ref_conf _ _ _ _ w x mem q hs hw hx hmem hq b).trans ?_
  exact (final1_conf (E1 m ρ) c q (Cert.Spec.memNew w x mem) (E1_main_arg3 m ρ c q hq)
    (E1_main_v0 m ρ c mem x w hmem hx hw hs) b).symm

include hmem hx hw hs in
theorem res_mem : Cert.ReferenceIdeal.Read.val_main_v5 (F := Ideal) (m ((c.tc : Thread nD τ).loc main_arg0)) (m ((c.tc : Thread nD τ).loc main_arg1))
      (m ((c.tc : Thread nD τ).loc main_arg2))
    = B3 m ρ c (Proc.devRef .tc main_v0) := by
  funext i
  obtain ⟨p, f, rfl⟩ : ∃ (p : Fin 32768) (f : Fin 128), i = ix2 p f := ⟨i 0, i 1, eq_ix2 i⟩
  rw [B3_main_v0]
  refine (Cert.RefSpec.ref_memNew _ _ _ w x mem hs hw hx hmem p f).trans ?_
  exact (mem_new_eq m ρ c mem x w hmem hx hw hs p f).symm

end Results

/-- The value claim. -/
theorem algebraic : Cert.algebraic_KernelIdeal_ReferenceIdeal := by
  intro m ρ m' ρ' hpre hagree
  refine ⟨fun c => B3 m ρ c (Proc.devRef .tc main_v1_0), fun c => B3 m ρ c (Proc.devRef .tc main_v2),
    fun c => B3 m ρ c (Proc.devRef .tc main_v0), ?_, ?_⟩
  · exact (θ_run Cert.KernelIdeal.defs _ _).mono (fun r h c =>
      ⟨h c _ (mem_ucH main_v1_0 (by decide)), h c _ (mem_ucH main_v2 (by decide)), h c _ (mem_ucH main_v0 (by decide)),
       (h c _ (mem_ucH main_arg0 (by decide))).trans (B3_main_arg0 m ρ c),
       (h c _ (mem_ucH main_arg1 (by decide))).trans (B3_main_arg1 m ρ c),
       (h c _ (mem_ucH main_arg2 (by decide))).trans (B3_main_arg2 m ρ c),
       (h c _ (mem_ucH main_arg3 (by decide))).trans (B3_main_arg3 m ρ c)⟩) (run_all (F := Ideal) m ρ)
  · refine (θ_run Cert.ReferenceIdeal.defs _ _).mono (fun r h c => ?_) (Cert.ReferenceIdeal.Value.run (F := Ideal) m' ρ')
    obtain ⟨mem, x, w, q, hmem, hx, hw, hq, hs⟩ := witnesses m hpre c
    obtain ⟨h19, h20, h5, ha0, ha1, ha2, ha3⟩ := h c
    refine ⟨h19.trans ?_, h20.trans ?_, h5.trans ?_, ha0, ha1, ha2, ha3⟩
    · rw [(hagree c).1, (hagree c).2.1, (hagree c).2.2.1, (hagree c).2.2.2, Cert.ReferenceIdeal.Read.val_main_v19_eq]
      exact res_ret m ρ c mem x w q hmem hx hw hq hs
    · rw [(hagree c).1, (hagree c).2.1, (hagree c).2.2.1, (hagree c).2.2.2, Cert.ReferenceIdeal.Read.val_main_v20_eq]
      exact res_conf m ρ c mem x w q hmem hx hw hq hs
    · rw [(hagree c).1, (hagree c).2.1, (hagree c).2.2.1, Cert.ReferenceIdeal.Read.val_main_v5_eq]
      exact res_mem m ρ c mem x w hmem hx hw hs

end Cert.Proof.Assemble

end
-- ==== Proof.lean ====
/-
  The claim: a memory bank's weighted write followed by a softmax-attention read.

  Write: every row `b` of the weights is divided by its row sum `σ b`, and slot `m` of the memory gains
  `∑ b, w b m / σ b * x b f`. The kernel divides the VALUES by the row sum instead, `∑ b, w b m * (x b f / σ b)`,
  accumulated over 32 blocks of 128 rows into a buffer that stays resident, the memory added slab by slab:
  for a nonzero row sum the two are one real number, for a zero row sum they are not (there `0 / 0` is `⊥` and
  `1 / 0` is `⊤`), which is why the precondition asks every row sum to be nonzero.
  Read: with scores `s b m = ∑ f, q b f * mem m f`, the result is `∑ m, softmax (s b) m * mem m f` and the
  confidence `max m, softmax (s b) m`. The kernel streams the slots in two blocks of eight chunks, keeping a
  running maximum and the two sums `∑ exp (s - M)`, `∑ exp (s - M) * mem` rescaled to it, and divides once at the
  end: the quotient does not depend on the reference point, and at the greatest score the greatest weight is one
  over the first sum.

  The frames: each region's body is run once per control case at a symbolic grid point, the regions and the host
  reshape are chained as segments, and every unscoped buffer is read off the last boundary (Run); no segment
  writes an argument array. The values: Spec states the three results as real functions of real arguments; the
  write region's array (Val0), the read region's two arrays (Val1) and the reference's three results (RefIsSpec)
  are each the coerced Spec term; Assemble joins them under the decoded precondition.
-/
import proofs.«155079_g79826262164167_feedfinal_366_31_alg».proof.Defs
import proofs.«155079_g79826262164167_feedfinal_366_31_alg».proof.Proof.Gen.Kernel
import proofs.«155079_g79826262164167_feedfinal_366_31_alg».proof.Proof.Gen.KernelIdeal
import proofs.«155079_g79826262164167_feedfinal_366_31_alg».proof.Proof.Gen.ReferenceIdeal
import proofs.«155079_g79826262164167_feedfinal_366_31_alg».proof.Proof.Gen.Pre_finite_inputs
import proofs.«155079_g79826262164167_feedfinal_366_31_alg».proof.Proof.K.Run
import proofs.«155079_g79826262164167_feedfinal_366_31_alg».proof.Proof.KI.Run
import proofs.«155079_g79826262164167_feedfinal_366_31_alg».proof.Proof.RefSide
import proofs.«155079_g79826262164167_feedfinal_366_31_alg».proof.Proof.Assemble

noncomputable section

namespace Cert.Proof

open Idealize.ShloMosaic Idealize.SL.Sem

attribute [local instance] Cert.Kernel.Gen.facts Cert.KernelIdeal.Gen.facts Cert.ReferenceIdeal.Gen.facts
  Cert.Pre_finite_inputs.Gen.facts

/-- The word-level kernel's frame: both regions and the reshape run to the end and write no argument array. -/
theorem frame_k : Cert.frame_Kernel := fun m ρ _ => Cert.Kernel.Hand.frame_all (F := Bits) m ρ

/-- The idealized kernel's frame. -/
theorem frame_ki : Cert.frame_KernelIdeal := fun m ρ _ => Cert.KernelIdeal.Hand.frame_all (F := Ideal) m ρ

/-- The idealization rewrote nothing. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, RefSide.frame_ri, preserves, Assemble.algebraic⟩

end Cert.Proof

end
